-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x82x10 : Shape := ⟨3, ![4096, 82, 10]⟩
abbrev S4096x82x82 : Shape := ⟨3, ![4096, 82, 82]⟩
abbrev S10x15 : Shape := ⟨2, ![10, 15]⟩
abbrev S15 : Shape := ⟨1, ![15]⟩
abbrev S15x15 : Shape := ⟨2, ![15, 15]⟩
abbrev S1230x300 : Shape := ⟨2, ![1230, 300]⟩
abbrev S300 : Shape := ⟨1, ![300]⟩
abbrev S300x29 : Shape := ⟨2, ![300, 29]⟩
abbrev S29 : Shape := ⟨1, ![29]⟩
abbrev S_ : Shape := ⟨0, ![]⟩

class Facts : Prop where
  bcast_S_S4096x82x10 : S_.BroadcastsInDim S4096x82x10 (![] : Fin 0 → Fin S4096x82x10.rank)
  reducesTo_S4096x82x10_S_d0_1_2 : S4096x82x10.ReducesTo [0, 1, 2] S_
  h_S_ : 0 < S_.numel
  bcast_S_S4096x82x82 : S_.BroadcastsInDim S4096x82x82 (![] : Fin 0 → Fin S4096x82x82.rank)
  reducesTo_S4096x82x82_S_d0_1_2 : S4096x82x82.ReducesTo [0, 1, 2] S_
  bcast_S_S10x15 : S_.BroadcastsInDim S10x15 (![] : Fin 0 → Fin S10x15.rank)
  reducesTo_S10x15_S_d0_1 : S10x15.ReducesTo [0, 1] S_
  bcast_S_S15 : S_.BroadcastsInDim S15 (![] : Fin 0 → Fin S15.rank)
  reducesTo_S15_S_d0 : S15.ReducesTo [0] S_
  bcast_S_S15x15 : S_.BroadcastsInDim S15x15 (![] : Fin 0 → Fin S15x15.rank)
  reducesTo_S15x15_S_d0_1 : S15x15.ReducesTo [0, 1] S_
  bcast_S_S1230x300 : S_.BroadcastsInDim S1230x300 (![] : Fin 0 → Fin S1230x300.rank)
  reducesTo_S1230x300_S_d0_1 : S1230x300.ReducesTo [0, 1] S_
  bcast_S_S300 : S_.BroadcastsInDim S300 (![] : Fin 0 → Fin S300.rank)
  reducesTo_S300_S_d0 : S300.ReducesTo [0] S_
  bcast_S_S300x29 : S_.BroadcastsInDim S300x29 (![] : Fin 0 → Fin S300x29.rank)
  reducesTo_S300x29_S_d0_1 : S300x29.ReducesTo [0, 1] S_
  bcast_S_S29 : S_.BroadcastsInDim S29 (![] : Fin 0 → Fin S29.rank)
  reducesTo_S29_S_d0 : S29.ReducesTo [0] S_

variable [Facts]

def fn_part2 {F : FTy → Type} [FloatOps F] (main_arg7 : FVec F S300 .f32) (main_arg8 : FVec F S300x29 .f32) (main_arg9 : FVec F S29 .f32) (main_v33 : IVec S_ 1) : IVec S_ 1 :=
  let main_v34 : FVec F S300 .f32 := Host.absf main_arg7
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300x29 .f32 := Host.absf main_arg8
  let main_cst_14 : FVec F S_ .f32 := constant S_ .f32 0x7F800000#32
  let main_v40 : FVec F S300x29 .f32 := broadcastInDim S300x29 ![] bcast_S_S300x29 main_cst_14
  let main_v41 : IVec S300x29 1 := cmpf .olt main_v39 main_v40
  let main_c_15 : IVec S_ 1 := constantI S_ 1 1#1
  let main_v42 : IVec S_ 1 := (fun x v => Host.reduce IntOp.andi x v reducesTo_S300x29_S_d0_1 h_S_) main_v41 main_c_15
  let main_v43 : IVec S_ 1 := andi main_v38 main_v42
  let main_v44 : FVec F S29 .f32 := Host.absf main_arg9
  let main_cst_16 : FVec F S_ .f32 := constant S_ .f32 0x7F800000#32
  let main_v45 : FVec F S29 .f32 := broadcastInDim S29 ![] bcast_S_S29 main_cst_16
  let main_v46 : IVec S29 1 := cmpf .olt main_v44 main_v45
  let main_c_17 : IVec S_ 1 := constantI S_ 1 1#1
  let main_v47 : IVec S_ 1 := (fun x v => Host.reduce IntOp.andi x v reducesTo_S29_S_d0 h_S_) main_v46 main_c_17
  let main_v48 : IVec S_ 1 := andi main_v43 main_v47
  main_v48

def fn_part1 {F : FTy → Type} [FloatOps F] (main_arg4 : FVec F S15x15 .f32) (main_arg5 : FVec F S15 .f32) (main_arg6 : FVec F S1230x300 .f32) (main_arg7 : FVec F S300 .f32) (main_arg8 : FVec F S300x29 .f32) (main_arg9 : FVec F S29 .f32) (main_v13 : IVec S_ 1) (main_v16 : IVec S15 1) : IVec S_ 1 :=
  let main_c_5 : IVec S_ 1 := constantI S_ 1 1#1
  let main_v17 : IVec S_ 1 := (fun x v => Host.reduce IntOp.andi x v reducesTo_S15_S_d0 h_S_) main_v16 main_c_5
  let main_v18 : IVec S_ 1 := andi main_v13 main_v17
  let main_v19 : FVec F S15x15 .f32 := Host.absf main_arg4
  let main_cst_6 : FVec F S_ .f32 := constant S_ .f32 0x7F800000#32
  let main_v20 : FVec F S15x15 .f32 := broadcastInDim S15x15 ![] bcast_S_S15x15 main_cst_6
  let main_v21 : IVec S15x15 1 := cmpf .olt main_v19 main_v20
  let main_c_7 : IVec S_ 1 := constantI S_ 1 1#1
  let main_v22 : IVec S_ 1 := (fun x v => Host.reduce IntOp.andi x v reducesTo_S15x15_S_d0_1 h_S_) main_v21 main_c_7
  let main_v23 : IVec S_ 1 := andi main_v18 main_v22
  let main_v24 : FVec F S15 .f32 := Host.absf main_arg5
  let main_cst_8 : FVec F S_ .f32 := constant S_ .f32 0x7F800000#32
  let main_v25 : FVec F S15 .f32 := broadcastInDim S15 ![] bcast_S_S15 main_cst_8
  let main_v26 : IVec S15 1 := cmpf .olt main_v24 main_v25
  let main_c_9 : IVec S_ 1 := constantI S_ 1 1#1
  let main_v27 : IVec S_ 1 := (fun x v => Host.reduce IntOp.andi x v reducesTo_S15_S_d0 h_S_) main_v26 main_c_9
  let main_v28 : IVec S_ 1 := andi main_v23 main_v27
  let main_v29 : FVec F S1230x300 .f32 := Host.absf main_arg6
  let main_cst_10 : FVec F S_ .f32 := constant S_ .f32 0x7F800000#32
  let main_v30 : FVec F S1230x300 .f32 := broadcastInDim S1230x300 ![] bcast_S_S1230x300 main_cst_10
  let main_v31 : IVec S1230x300 1 := cmpf .olt main_v29 main_v30
  let main_c_11 : IVec S_ 1 := constantI S_ 1 1#1
  let main_v32 : IVec S_ 1 := (fun x v => Host.reduce IntOp.andi x v reducesTo_S1230x300_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x82x10 .f32) (main_arg1 : FVec F S4096x82x82 .f32) (main_arg2 : FVec F S10x15 .f32) (main_arg3 : FVec F S15 .f32) (main_arg4 : FVec F S15x15 .f32) (main_arg5 : FVec F S15 .f32) (main_arg6 : FVec F S1230x300 .f32) (main_arg7 : FVec F S300 .f32) (main_arg8 : FVec F S300x29 .f32) (main_arg9 : FVec F S29 .f32) : IVec S_ 1 :=
  let main_v0 : FVec F S4096x82x10 .f32 := Host.absf main_arg0
  let main_cst : FVec F S_ .f32 := constant S_ .f32 0x7F800000#32
  let main_v1 : FVec F S4096x82x10 .f32 := broadcastInDim S4096x82x10 ![] bcast_S_S4096x82x10 main_cst
  let main_v2 : IVec S4096x82x10 1 := cmpf .olt main_v0 main_v1
  let main_c : IVec S_ 1 := constantI S_ 1 1#1
  let main_v3 : IVec S_ 1 := (fun x v => Host.reduce IntOp.andi x v reducesTo_S4096x82x10_S_d0_1_2 h_S_) main_v2 main_c
  let main_v4 : FVec F S4096x82x82 .f32 := Host.absf main_arg1
  let main_cst_0 : FVec F S_ .f32 := constant S_ .f32 0x7F800000#32
  let main_v5 : FVec F S4096x82x82 .f32 := broadcastInDim S4096x82x82 ![] bcast_S_S4096x82x82 main_cst_0
  let main_v6 : IVec S4096x82x82 1 := cmpf .olt main_v4 main_v5
  let main_c_1 : IVec S_ 1 := constantI S_ 1 1#1
  let main_v7 : IVec S_ 1 := (fun x v => Host.reduce IntOp.andi x v reducesTo_S4096x82x82_S_d0_1_2 h_S_) main_v6 main_c_1
  let main_v8 : IVec S_ 1 := andi main_v3 main_v7
  let main_v9 : FVec F S10x15 .f32 := Host.absf main_arg2
  let main_cst_2 : FVec F S_ .f32 := constant S_ .f32 0x7F800000#32
  let main_v10 : FVec F S10x15 .f32 := broadcastInDim S10x15 ![] bcast_S_S10x15 main_cst_2
  let main_v11 : IVec S10x15 1 := cmpf .olt main_v9 main_v10
  let main_c_3 : IVec S_ 1 := constantI S_ 1 1#1
  let main_v12 : IVec S_ 1 := (fun x v => Host.reduce IntOp.andi x v reducesTo_S10x15_S_d0_1 h_S_) main_v11 main_c_3
  let main_v13 : IVec S_ 1 := andi main_v8 main_v12
  let main_v14 : FVec F S15 .f32 := Host.absf main_arg3
  let main_cst_4 : FVec F S_ .f32 := constant S_ .f32 0x7F800000#32
  let main_v15 : FVec F S15 .f32 := broadcastInDim S15 ![] bcast_S_S15 main_cst_4
  let main_v16 : IVec S15 1 := cmpf .olt main_v14 main_v15
  fn_part1 (F := F) main_arg4 main_arg5 main_arg6 main_arg7 main_arg8 main_arg9 main_v13 main_v16
-- ==== Kernel.lean ====
abbrev S4096x82x10 : Shape := ⟨3, ![4096, 82, 10]⟩
abbrev S4096x82x82 : Shape := ⟨3, ![4096, 82, 82]⟩
abbrev S10x15 : Shape := ⟨2, ![10, 15]⟩
abbrev S15 : Shape := ⟨1, ![15]⟩
abbrev S15x15 : Shape := ⟨2, ![15, 15]⟩
abbrev S1230x300 : Shape := ⟨2, ![1230, 300]⟩
abbrev S300 : Shape := ⟨1, ![300]⟩
abbrev S300x29 : Shape := ⟨2, ![300, 29]⟩
abbrev S29 : Shape := ⟨1, ![29]⟩
abbrev S8x8 : Shape := ⟨2, ![8, 8]⟩
abbrev S_ : Shape := ⟨0, ![]⟩
abbrev S8x1x8x1 : Shape := ⟨4, ![8, 1, 8, 1]⟩
abbrev S1x10x1x15 : Shape := ⟨4, ![1, 10, 1, 15]⟩
abbrev S8x10x8x15 : Shape := ⟨4, ![8, 10, 8, 15]⟩
abbrev S80x120 : Shape := ⟨2, ![80, 120]⟩
abbrev S1x15x1x15 : Shape := ⟨4, ![1, 15, 1, 15]⟩
abbrev S8x15x8x15 : Shape := ⟨4, ![8, 15, 8, 15]⟩
abbrev S120x120 : Shape := ⟨2, ![120, 120]⟩
abbrev S1x15 : Shape := ⟨2, ![1, 15]⟩
abbrev S8x15 : Shape := ⟨2, ![8, 15]⟩
abbrev S120 : Shape := ⟨1, ![120]⟩
abbrev S1x120 : Shape := ⟨2, ![1, 120]⟩
abbrev S1x300 : Shape := ⟨2, ![1, 300]⟩
abbrev S1x29 : Shape := ⟨2, ![1, 29]⟩
abbrev S512x8x82x10 : Shape := ⟨4, ![512, 8, 82, 10]⟩
abbrev S512x82x8x10 : Shape := ⟨4, ![512, 82, 8, 10]⟩
abbrev S512x82x80 : Shape := ⟨3, ![512, 82, 80]⟩
abbrev S82x15x300 : Shape := ⟨3, ![82, 15, 300]⟩
abbrev S15x82x300 : Shape := ⟨3, ![15, 82, 300]⟩
abbrev S4096x15x82 : Shape := ⟨3, ![4096, 15, 82]⟩
abbrev S16x82x80 : Shape := ⟨3, ![16, 82, 80]⟩
abbrev S128x82x82 : Shape := ⟨3, ![128, 82, 82]⟩
abbrev S128x15x82 : Shape := ⟨3, ![128, 15, 82]⟩
abbrev S16x82x120 : Shape := ⟨3, ![16, 82, 120]⟩
abbrev S1x82x80 : Shape := ⟨3, ![1, 82, 80]⟩
abbrev S82x80 : Shape := ⟨2, ![82, 80]⟩
abbrev S82x120 : Shape := ⟨2, ![82, 120]⟩
abbrev S1x82x120 : Shape := ⟨3, ![1, 82, 120]⟩
abbrev S1x82x82 : Shape := ⟨3, ![1, 82, 82]⟩
abbrev S82x82 : Shape := ⟨2, ![82, 82]⟩
abbrev S82x15 : Shape := ⟨2, ![82, 15]⟩
abbrev S1x82x15 : Shape := ⟨3, ![1, 82, 15]⟩
abbrev S15x82 : Shape := ⟨2, ![15, 82]⟩
abbrev S1x15x82 : Shape := ⟨3, ![1, 15, 82]⟩
abbrev S4096x1230 : Shape := ⟨2, ![4096, 1230]⟩
abbrev S4096x29 : Shape := ⟨2, ![4096, 29]⟩
abbrev S512x1230 : Shape := ⟨2, ![512, 1230]⟩
abbrev S512x29 : Shape := ⟨2, ![512, 29]⟩
abbrev S512x300 : Shape := ⟨2, ![512, 300]⟩

abbrev nBuf : Space → Nat
  | .hbm => 52
  | .vmem => 21
  | .smem => 0
  | _ => 0

abbrev bufTy : (tb : Table) → Fin (tcTables nBuf tb) → BufTy
  | .hbm, ⟨0, _⟩ => ⟨S4096x82x10, .f32⟩
  | .hbm, ⟨1, _⟩ => ⟨S4096x82x82, .f32⟩
  | .hbm, ⟨2, _⟩ => ⟨S10x15, .f32⟩
  | .hbm, ⟨3, _⟩ => ⟨S15, .f32⟩
  | .hbm, ⟨4, _⟩ => ⟨S15x15, .f32⟩
  | .hbm, ⟨5, _⟩ => ⟨S15, .f32⟩
  | .hbm, ⟨6, _⟩ => ⟨S1230x300, .f32⟩
  | .hbm, ⟨7, _⟩ => ⟨S300, .f32⟩
  | .hbm, ⟨8, _⟩ => ⟨S300x29, .f32⟩
  | .hbm, ⟨9, _⟩ => ⟨S29, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x1x8x1, .f32⟩
  | .hbm, ⟨18, _⟩ => ⟨S1x10x1x15, .f32⟩
  | .hbm, ⟨19, _⟩ => ⟨S8x10x8x15, .f32⟩
  | .hbm, ⟨20, _⟩ => ⟨S8x10x8x15, .f32⟩
  | .hbm, ⟨21, _⟩ => ⟨S8x10x8x15, .f32⟩
  | .hbm, ⟨22, _⟩ => ⟨S80x120, .f32⟩
  | .hbm, ⟨23, _⟩ => ⟨S80x120, .bf16⟩
  | .hbm, ⟨24, _⟩ => ⟨S8x1x8x1, .f32⟩
  | .hbm, ⟨25, _⟩ => ⟨S1x15x1x15, .f32⟩
  | .hbm, ⟨26, _⟩ => ⟨S8x15x8x15, .f32⟩
  | .hbm, ⟨27, _⟩ => ⟨S8x15x8x15, .f32⟩
  | .hbm, ⟨28, _⟩ => ⟨S8x15x8x15, .f32⟩
  | .hbm, ⟨29, _⟩ => ⟨S120x120, .f32⟩
  | .hbm, ⟨30, _⟩ => ⟨S120x120, .bf16⟩
  | .hbm, ⟨31, _⟩ => ⟨S1x15, .f32⟩
  | .hbm, ⟨32, _⟩ => ⟨S8x15, .f32⟩
  | .hbm, ⟨33, _⟩ => ⟨S120, .f32⟩
  | .hbm, ⟨34, _⟩ => ⟨S1x120, .f32⟩
  | .hbm, ⟨35, _⟩ => ⟨S1x15, .f32⟩
  | .hbm, ⟨36, _⟩ => ⟨S8x15, .f32⟩
  | .hbm, ⟨37, _⟩ => ⟨S120, .f32⟩
  | .hbm, ⟨38, _⟩ => ⟨S1x120, .f32⟩
  | .hbm, ⟨39, _⟩ => ⟨S1x300, .f32⟩
  | .hbm, ⟨40, _⟩ => ⟨S1x29, .f32⟩
  | .hbm, ⟨41, _⟩ => ⟨S512x8x82x10, .f32⟩
  | .hbm, ⟨42, _⟩ => ⟨S512x82x8x10, .f32⟩
  | .hbm, ⟨43, _⟩ => ⟨S512x82x80, .f32⟩
  | .hbm, ⟨44, _⟩ => ⟨S82x15x300, .f32⟩
  | .hbm, ⟨45, _⟩ => ⟨S15x82x300, .f32⟩
  | .hbm, ⟨46, _⟩ => ⟨S1230x300, .f32⟩
  | .hbm, ⟨47, _⟩ => ⟨S1230x300, .bf16⟩
  | .hbm, ⟨48, _⟩ => ⟨S300x29, .bf16⟩
  | .hbm, ⟨49, _⟩ => ⟨S4096x15x82, .bf16⟩
  | .hbm, ⟨50, _⟩ => ⟨S4096x1230, .bf16⟩
  | .hbm, ⟨51, _⟩ => ⟨S4096x29, .f32⟩
  | .local _ .vmem, ⟨0, _⟩ => ⟨S16x82x80, .f32⟩
  | .local _ .vmem, ⟨1, _⟩ => ⟨S16x82x80, .f32⟩
  | .local _ .vmem, ⟨2, _⟩ => ⟨S128x82x82, .f32⟩
  | .local _ .vmem, ⟨3, _⟩ => ⟨S128x82x82, .f32⟩
  | .local _ .vmem, ⟨4, _⟩ => ⟨S80x120, .bf16⟩
  | .local _ .vmem, ⟨5, _⟩ => ⟨S1x120, .f32⟩
  | .local _ .vmem, ⟨6, _⟩ => ⟨S120x120, .bf16⟩
  | .local _ .vmem, ⟨7, _⟩ => ⟨S1x120, .f32⟩
  | .local _ .vmem, ⟨8, _⟩ => ⟨S128x15x82, .bf16⟩
  | .local _ .vmem, ⟨9, _⟩ => ⟨S128x15x82, .bf16⟩
  | .local _ .vmem, ⟨10, _⟩ => ⟨S16x82x120, .bf16⟩
  | .local _ .vmem, ⟨11, _⟩ => ⟨S16x82x120, .bf16⟩
  | .local _ .vmem, ⟨12, _⟩ => ⟨S16x82x120, .bf16⟩
  | .local _ .vmem, ⟨13, _⟩ => ⟨S512x1230, .bf16⟩
  | .local _ .vmem, ⟨14, _⟩ => ⟨S512x1230, .bf16⟩
  | .local _ .vmem, ⟨15, _⟩ => ⟨S1230x300, .bf16⟩
  | .local _ .vmem, ⟨16, _⟩ => ⟨S1x300, .f32⟩
  | .local _ .vmem, ⟨17, _⟩ => ⟨S300x29, .bf16⟩
  | .local _ .vmem, ⟨18, _⟩ => ⟨S1x29, .f32⟩
  | .local _ .vmem, ⟨19, _⟩ => ⟨S512x29, .f32⟩
  | .local _ .vmem, ⟨20, _⟩ => ⟨S512x29, .f32⟩
  | _, _ => ⟨S4096x82x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x82x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x82x82 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S80x120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S120x120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x15x82 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1230 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1230x300 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x29 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x29 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x29 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S10x15_S1x10x1x15_1_3 : S10x15.BroadcastsInDim S1x10x1x15 (![1, 3] : Fin 2 → Fin S1x10x1x15.rank)
  bcast_S8x1x8x1_S8x10x8x15_0_1_2_3 : S8x1x8x1.BroadcastsInDim S8x10x8x15 (![0, 1, 2, 3] : Fin 4 → Fin S8x10x8x15.rank)
  bcast_S1x10x1x15_S8x10x8x15_0_1_2_3 : S1x10x1x15.BroadcastsInDim S8x10x8x15 (![0, 1, 2, 3] : Fin 4 → Fin S8x10x8x15.rank)
  shapeCasts_S8x10x8x15_S80x120 : S8x10x8x15.ShapeCasts S80x120
  bitsLt_bf16_f32 : FTy.bits .bf16 < FTy.bits .f32
  bcast_S15x15_S1x15x1x15_1_3 : S15x15.BroadcastsInDim S1x15x1x15 (![1, 3] : Fin 2 → Fin S1x15x1x15.rank)
  bcast_S8x1x8x1_S8x15x8x15_0_1_2_3 : S8x1x8x1.BroadcastsInDim S8x15x8x15 (![0, 1, 2, 3] : Fin 4 → Fin S8x15x8x15.rank)
  bcast_S1x15x1x15_S8x15x8x15_0_1_2_3 : S1x15x1x15.BroadcastsInDim S8x15x8x15 (![0, 1, 2, 3] : Fin 4 → Fin S8x15x8x15.rank)
  shapeCasts_S8x15x8x15_S120x120 : S8x15x8x15.ShapeCasts S120x120
  shapeCasts_S15_S1x15 : S15.ShapeCasts S1x15
  bcast_S1x15_S8x15_0_1 : S1x15.BroadcastsInDim S8x15 (![0, 1] : Fin 2 → Fin S8x15.rank)
  shapeCasts_S8x15_S120 : S8x15.ShapeCasts S120
  shapeCasts_S120_S1x120 : S120.ShapeCasts S1x120
  shapeCasts_S300_S1x300 : S300.ShapeCasts S1x300
  shapeCasts_S29_S1x29 : S29.ShapeCasts S1x29
  shapeCasts_S4096x82x10_S512x8x82x10 : S4096x82x10.ShapeCasts S512x8x82x10
  transposes_S512x8x82x10_S512x82x8x10_0_2_1_3 : S512x8x82x10.Transposes [0, 2, 1, 3] S512x82x8x10
  shapeCasts_S512x82x8x10_S512x82x80 : S512x82x8x10.ShapeCasts S512x82x80
  shapeCasts_S1230x300_S82x15x300 : S1230x300.ShapeCasts S82x15x300
  transposes_S82x15x300_S15x82x300_1_0_2 : S82x15x300.Transposes [1, 0, 2] S15x82x300
  shapeCasts_S15x82x300_S1230x300 : S15x82x300.ShapeCasts S1230x300
  inb_S80x120_S80x120_0_0 : ∀ a, (![0, 0] : Fin 2 → Nat) a + S80x120.size a ≤ S80x120.size a
  h_S80x120 : 0 < S80x120.numel
  shapeCasts_S80x120_S80x120 : S80x120.ShapeCasts S80x120
  inb_S1x120_S1x120_0_0 : ∀ a, (![0, 0] : Fin 2 → Nat) a + S1x120.size a ≤ S1x120.size a
  h_S1x120 : 0 < S1x120.numel
  shapeCasts_S1x120_S1x120 : S1x120.ShapeCasts S1x120
  inb_S120x120_S120x120_0_0 : ∀ a, (![0, 0] : Fin 2 → Nat) a + S120x120.size a ≤ S120x120.size a
  h_S120x120 : 0 < S120x120.numel
  shapeCasts_S120x120_S120x120 : S120x120.ShapeCasts S120x120
  inb_S16x82x80_S1x82x80_0_0_0 : ∀ a, (![0, 0, 0] : Fin 3 → Nat) a + S1x82x80.size a ≤ S16x82x80.size a
  h_S1x82x80 : 0 < S1x82x80.numel
  shapeCasts_S1x82x80_S82x80 : S1x82x80.ShapeCasts S82x80
  inb_S16x82x120_S1x82x120_0_0_0 : ∀ a, (![0, 0, 0] : Fin 3 → Nat) a + S1x82x120.size a ≤ S16x82x120.size a
  h_S1x82x120 : 0 < S1x82x120.numel
  shapeCasts_S1x82x120_S82x120 : S1x82x120.ShapeCasts S82x120
  shapeCasts_S82x120_S1x82x120 : S82x120.ShapeCasts S1x82x120
  packedbf16_S16x82x120_S1x82x120_0_0_0 : (Rect.unit (s := S16x82x120) ![0, 0, 0] S1x82x120.size inb_S16x82x120_S1x82x120_0_0_0).PackedRows (EltTy.packing .bf16)
  inb_S16x82x80_S1x82x80_1_0_0 : ∀ a, (![1, 0, 0] : Fin 3 → Nat) a + S1x82x80.size a ≤ S16x82x80.size a
  inb_S16x82x120_S1x82x120_1_0_0 : ∀ a, (![1, 0, 0] : Fin 3 → Nat) a + S1x82x120.size a ≤ S16x82x120.size a
  packedbf16_S16x82x120_S1x82x120_1_0_0 : (Rect.unit (s := S16x82x120) ![1, 0, 0] S1x82x120.size inb_S16x82x120_S1x82x120_1_0_0).PackedRows (EltTy.packing .bf16)
  inb_S16x82x80_S1x82x80_2_0_0 : ∀ a, (![2, 0, 0] : Fin 3 → Nat) a + S1x82x80.size a ≤ S16x82x80.size a
  inb_S16x82x120_S1x82x120_2_0_0 : ∀ a, (![2, 0, 0] : Fin 3 → Nat) a + S1x82x120.size a ≤ S16x82x120.size a
  packedbf16_S16x82x120_S1x82x120_2_0_0 : (Rect.unit (s := S16x82x120) ![2, 0, 0] S1x82x120.size inb_S16x82x120_S1x82x120_2_0_0).PackedRows (EltTy.packing .bf16)
  inb_S16x82x80_S1x82x80_3_0_0 : ∀ a, (![3, 0, 0] : Fin 3 → Nat) a + S1x82x80.size a ≤ S16x82x80.size a
  inb_S16x82x120_S1x82x120_3_0_0 : ∀ a, (![3, 0, 0] : Fin 3 → Nat) a + S1x82x120.size a ≤ S16x82x120.size a
  packedbf16_S16x82x120_S1x82x120_3_0_0 : (Rect.unit (s := S16x82x120) ![3, 0, 0] S1x82x120.size inb_S16x82x120_S1x82x120_3_0_0).PackedRows (EltTy.packing .bf16)
  inb_S16x82x80_S1x82x80_4_0_0 : ∀ a, (![4, 0, 0] : Fin 3 → Nat) a + S1x82x80.size a ≤ S16x82x80.size a
  inb_S16x82x120_S1x82x120_4_0_0 : ∀ a, (![4, 0, 0] : Fin 3 → Nat) a + S1x82x120.size a ≤ S16x82x120.size a
  packedbf16_S16x82x120_S1x82x120_4_0_0 : (Rect.unit (s := S16x82x120) ![4, 0, 0] S1x82x120.size inb_S16x82x120_S1x82x120_4_0_0).PackedRows (EltTy.packing .bf16)
  inb_S16x82x80_S1x82x80_5_0_0 : ∀ a, (![5, 0, 0] : Fin 3 → Nat) a + S1x82x80.size a ≤ S16x82x80.size a
  inb_S16x82x120_S1x82x120_5_0_0 : ∀ a, (![5, 0, 0] : Fin 3 → Nat) a + S1x82x120.size a ≤ S16x82x120.size a
  packedbf16_S16x82x120_S1x82x120_5_0_0 : (Rect.unit (s := S16x82x120) ![5, 0, 0] S1x82x120.size inb_S16x82x120_S1x82x120_5_0_0).PackedRows (EltTy.packing .bf16)
  inb_S16x82x80_S1x82x80_6_0_0 : ∀ a, (![6, 0, 0] : Fin 3 → Nat) a + S1x82x80.size a ≤ S16x82x80.size a
  inb_S16x82x120_S1x82x120_6_0_0 : ∀ a, (![6, 0, 0] : Fin 3 → Nat) a + S1x82x120.size a ≤ S16x82x120.size a
  packedbf16_S16x82x120_S1x82x120_6_0_0 : (Rect.unit (s := S16x82x120) ![6, 0, 0] S1x82x120.size inb_S16x82x120_S1x82x120_6_0_0).PackedRows (EltTy.packing .bf16)
  inb_S16x82x80_S1x82x80_7_0_0 : ∀ a, (![7, 0, 0] : Fin 3 → Nat) a + S1x82x80.size a ≤ S16x82x80.size a
  inb_S16x82x120_S1x82x120_7_0_0 : ∀ a, (![7, 0, 0] : Fin 3 → Nat) a + S1x82x120.size a ≤ S16x82x120.size a
  packedbf16_S16x82x120_S1x82x120_7_0_0 : (Rect.unit (s := S16x82x120) ![7, 0, 0] S1x82x120.size inb_S16x82x120_S1x82x120_7_0_0).PackedRows (EltTy.packing .bf16)
  inb_S16x82x80_S1x82x80_8_0_0 : ∀ a, (![8, 0, 0] : Fin 3 → Nat) a + S1x82x80.size a ≤ S16x82x80.size a
  inb_S16x82x120_S1x82x120_8_0_0 : ∀ a, (![8, 0, 0] : Fin 3 → Nat) a + S1x82x120.size a ≤ S16x82x120.size a
  packedbf16_S16x82x120_S1x82x120_8_0_0 : (Rect.unit (s := S16x82x120) ![8, 0, 0] S1x82x120.size inb_S16x82x120_S1x82x120_8_0_0).PackedRows (EltTy.packing .bf16)
  inb_S16x82x80_S1x82x80_9_0_0 : ∀ a, (![9, 0, 0] : Fin 3 → Nat) a + S1x82x80.size a ≤ S16x82x80.size a
  inb_S16x82x120_S1x82x120_9_0_0 : ∀ a, (![9, 0, 0] : Fin 3 → Nat) a + S1x82x120.size a ≤ S16x82x120.size a
  packedbf16_S16x82x120_S1x82x120_9_0_0 : (Rect.unit (s := S16x82x120) ![9, 0, 0] S1x82x120.size inb_S16x82x120_S1x82x120_9_0_0).PackedRows (EltTy.packing .bf16)
  inb_S16x82x80_S1x82x80_10_0_0 : ∀ a, (![10, 0, 0] : Fin 3 → Nat) a + S1x82x80.size a ≤ S16x82x80.size a
  inb_S16x82x120_S1x82x120_10_0_0 : ∀ a, (![10, 0, 0] : Fin 3 → Nat) a + S1x82x120.size a ≤ S16x82x120.size a
  packedbf16_S16x82x120_S1x82x120_10_0_0 : (Rect.unit (s := S16x82x120) ![10, 0, 0] S1x82x120.size inb_S16x82x120_S1x82x120_10_0_0).PackedRows (EltTy.packing .bf16)
  inb_S16x82x80_S1x82x80_11_0_0 : ∀ a, (![11, 0, 0] : Fin 3 → Nat) a + S1x82x80.size a ≤ S16x82x80.size a
  inb_S16x82x120_S1x82x120_11_0_0 : ∀ a, (![11, 0, 0] : Fin 3 → Nat) a + S1x82x120.size a ≤ S16x82x120.size a
  packedbf16_S16x82x120_S1x82x120_11_0_0 : (Rect.unit (s := S16x82x120) ![11, 0, 0] S1x82x120.size inb_S16x82x120_S1x82x120_11_0_0).PackedRows (EltTy.packing .bf16)
  inb_S16x82x80_S1x82x80_12_0_0 : ∀ a, (![12, 0, 0] : Fin 3 → Nat) a + S1x82x80.size a ≤ S16x82x80.size a
  inb_S16x82x120_S1x82x120_12_0_0 : ∀ a, (![12, 0, 0] : Fin 3 → Nat) a + S1x82x120.size a ≤ S16x82x120.size a
  packedbf16_S16x82x120_S1x82x120_12_0_0 : (Rect.unit (s := S16x82x120) ![12, 0, 0] S1x82x120.size inb_S16x82x120_S1x82x120_12_0_0).PackedRows (EltTy.packing .bf16)
  inb_S16x82x80_S1x82x80_13_0_0 : ∀ a, (![13, 0, 0] : Fin 3 → Nat) a + S1x82x80.size a ≤ S16x82x80.size a
  inb_S16x82x120_S1x82x120_13_0_0 : ∀ a, (![13, 0, 0] : Fin 3 → Nat) a + S1x82x120.size a ≤ S16x82x120.size a
  packedbf16_S16x82x120_S1x82x120_13_0_0 : (Rect.unit (s := S16x82x120) ![13, 0, 0] S1x82x120.size inb_S16x82x120_S1x82x120_13_0_0).PackedRows (EltTy.packing .bf16)
  inb_S16x82x80_S1x82x80_14_0_0 : ∀ a, (![14, 0, 0] : Fin 3 → Nat) a + S1x82x80.size a ≤ S16x82x80.size a
  inb_S16x82x120_S1x82x120_14_0_0 : ∀ a, (![14, 0, 0] : Fin 3 → Nat) a + S1x82x120.size a ≤ S16x82x120.size a
  packedbf16_S16x82x120_S1x82x120_14_0_0 : (Rect.unit (s := S16x82x120) ![14, 0, 0] S1x82x120.size inb_S16x82x120_S1x82x120_14_0_0).PackedRows (EltTy.packing .bf16)
  inb_S16x82x80_S1x82x80_15_0_0 : ∀ a, (![15, 0, 0] : Fin 3 → Nat) a + S1x82x80.size a ≤ S16x82x80.size a
  inb_S16x82x120_S1x82x120_15_0_0 : ∀ a, (![15, 0, 0] : Fin 3 → Nat) a + S1x82x120.size a ≤ S16x82x120.size a
  packedbf16_S16x82x120_S1x82x120_15_0_0 : (Rect.unit (s := S16x82x120) ![15, 0, 0] S1x82x120.size inb_S16x82x120_S1x82x120_15_0_0).PackedRows (EltTy.packing .bf16)
  inb_S128x82x82_S1x82x82_0_0_0 : ∀ a, (![0, 0, 0] : Fin 3 → Nat) a + S1x82x82.size a ≤ S128x82x82.size a
  h_S1x82x82 : 0 < S1x82x82.numel
  shapeCasts_S1x82x82_S82x82 : S1x82x82.ShapeCasts S82x82
  slices_S82x120_o0_0_S82x15 : S82x120.Slices ![0, 0] S82x15
  slices_S1x120_o0_0_S1x15 : S1x120.Slices ![0, 0] S1x15
  broadcasts_S1x15_S82x15 : S1x15.Broadcasts S82x15
  inb_S16x82x120_S1x82x15_0_0_0 : ∀ a, (![0, 0, 0] : Fin 3 → Nat) a + S1x82x15.size a ≤ S16x82x120.size a
  h_S1x82x15 : 0 < S1x82x15.numel
  shapeCasts_S1x82x15_S82x15 : S1x82x15.ShapeCasts S82x15
  shapeCasts_S82x15_S1x82x15 : S82x15.ShapeCasts S1x82x15
  packedbf16_S16x82x120_S1x82x15_0_0_0 : (Rect.unit (s := S16x82x120) ![0, 0, 0] S1x82x15.size inb_S16x82x120_S1x82x15_0_0_0).PackedRows (EltTy.packing .bf16)
  inb_S128x82x82_S1x82x82_1_0_0 : ∀ a, (![1, 0, 0] : Fin 3 → Nat) a + S1x82x82.size a ≤ S128x82x82.size a
  slices_S82x120_o0_15_S82x15 : S82x120.Slices ![0, 15] S82x15
  slices_S1x120_o0_15_S1x15 : S1x120.Slices ![0, 15] S1x15
  inb_S16x82x120_S1x82x15_0_0_15 : ∀ a, (![0, 0, 15] : Fin 3 → Nat) a + S1x82x15.size a ≤ S16x82x120.size a
  packedbf16_S16x82x120_S1x82x15_0_0_15 : (Rect.unit (s := S16x82x120) ![0, 0, 15] S1x82x15.size inb_S16x82x120_S1x82x15_0_0_15).PackedRows (EltTy.packing .bf16)
  inb_S128x82x82_S1x82x82_2_0_0 : ∀ a, (![2, 0, 0] : Fin 3 → Nat) a + S1x82x82.size a ≤ S128x82x82.size a
  slices_S82x120_o0_30_S82x15 : S82x120.Slices ![0, 30] S82x15
  slices_S1x120_o0_30_S1x15 : S1x120.Slices ![0, 30] S1x15
  inb_S16x82x120_S1x82x15_0_0_30 : ∀ a, (![0, 0, 30] : Fin 3 → Nat) a + S1x82x15.size a ≤ S16x82x120.size a
  packedbf16_S16x82x120_S1x82x15_0_0_30 : (Rect.unit (s := S16x82x120) ![0, 0, 30] S1x82x15.size inb_S16x82x120_S1x82x15_0_0_30).PackedRows (EltTy.packing .bf16)
  inb_S128x82x82_S1x82x82_3_0_0 : ∀ a, (![3, 0, 0] : Fin 3 → Nat) a + S1x82x82.size a ≤ S128x82x82.size a
  slices_S82x120_o0_45_S82x15 : S82x120.Slices ![0, 45] S82x15
  slices_S1x120_o0_45_S1x15 : S1x120.Slices ![0, 45] S1x15
  inb_S16x82x120_S1x82x15_0_0_45 : ∀ a, (![0, 0, 45] : Fin 3 → Nat) a + S1x82x15.size a ≤ S16x82x120.size a
  packedbf16_S16x82x120_S1x82x15_0_0_45 : (Rect.unit (s := S16x82x120) ![0, 0, 45] S1x82x15.size inb_S16x82x120_S1x82x15_0_0_45).PackedRows (EltTy.packing .bf16)
  inb_S128x82x82_S1x82x82_4_0_0 : ∀ a, (![4, 0, 0] : Fin 3 → Nat) a + S1x82x82.size a ≤ S128x82x82.size a
  slices_S82x120_o0_60_S82x15 : S82x120.Slices ![0, 60] S82x15
  slices_S1x120_o0_60_S1x15 : S1x120.Slices ![0, 60] S1x15
  inb_S16x82x120_S1x82x15_0_0_60 : ∀ a, (![0, 0, 60] : Fin 3 → Nat) a + S1x82x15.size a ≤ S16x82x120.size a
  packedbf16_S16x82x120_S1x82x15_0_0_60 : (Rect.unit (s := S16x82x120) ![0, 0, 60] S1x82x15.size inb_S16x82x120_S1x82x15_0_0_60).PackedRows (EltTy.packing .bf16)
  inb_S128x82x82_S1x82x82_5_0_0 : ∀ a, (![5, 0, 0] : Fin 3 → Nat) a + S1x82x82.size a ≤ S128x82x82.size a
  slices_S82x120_o0_75_S82x15 : S82x120.Slices ![0, 75] S82x15
  slices_S1x120_o0_75_S1x15 : S1x120.Slices ![0, 75] S1x15
  inb_S16x82x120_S1x82x15_0_0_75 : ∀ a, (![0, 0, 75] : Fin 3 → Nat) a + S1x82x15.size a ≤ S16x82x120.size a
  packedbf16_S16x82x120_S1x82x15_0_0_75 : (Rect.unit (s := S16x82x120) ![0, 0, 75] S1x82x15.size inb_S16x82x120_S1x82x15_0_0_75).PackedRows (EltTy.packing .bf16)
  inb_S128x82x82_S1x82x82_6_0_0 : ∀ a, (![6, 0, 0] : Fin 3 → Nat) a + S1x82x82.size a ≤ S128x82x82.size a
  slices_S82x120_o0_90_S82x15 : S82x120.Slices ![0, 90] S82x15
  slices_S1x120_o0_90_S1x15 : S1x120.Slices ![0, 90] S1x15
  inb_S16x82x120_S1x82x15_0_0_90 : ∀ a, (![0, 0, 90] : Fin 3 → Nat) a + S1x82x15.size a ≤ S16x82x120.size a
  packedbf16_S16x82x120_S1x82x15_0_0_90 : (Rect.unit (s := S16x82x120) ![0, 0, 90] S1x82x15.size inb_S16x82x120_S1x82x15_0_0_90).PackedRows (EltTy.packing .bf16)
  inb_S128x82x82_S1x82x82_7_0_0 : ∀ a, (![7, 0, 0] : Fin 3 → Nat) a + S1x82x82.size a ≤ S128x82x82.size a
  slices_S82x120_o0_105_S82x15 : S82x120.Slices ![0, 105] S82x15
  slices_S1x120_o0_105_S1x15 : S1x120.Slices ![0, 105] S1x15
  inb_S16x82x120_S1x82x15_0_0_105 : ∀ a, (![0, 0, 105] : Fin 3 → Nat) a + S1x82x15.size a ≤ S16x82x120.size a
  packedbf16_S16x82x120_S1x82x15_0_0_105 : (Rect.unit (s := S16x82x120) ![0, 0, 105] S1x82x15.size inb_S16x82x120_S1x82x15_0_0_105).PackedRows (EltTy.packing .bf16)
  inb_S128x82x82_S1x82x82_8_0_0 : ∀ a, (![8, 0, 0] : Fin 3 → Nat) a + S1x82x82.size a ≤ S128x82x82.size a
  inb_S16x82x120_S1x82x15_1_0_0 : ∀ a, (![1, 0, 0] : Fin 3 → Nat) a + S1x82x15.size a ≤ S16x82x120.size a
  packedbf16_S16x82x120_S1x82x15_1_0_0 : (Rect.unit (s := S16x82x120) ![1, 0, 0] S1x82x15.size inb_S16x82x120_S1x82x15_1_0_0).PackedRows (EltTy.packing .bf16)
  inb_S128x82x82_S1x82x82_9_0_0 : ∀ a, (![9, 0, 0] : Fin 3 → Nat) a + S1x82x82.size a ≤ S128x82x82.size a
  inb_S16x82x120_S1x82x15_1_0_15 : ∀ a, (![1, 0, 15] : Fin 3 → Nat) a + S1x82x15.size a ≤ S16x82x120.size a
  packedbf16_S16x82x120_S1x82x15_1_0_15 : (Rect.unit (s := S16x82x120) ![1, 0, 15] S1x82x15.size inb_S16x82x120_S1x82x15_1_0_15).PackedRows (EltTy.packing .bf16)
  inb_S128x82x82_S1x82x82_10_0_0 : ∀ a, (![10, 0, 0] : Fin 3 → Nat) a + S1x82x82.size a ≤ S128x82x82.size a
  inb_S16x82x120_S1x82x15_1_0_30 : ∀ a, (![1, 0, 30] : Fin 3 → Nat) a + S1x82x15.size a ≤ S16x82x120.size a
  packedbf16_S16x82x120_S1x82x15_1_0_30 : (Rect.unit (s := S16x82x120) ![1, 0, 30] S1x82x15.size inb_S16x82x120_S1x82x15_1_0_30).PackedRows (EltTy.packing .bf16)
  inb_S128x82x82_S1x82x82_11_0_0 : ∀ a, (![11, 0, 0] : Fin 3 → Nat) a + S1x82x82.size a ≤ S128x82x82.size a
  inb_S16x82x120_S1x82x15_1_0_45 : ∀ a, (![1, 0, 45] : Fin 3 → Nat) a + S1x82x15.size a ≤ S16x82x120.size a
  packedbf16_S16x82x120_S1x82x15_1_0_45 : (Rect.unit (s := S16x82x120) ![1, 0, 45] S1x82x15.size inb_S16x82x120_S1x82x15_1_0_45).PackedRows (EltTy.packing .bf16)
  inb_S128x82x82_S1x82x82_12_0_0 : ∀ a, (![12, 0, 0] : Fin 3 → Nat) a + S1x82x82.size a ≤ S128x82x82.size a
  inb_S16x82x120_S1x82x15_1_0_60 : ∀ a, (![1, 0, 60] : Fin 3 → Nat) a + S1x82x15.size a ≤ S16x82x120.size a
  packedbf16_S16x82x120_S1x82x15_1_0_60 : (Rect.unit (s := S16x82x120) ![1, 0, 60] S1x82x15.size inb_S16x82x120_S1x82x15_1_0_60).PackedRows (EltTy.packing .bf16)
  inb_S128x82x82_S1x82x82_13_0_0 : ∀ a, (![13, 0, 0] : Fin 3 → Nat) a + S1x82x82.size a ≤ S128x82x82.size a
  inb_S16x82x120_S1x82x15_1_0_75 : ∀ a, (![1, 0, 75] : Fin 3 → Nat) a + S1x82x15.size a ≤ S16x82x120.size a
  packedbf16_S16x82x120_S1x82x15_1_0_75 : (Rect.unit (s := S16x82x120) ![1, 0, 75] S1x82x15.size inb_S16x82x120_S1x82x15_1_0_75).PackedRows (EltTy.packing .bf16)
  inb_S128x82x82_S1x82x82_14_0_0 : ∀ a, (![14, 0, 0] : Fin 3 → Nat) a + S1x82x82.size a ≤ S128x82x82.size a
  inb_S16x82x120_S1x82x15_1_0_90 : ∀ a, (![1, 0, 90] : Fin 3 → Nat) a + S1x82x15.size a ≤ S16x82x120.size a
  packedbf16_S16x82x120_S1x82x15_1_0_90 : (Rect.unit (s := S16x82x120) ![1, 0, 90] S1x82x15.size inb_S16x82x120_S1x82x15_1_0_90).PackedRows (EltTy.packing .bf16)
  inb_S128x82x82_S1x82x82_15_0_0 : ∀ a, (![15, 0, 0] : Fin 3 → Nat) a + S1x82x82.size a ≤ S128x82x82.size a
  inb_S16x82x120_S1x82x15_1_0_105 : ∀ a, (![1, 0, 105] : Fin 3 → Nat) a + S1x82x15.size a ≤ S16x82x120.size a
  packedbf16_S16x82x120_S1x82x15_1_0_105 : (Rect.unit (s := S16x82x120) ![1, 0, 105] S1x82x15.size inb_S16x82x120_S1x82x15_1_0_105).PackedRows (EltTy.packing .bf16)
  inb_S128x82x82_S1x82x82_16_0_0 : ∀ a, (![16, 0, 0] : Fin 3 → Nat) a + S1x82x82.size a ≤ S128x82x82.size a
  inb_S16x82x120_S1x82x15_2_0_0 : ∀ a, (![2, 0, 0] : Fin 3 → Nat) a + S1x82x15.size a ≤ S16x82x120.size a
  packedbf16_S16x82x120_S1x82x15_2_0_0 : (Rect.unit (s := S16x82x120) ![2, 0, 0] S1x82x15.size inb_S16x82x120_S1x82x15_2_0_0).PackedRows (EltTy.packing .bf16)
  inb_S128x82x82_S1x82x82_17_0_0 : ∀ a, (![17, 0, 0] : Fin 3 → Nat) a + S1x82x82.size a ≤ S128x82x82.size a
  inb_S16x82x120_S1x82x15_2_0_15 : ∀ a, (![2, 0, 15] : Fin 3 → Nat) a + S1x82x15.size a ≤ S16x82x120.size a
  packedbf16_S16x82x120_S1x82x15_2_0_15 : (Rect.unit (s := S16x82x120) ![2, 0, 15] S1x82x15.size inb_S16x82x120_S1x82x15_2_0_15).PackedRows (EltTy.packing .bf16)
  inb_S128x82x82_S1x82x82_18_0_0 : ∀ a, (![18, 0, 0] : Fin 3 → Nat) a + S1x82x82.size a ≤ S128x82x82.size a
  inb_S16x82x120_S1x82x15_2_0_30 : ∀ a, (![2, 0, 30] : Fin 3 → Nat) a + S1x82x15.size a ≤ S16x82x120.size a
  packedbf16_S16x82x120_S1x82x15_2_0_30 : (Rect.unit (s := S16x82x120) ![2, 0, 30] S1x82x15.size inb_S16x82x120_S1x82x15_2_0_30).PackedRows (EltTy.packing .bf16)
  inb_S128x82x82_S1x82x82_19_0_0 : ∀ a, (![19, 0, 0] : Fin 3 → Nat) a + S1x82x82.size a ≤ S128x82x82.size a
  inb_S16x82x120_S1x82x15_2_0_45 : ∀ a, (![2, 0, 45] : Fin 3 → Nat) a + S1x82x15.size a ≤ S16x82x120.size a
  packedbf16_S16x82x120_S1x82x15_2_0_45 : (Rect.unit (s := S16x82x120) ![2, 0, 45] S1x82x15.size inb_S16x82x120_S1x82x15_2_0_45).PackedRows (EltTy.packing .bf16)
  inb_S128x82x82_S1x82x82_20_0_0 : ∀ a, (![20, 0, 0] : Fin 3 → Nat) a + S1x82x82.size a ≤ S128x82x82.size a
  inb_S16x82x120_S1x82x15_2_0_60 : ∀ a, (![2, 0, 60] : Fin 3 → Nat) a + S1x82x15.size a ≤ S16x82x120.size a
  packedbf16_S16x82x120_S1x82x15_2_0_60 : (Rect.unit (s := S16x82x120) ![2, 0, 60] S1x82x15.size inb_S16x82x120_S1x82x15_2_0_60).PackedRows (EltTy.packing .bf16)
  inb_S128x82x82_S1x82x82_21_0_0 : ∀ a, (![21, 0, 0] : Fin 3 → Nat) a + S1x82x82.size a ≤ S128x82x82.size a
  inb_S16x82x120_S1x82x15_2_0_75 : ∀ a, (![2, 0, 75] : Fin 3 → Nat) a + S1x82x15.size a ≤ S16x82x120.size a
  packedbf16_S16x82x120_S1x82x15_2_0_75 : (Rect.unit (s := S16x82x120) ![2, 0, 75] S1x82x15.size inb_S16x82x120_S1x82x15_2_0_75).PackedRows (EltTy.packing .bf16)
  inb_S128x82x82_S1x82x82_22_0_0 : ∀ a, (![22, 0, 0] : Fin 3 → Nat) a + S1x82x82.size a ≤ S128x82x82.size a
  inb_S16x82x120_S1x82x15_2_0_90 : ∀ a, (![2, 0, 90] : Fin 3 → Nat) a + S1x82x15.size a ≤ S16x82x120.size a
  packedbf16_S16x82x120_S1x82x15_2_0_90 : (Rect.unit (s := S16x82x120) ![2, 0, 90] S1x82x15.size inb_S16x82x120_S1x82x15_2_0_90).PackedRows (EltTy.packing .bf16)
  inb_S128x82x82_S1x82x82_23_0_0 : ∀ a, (![23, 0, 0] : Fin 3 → Nat) a + S1x82x82.size a ≤ S128x82x82.size a
  inb_S16x82x120_S1x82x15_2_0_105 : ∀ a, (![2, 0, 105] : Fin 3 → Nat) a + S1x82x15.size a ≤ S16x82x120.size a
  packedbf16_S16x82x120_S1x82x15_2_0_105 : (Rect.unit (s := S16x82x120) ![2, 0, 105] S1x82x15.size inb_S16x82x120_S1x82x15_2_0_105).PackedRows (EltTy.packing .bf16)
  inb_S128x82x82_S1x82x82_24_0_0 : ∀ a, (![24, 0, 0] : Fin 3 → Nat) a + S1x82x82.size a ≤ S128x82x82.size a
  inb_S16x82x120_S1x82x15_3_0_0 : ∀ a, (![3, 0, 0] : Fin 3 → Nat) a + S1x82x15.size a ≤ S16x82x120.size a
  packedbf16_S16x82x120_S1x82x15_3_0_0 : (Rect.unit (s := S16x82x120) ![3, 0, 0] S1x82x15.size inb_S16x82x120_S1x82x15_3_0_0).PackedRows (EltTy.packing .bf16)
  inb_S128x82x82_S1x82x82_25_0_0 : ∀ a, (![25, 0, 0] : Fin 3 → Nat) a + S1x82x82.size a ≤ S128x82x82.size a
  inb_S16x82x120_S1x82x15_3_0_15 : ∀ a, (![3, 0, 15] : Fin 3 → Nat) a + S1x82x15.size a ≤ S16x82x120.size a
  packedbf16_S16x82x120_S1x82x15_3_0_15 : (Rect.unit (s := S16x82x120) ![3, 0, 15] S1x82x15.size inb_S16x82x120_S1x82x15_3_0_15).PackedRows (EltTy.packing .bf16)
  inb_S128x82x82_S1x82x82_26_0_0 : ∀ a, (![26, 0, 0] : Fin 3 → Nat) a + S1x82x82.size a ≤ S128x82x82.size a
  inb_S16x82x120_S1x82x15_3_0_30 : ∀ a, (![3, 0, 30] : Fin 3 → Nat) a + S1x82x15.size a ≤ S16x82x120.size a
  packedbf16_S16x82x120_S1x82x15_3_0_30 : (Rect.unit (s := S16x82x120) ![3, 0, 30] S1x82x15.size inb_S16x82x120_S1x82x15_3_0_30).PackedRows (EltTy.packing .bf16)
  inb_S128x82x82_S1x82x82_27_0_0 : ∀ a, (![27, 0, 0] : Fin 3 → Nat) a + S1x82x82.size a ≤ S128x82x82.size a
  inb_S16x82x120_S1x82x15_3_0_45 : ∀ a, (![3, 0, 45] : Fin 3 → Nat) a + S1x82x15.size a ≤ S16x82x120.size a
  packedbf16_S16x82x120_S1x82x15_3_0_45 : (Rect.unit (s := S16x82x120) ![3, 0, 45] S1x82x15.size inb_S16x82x120_S1x82x15_3_0_45).PackedRows (EltTy.packing .bf16)
  inb_S128x82x82_S1x82x82_28_0_0 : ∀ a, (![28, 0, 0] : Fin 3 → Nat) a + S1x82x82.size a ≤ S128x82x82.size a
  inb_S16x82x120_S1x82x15_3_0_60 : ∀ a, (![3, 0, 60] : Fin 3 → Nat) a + S1x82x15.size a ≤ S16x82x120.size a
  packedbf16_S16x82x120_S1x82x15_3_0_60 : (Rect.unit (s := S16x82x120) ![3, 0, 60] S1x82x15.size inb_S16x82x120_S1x82x15_3_0_60).PackedRows (EltTy.packing .bf16)
  inb_S128x82x82_S1x82x82_29_0_0 : ∀ a, (![29, 0, 0] : Fin 3 → Nat) a + S1x82x82.size a ≤ S128x82x82.size a
  inb_S16x82x120_S1x82x15_3_0_75 : ∀ a, (![3, 0, 75] : Fin 3 → Nat) a + S1x82x15.size a ≤ S16x82x120.size a
  packedbf16_S16x82x120_S1x82x15_3_0_75 : (Rect.unit (s := S16x82x120) ![3, 0, 75] S1x82x15.size inb_S16x82x120_S1x82x15_3_0_75).PackedRows (EltTy.packing .bf16)
  inb_S128x82x82_S1x82x82_30_0_0 : ∀ a, (![30, 0, 0] : Fin 3 → Nat) a + S1x82x82.size a ≤ S128x82x82.size a
  inb_S16x82x120_S1x82x15_3_0_90 : ∀ a, (![3, 0, 90] : Fin 3 → Nat) a + S1x82x15.size a ≤ S16x82x120.size a
  packedbf16_S16x82x120_S1x82x15_3_0_90 : (Rect.unit (s := S16x82x120) ![3, 0, 90] S1x82x15.size inb_S16x82x120_S1x82x15_3_0_90).PackedRows (EltTy.packing .bf16)
  inb_S128x82x82_S1x82x82_31_0_0 : ∀ a, (![31, 0, 0] : Fin 3 → Nat) a + S1x82x82.size a ≤ S128x82x82.size a
  inb_S16x82x120_S1x82x15_3_0_105 : ∀ a, (![3, 0, 105] : Fin 3 → Nat) a + S1x82x15.size a ≤ S16x82x120.size a
  packedbf16_S16x82x120_S1x82x15_3_0_105 : (Rect.unit (s := S16x82x120) ![3, 0, 105] S1x82x15.size inb_S16x82x120_S1x82x15_3_0_105).PackedRows (EltTy.packing .bf16)
  inb_S128x82x82_S1x82x82_32_0_0 : ∀ a, (![32, 0, 0] : Fin 3 → Nat) a + S1x82x82.size a ≤ S128x82x82.size a
  inb_S16x82x120_S1x82x15_4_0_0 : ∀ a, (![4, 0, 0] : Fin 3 → Nat) a + S1x82x15.size a ≤ S16x82x120.size a
  packedbf16_S16x82x120_S1x82x15_4_0_0 : (Rect.unit (s := S16x82x120) ![4, 0, 0] S1x82x15.size inb_S16x82x120_S1x82x15_4_0_0).PackedRows (EltTy.packing .bf16)
  inb_S128x82x82_S1x82x82_33_0_0 : ∀ a, (![33, 0, 0] : Fin 3 → Nat) a + S1x82x82.size a ≤ S128x82x82.size a
  inb_S16x82x120_S1x82x15_4_0_15 : ∀ a, (![4, 0, 15] : Fin 3 → Nat) a + S1x82x15.size a ≤ S16x82x120.size a
  packedbf16_S16x82x120_S1x82x15_4_0_15 : (Rect.unit (s := S16x82x120) ![4, 0, 15] S1x82x15.size inb_S16x82x120_S1x82x15_4_0_15).PackedRows (EltTy.packing .bf16)
  inb_S128x82x82_S1x82x82_34_0_0 : ∀ a, (![34, 0, 0] : Fin 3 → Nat) a + S1x82x82.size a ≤ S128x82x82.size a
  inb_S16x82x120_S1x82x15_4_0_30 : ∀ a, (![4, 0, 30] : Fin 3 → Nat) a + S1x82x15.size a ≤ S16x82x120.size a
  packedbf16_S16x82x120_S1x82x15_4_0_30 : (Rect.unit (s := S16x82x120) ![4, 0, 30] S1x82x15.size inb_S16x82x120_S1x82x15_4_0_30).PackedRows (EltTy.packing .bf16)
  inb_S128x82x82_S1x82x82_35_0_0 : ∀ a, (![35, 0, 0] : Fin 3 → Nat) a + S1x82x82.size a ≤ S128x82x82.size a
  inb_S16x82x120_S1x82x15_4_0_45 : ∀ a, (![4, 0, 45] : Fin 3 → Nat) a + S1x82x15.size a ≤ S16x82x120.size a
  packedbf16_S16x82x120_S1x82x15_4_0_45 : (Rect.unit (s := S16x82x120) ![4, 0, 45] S1x82x15.size inb_S16x82x120_S1x82x15_4_0_45).PackedRows (EltTy.packing .bf16)
  inb_S128x82x82_S1x82x82_36_0_0 : ∀ a, (![36, 0, 0] : Fin 3 → Nat) a + S1x82x82.size a ≤ S128x82x82.size a
  inb_S16x82x120_S1x82x15_4_0_60 : ∀ a, (![4, 0, 60] : Fin 3 → Nat) a + S1x82x15.size a ≤ S16x82x120.size a
  packedbf16_S16x82x120_S1x82x15_4_0_60 : (Rect.unit (s := S16x82x120) ![4, 0, 60] S1x82x15.size inb_S16x82x120_S1x82x15_4_0_60).PackedRows (EltTy.packing .bf16)
  inb_S128x82x82_S1x82x82_37_0_0 : ∀ a, (![37, 0, 0] : Fin 3 → Nat) a + S1x82x82.size a ≤ S128x82x82.size a
  inb_S16x82x120_S1x82x15_4_0_75 : ∀ a, (![4, 0, 75] : Fin 3 → Nat) a + S1x82x15.size a ≤ S16x82x120.size a
  packedbf16_S16x82x120_S1x82x15_4_0_75 : (Rect.unit (s := S16x82x120) ![4, 0, 75] S1x82x15.size inb_S16x82x120_S1x82x15_4_0_75).PackedRows (EltTy.packing .bf16)
  inb_S128x82x82_S1x82x82_38_0_0 : ∀ a, (![38, 0, 0] : Fin 3 → Nat) a + S1x82x82.size a ≤ S128x82x82.size a
  inb_S16x82x120_S1x82x15_4_0_90 : ∀ a, (![4, 0, 90] : Fin 3 → Nat) a + S1x82x15.size a ≤ S16x82x120.size a
  packedbf16_S16x82x120_S1x82x15_4_0_90 : (Rect.unit (s := S16x82x120) ![4, 0, 90] S1x82x15.size inb_S16x82x120_S1x82x15_4_0_90).PackedRows (EltTy.packing .bf16)
  inb_S128x82x82_S1x82x82_39_0_0 : ∀ a, (![39, 0, 0] : Fin 3 → Nat) a + S1x82x82.size a ≤ S128x82x82.size a
  inb_S16x82x120_S1x82x15_4_0_105 : ∀ a, (![4, 0, 105] : Fin 3 → Nat) a + S1x82x15.size a ≤ S16x82x120.size a
  packedbf16_S16x82x120_S1x82x15_4_0_105 : (Rect.unit (s := S16x82x120) ![4, 0, 105] S1x82x15.size inb_S16x82x120_S1x82x15_4_0_105).PackedRows (EltTy.packing .bf16)
  inb_S128x82x82_S1x82x82_40_0_0 : ∀ a, (![40, 0, 0] : Fin 3 → Nat) a + S1x82x82.size a ≤ S128x82x82.size a
  inb_S16x82x120_S1x82x15_5_0_0 : ∀ a, (![5, 0, 0] : Fin 3 → Nat) a + S1x82x15.size a ≤ S16x82x120.size a
  packedbf16_S16x82x120_S1x82x15_5_0_0 : (Rect.unit (s := S16x82x120) ![5, 0, 0] S1x82x15.size inb_S16x82x120_S1x82x15_5_0_0).PackedRows (EltTy.packing .bf16)
  inb_S128x82x82_S1x82x82_41_0_0 : ∀ a, (![41, 0, 0] : Fin 3 → Nat) a + S1x82x82.size a ≤ S128x82x82.size a
  inb_S16x82x120_S1x82x15_5_0_15 : ∀ a, (![5, 0, 15] : Fin 3 → Nat) a + S1x82x15.size a ≤ S16x82x120.size a
  packedbf16_S16x82x120_S1x82x15_5_0_15 : (Rect.unit (s := S16x82x120) ![5, 0, 15] S1x82x15.size inb_S16x82x120_S1x82x15_5_0_15).PackedRows (EltTy.packing .bf16)
  inb_S128x82x82_S1x82x82_42_0_0 : ∀ a, (![42, 0, 0] : Fin 3 → Nat) a + S1x82x82.size a ≤ S128x82x82.size a
  inb_S16x82x120_S1x82x15_5_0_30 : ∀ a, (![5, 0, 30] : Fin 3 → Nat) a + S1x82x15.size a ≤ S16x82x120.size a
  packedbf16_S16x82x120_S1x82x15_5_0_30 : (Rect.unit (s := S16x82x120) ![5, 0, 30] S1x82x15.size inb_S16x82x120_S1x82x15_5_0_30).PackedRows (EltTy.packing .bf16)
  inb_S128x82x82_S1x82x82_43_0_0 : ∀ a, (![43, 0, 0] : Fin 3 → Nat) a + S1x82x82.size a ≤ S128x82x82.size a
  inb_S16x82x120_S1x82x15_5_0_45 : ∀ a, (![5, 0, 45] : Fin 3 → Nat) a + S1x82x15.size a ≤ S16x82x120.size a
  packedbf16_S16x82x120_S1x82x15_5_0_45 : (Rect.unit (s := S16x82x120) ![5, 0, 45] S1x82x15.size inb_S16x82x120_S1x82x15_5_0_45).PackedRows (EltTy.packing .bf16)
  inb_S128x82x82_S1x82x82_44_0_0 : ∀ a, (![44, 0, 0] : Fin 3 → Nat) a + S1x82x82.size a ≤ S128x82x82.size a
  inb_S16x82x120_S1x82x15_5_0_60 : ∀ a, (![5, 0, 60] : Fin 3 → Nat) a + S1x82x15.size a ≤ S16x82x120.size a
  packedbf16_S16x82x120_S1x82x15_5_0_60 : (Rect.unit (s := S16x82x120) ![5, 0, 60] S1x82x15.size inb_S16x82x120_S1x82x15_5_0_60).PackedRows (EltTy.packing .bf16)
  inb_S128x82x82_S1x82x82_45_0_0 : ∀ a, (![45, 0, 0] : Fin 3 → Nat) a + S1x82x82.size a ≤ S128x82x82.size a
  inb_S16x82x120_S1x82x15_5_0_75 : ∀ a, (![5, 0, 75] : Fin 3 → Nat) a + S1x82x15.size a ≤ S16x82x120.size a
  packedbf16_S16x82x120_S1x82x15_5_0_75 : (Rect.unit (s := S16x82x120) ![5, 0, 75] S1x82x15.size inb_S16x82x120_S1x82x15_5_0_75).PackedRows (EltTy.packing .bf16)
  inb_S128x82x82_S1x82x82_46_0_0 : ∀ a, (![46, 0, 0] : Fin 3 → Nat) a + S1x82x82.size a ≤ S128x82x82.size a
  inb_S16x82x120_S1x82x15_5_0_90 : ∀ a, (![5, 0, 90] : Fin 3 → Nat) a + S1x82x15.size a ≤ S16x82x120.size a
  packedbf16_S16x82x120_S1x82x15_5_0_90 : (Rect.unit (s := S16x82x120) ![5, 0, 90] S1x82x15.size inb_S16x82x120_S1x82x15_5_0_90).PackedRows (EltTy.packing .bf16)
  inb_S128x82x82_S1x82x82_47_0_0 : ∀ a, (![47, 0, 0] : Fin 3 → Nat) a + S1x82x82.size a ≤ S128x82x82.size a
  inb_S16x82x120_S1x82x15_5_0_105 : ∀ a, (![5, 0, 105] : Fin 3 → Nat) a + S1x82x15.size a ≤ S16x82x120.size a
  packedbf16_S16x82x120_S1x82x15_5_0_105 : (Rect.unit (s := S16x82x120) ![5, 0, 105] S1x82x15.size inb_S16x82x120_S1x82x15_5_0_105).PackedRows (EltTy.packing .bf16)
  inb_S128x82x82_S1x82x82_48_0_0 : ∀ a, (![48, 0, 0] : Fin 3 → Nat) a + S1x82x82.size a ≤ S128x82x82.size a
  inb_S16x82x120_S1x82x15_6_0_0 : ∀ a, (![6, 0, 0] : Fin 3 → Nat) a + S1x82x15.size a ≤ S16x82x120.size a
  packedbf16_S16x82x120_S1x82x15_6_0_0 : (Rect.unit (s := S16x82x120) ![6, 0, 0] S1x82x15.size inb_S16x82x120_S1x82x15_6_0_0).PackedRows (EltTy.packing .bf16)
  inb_S128x82x82_S1x82x82_49_0_0 : ∀ a, (![49, 0, 0] : Fin 3 → Nat) a + S1x82x82.size a ≤ S128x82x82.size a
  inb_S16x82x120_S1x82x15_6_0_15 : ∀ a, (![6, 0, 15] : Fin 3 → Nat) a + S1x82x15.size a ≤ S16x82x120.size a
  packedbf16_S16x82x120_S1x82x15_6_0_15 : (Rect.unit (s := S16x82x120) ![6, 0, 15] S1x82x15.size inb_S16x82x120_S1x82x15_6_0_15).PackedRows (EltTy.packing .bf16)
  inb_S128x82x82_S1x82x82_50_0_0 : ∀ a, (![50, 0, 0] : Fin 3 → Nat) a + S1x82x82.size a ≤ S128x82x82.size a
  inb_S16x82x120_S1x82x15_6_0_30 : ∀ a, (![6, 0, 30] : Fin 3 → Nat) a + S1x82x15.size a ≤ S16x82x120.size a
  packedbf16_S16x82x120_S1x82x15_6_0_30 : (Rect.unit (s := S16x82x120) ![6, 0, 30] S1x82x15.size inb_S16x82x120_S1x82x15_6_0_30).PackedRows (EltTy.packing .bf16)
  inb_S128x82x82_S1x82x82_51_0_0 : ∀ a, (![51, 0, 0] : Fin 3 → Nat) a + S1x82x82.size a ≤ S128x82x82.size a
  inb_S16x82x120_S1x82x15_6_0_45 : ∀ a, (![6, 0, 45] : Fin 3 → Nat) a + S1x82x15.size a ≤ S16x82x120.size a
  packedbf16_S16x82x120_S1x82x15_6_0_45 : (Rect.unit (s := S16x82x120) ![6, 0, 45] S1x82x15.size inb_S16x82x120_S1x82x15_6_0_45).PackedRows (EltTy.packing .bf16)
  inb_S128x82x82_S1x82x82_52_0_0 : ∀ a, (![52, 0, 0] : Fin 3 → Nat) a + S1x82x82.size a ≤ S128x82x82.size a
  inb_S16x82x120_S1x82x15_6_0_60 : ∀ a, (![6, 0, 60] : Fin 3 → Nat) a + S1x82x15.size a ≤ S16x82x120.size a
  packedbf16_S16x82x120_S1x82x15_6_0_60 : (Rect.unit (s := S16x82x120) ![6, 0, 60] S1x82x15.size inb_S16x82x120_S1x82x15_6_0_60).PackedRows (EltTy.packing .bf16)
  inb_S128x82x82_S1x82x82_53_0_0 : ∀ a, (![53, 0, 0] : Fin 3 → Nat) a + S1x82x82.size a ≤ S128x82x82.size a
  inb_S16x82x120_S1x82x15_6_0_75 : ∀ a, (![6, 0, 75] : Fin 3 → Nat) a + S1x82x15.size a ≤ S16x82x120.size a
  packedbf16_S16x82x120_S1x82x15_6_0_75 : (Rect.unit (s := S16x82x120) ![6, 0, 75] S1x82x15.size inb_S16x82x120_S1x82x15_6_0_75).PackedRows (EltTy.packing .bf16)
  inb_S128x82x82_S1x82x82_54_0_0 : ∀ a, (![54, 0, 0] : Fin 3 → Nat) a + S1x82x82.size a ≤ S128x82x82.size a
  inb_S16x82x120_S1x82x15_6_0_90 : ∀ a, (![6, 0, 90] : Fin 3 → Nat) a + S1x82x15.size a ≤ S16x82x120.size a
  packedbf16_S16x82x120_S1x82x15_6_0_90 : (Rect.unit (s := S16x82x120) ![6, 0, 90] S1x82x15.size inb_S16x82x120_S1x82x15_6_0_90).PackedRows (EltTy.packing .bf16)
  inb_S128x82x82_S1x82x82_55_0_0 : ∀ a, (![55, 0, 0] : Fin 3 → Nat) a + S1x82x82.size a ≤ S128x82x82.size a
  inb_S16x82x120_S1x82x15_6_0_105 : ∀ a, (![6, 0, 105] : Fin 3 → Nat) a + S1x82x15.size a ≤ S16x82x120.size a
  packedbf16_S16x82x120_S1x82x15_6_0_105 : (Rect.unit (s := S16x82x120) ![6, 0, 105] S1x82x15.size inb_S16x82x120_S1x82x15_6_0_105).PackedRows (EltTy.packing .bf16)
  inb_S128x82x82_S1x82x82_56_0_0 : ∀ a, (![56, 0, 0] : Fin 3 → Nat) a + S1x82x82.size a ≤ S128x82x82.size a
  inb_S16x82x120_S1x82x15_7_0_0 : ∀ a, (![7, 0, 0] : Fin 3 → Nat) a + S1x82x15.size a ≤ S16x82x120.size a
  packedbf16_S16x82x120_S1x82x15_7_0_0 : (Rect.unit (s := S16x82x120) ![7, 0, 0] S1x82x15.size inb_S16x82x120_S1x82x15_7_0_0).PackedRows (EltTy.packing .bf16)
  inb_S128x82x82_S1x82x82_57_0_0 : ∀ a, (![57, 0, 0] : Fin 3 → Nat) a + S1x82x82.size a ≤ S128x82x82.size a
  inb_S16x82x120_S1x82x15_7_0_15 : ∀ a, (![7, 0, 15] : Fin 3 → Nat) a + S1x82x15.size a ≤ S16x82x120.size a
  packedbf16_S16x82x120_S1x82x15_7_0_15 : (Rect.unit (s := S16x82x120) ![7, 0, 15] S1x82x15.size inb_S16x82x120_S1x82x15_7_0_15).PackedRows (EltTy.packing .bf16)
  inb_S128x82x82_S1x82x82_58_0_0 : ∀ a, (![58, 0, 0] : Fin 3 → Nat) a + S1x82x82.size a ≤ S128x82x82.size a
  inb_S16x82x120_S1x82x15_7_0_30 : ∀ a, (![7, 0, 30] : Fin 3 → Nat) a + S1x82x15.size a ≤ S16x82x120.size a
  packedbf16_S16x82x120_S1x82x15_7_0_30 : (Rect.unit (s := S16x82x120) ![7, 0, 30] S1x82x15.size inb_S16x82x120_S1x82x15_7_0_30).PackedRows (EltTy.packing .bf16)
  inb_S128x82x82_S1x82x82_59_0_0 : ∀ a, (![59, 0, 0] : Fin 3 → Nat) a + S1x82x82.size a ≤ S128x82x82.size a
  inb_S16x82x120_S1x82x15_7_0_45 : ∀ a, (![7, 0, 45] : Fin 3 → Nat) a + S1x82x15.size a ≤ S16x82x120.size a
  packedbf16_S16x82x120_S1x82x15_7_0_45 : (Rect.unit (s := S16x82x120) ![7, 0, 45] S1x82x15.size inb_S16x82x120_S1x82x15_7_0_45).PackedRows (EltTy.packing .bf16)
  inb_S128x82x82_S1x82x82_60_0_0 : ∀ a, (![60, 0, 0] : Fin 3 → Nat) a + S1x82x82.size a ≤ S128x82x82.size a
  inb_S16x82x120_S1x82x15_7_0_60 : ∀ a, (![7, 0, 60] : Fin 3 → Nat) a + S1x82x15.size a ≤ S16x82x120.size a
  packedbf16_S16x82x120_S1x82x15_7_0_60 : (Rect.unit (s := S16x82x120) ![7, 0, 60] S1x82x15.size inb_S16x82x120_S1x82x15_7_0_60).PackedRows (EltTy.packing .bf16)
  inb_S128x82x82_S1x82x82_61_0_0 : ∀ a, (![61, 0, 0] : Fin 3 → Nat) a + S1x82x82.size a ≤ S128x82x82.size a
  inb_S16x82x120_S1x82x15_7_0_75 : ∀ a, (![7, 0, 75] : Fin 3 → Nat) a + S1x82x15.size a ≤ S16x82x120.size a
  packedbf16_S16x82x120_S1x82x15_7_0_75 : (Rect.unit (s := S16x82x120) ![7, 0, 75] S1x82x15.size inb_S16x82x120_S1x82x15_7_0_75).PackedRows (EltTy.packing .bf16)
  inb_S128x82x82_S1x82x82_62_0_0 : ∀ a, (![62, 0, 0] : Fin 3 → Nat) a + S1x82x82.size a ≤ S128x82x82.size a
  inb_S16x82x120_S1x82x15_7_0_90 : ∀ a, (![7, 0, 90] : Fin 3 → Nat) a + S1x82x15.size a ≤ S16x82x120.size a
  packedbf16_S16x82x120_S1x82x15_7_0_90 : (Rect.unit (s := S16x82x120) ![7, 0, 90] S1x82x15.size inb_S16x82x120_S1x82x15_7_0_90).PackedRows (EltTy.packing .bf16)
  inb_S128x82x82_S1x82x82_63_0_0 : ∀ a, (![63, 0, 0] : Fin 3 → Nat) a + S1x82x82.size a ≤ S128x82x82.size a
  inb_S16x82x120_S1x82x15_7_0_105 : ∀ a, (![7, 0, 105] : Fin 3 → Nat) a + S1x82x15.size a ≤ S16x82x120.size a
  packedbf16_S16x82x120_S1x82x15_7_0_105 : (Rect.unit (s := S16x82x120) ![7, 0, 105] S1x82x15.size inb_S16x82x120_S1x82x15_7_0_105).PackedRows (EltTy.packing .bf16)
  inb_S128x82x82_S1x82x82_64_0_0 : ∀ a, (![64, 0, 0] : Fin 3 → Nat) a + S1x82x82.size a ≤ S128x82x82.size a
  inb_S16x82x120_S1x82x15_8_0_0 : ∀ a, (![8, 0, 0] : Fin 3 → Nat) a + S1x82x15.size a ≤ S16x82x120.size a
  packedbf16_S16x82x120_S1x82x15_8_0_0 : (Rect.unit (s := S16x82x120) ![8, 0, 0] S1x82x15.size inb_S16x82x120_S1x82x15_8_0_0).PackedRows (EltTy.packing .bf16)
  inb_S128x82x82_S1x82x82_65_0_0 : ∀ a, (![65, 0, 0] : Fin 3 → Nat) a + S1x82x82.size a ≤ S128x82x82.size a
  inb_S16x82x120_S1x82x15_8_0_15 : ∀ a, (![8, 0, 15] : Fin 3 → Nat) a + S1x82x15.size a ≤ S16x82x120.size a
  packedbf16_S16x82x120_S1x82x15_8_0_15 : (Rect.unit (s := S16x82x120) ![8, 0, 15] S1x82x15.size inb_S16x82x120_S1x82x15_8_0_15).PackedRows (EltTy.packing .bf16)
  inb_S128x82x82_S1x82x82_66_0_0 : ∀ a, (![66, 0, 0] : Fin 3 → Nat) a + S1x82x82.size a ≤ S128x82x82.size a
  inb_S16x82x120_S1x82x15_8_0_30 : ∀ a, (![8, 0, 30] : Fin 3 → Nat) a + S1x82x15.size a ≤ S16x82x120.size a
  packedbf16_S16x82x120_S1x82x15_8_0_30 : (Rect.unit (s := S16x82x120) ![8, 0, 30] S1x82x15.size inb_S16x82x120_S1x82x15_8_0_30).PackedRows (EltTy.packing .bf16)
  inb_S128x82x82_S1x82x82_67_0_0 : ∀ a, (![67, 0, 0] : Fin 3 → Nat) a + S1x82x82.size a ≤ S128x82x82.size a
  inb_S16x82x120_S1x82x15_8_0_45 : ∀ a, (![8, 0, 45] : Fin 3 → Nat) a + S1x82x15.size a ≤ S16x82x120.size a
  packedbf16_S16x82x120_S1x82x15_8_0_45 : (Rect.unit (s := S16x82x120) ![8, 0, 45] S1x82x15.size inb_S16x82x120_S1x82x15_8_0_45).PackedRows (EltTy.packing .bf16)
  inb_S128x82x82_S1x82x82_68_0_0 : ∀ a, (![68, 0, 0] : Fin 3 → Nat) a + S1x82x82.size a ≤ S128x82x82.size a
  inb_S16x82x120_S1x82x15_8_0_60 : ∀ a, (![8, 0, 60] : Fin 3 → Nat) a + S1x82x15.size a ≤ S16x82x120.size a
  packedbf16_S16x82x120_S1x82x15_8_0_60 : (Rect.unit (s := S16x82x120) ![8, 0, 60] S1x82x15.size inb_S16x82x120_S1x82x15_8_0_60).PackedRows (EltTy.packing .bf16)
  inb_S128x82x82_S1x82x82_69_0_0 : ∀ a, (![69, 0, 0] : Fin 3 → Nat) a + S1x82x82.size a ≤ S128x82x82.size a
  inb_S16x82x120_S1x82x15_8_0_75 : ∀ a, (![8, 0, 75] : Fin 3 → Nat) a + S1x82x15.size a ≤ S16x82x120.size a
  packedbf16_S16x82x120_S1x82x15_8_0_75 : (Rect.unit (s := S16x82x120) ![8, 0, 75] S1x82x15.size inb_S16x82x120_S1x82x15_8_0_75).PackedRows (EltTy.packing .bf16)
  inb_S128x82x82_S1x82x82_70_0_0 : ∀ a, (![70, 0, 0] : Fin 3 → Nat) a + S1x82x82.size a ≤ S128x82x82.size a
  inb_S16x82x120_S1x82x15_8_0_90 : ∀ a, (![8, 0, 90] : Fin 3 → Nat) a + S1x82x15.size a ≤ S16x82x120.size a
  packedbf16_S16x82x120_S1x82x15_8_0_90 : (Rect.unit (s := S16x82x120) ![8, 0, 90] S1x82x15.size inb_S16x82x120_S1x82x15_8_0_90).PackedRows (EltTy.packing .bf16)
  inb_S128x82x82_S1x82x82_71_0_0 : ∀ a, (![71, 0, 0] : Fin 3 → Nat) a + S1x82x82.size a ≤ S128x82x82.size a
  inb_S16x82x120_S1x82x15_8_0_105 : ∀ a, (![8, 0, 105] : Fin 3 → Nat) a + S1x82x15.size a ≤ S16x82x120.size a
  packedbf16_S16x82x120_S1x82x15_8_0_105 : (Rect.unit (s := S16x82x120) ![8, 0, 105] S1x82x15.size inb_S16x82x120_S1x82x15_8_0_105).PackedRows (EltTy.packing .bf16)
  inb_S128x82x82_S1x82x82_72_0_0 : ∀ a, (![72, 0, 0] : Fin 3 → Nat) a + S1x82x82.size a ≤ S128x82x82.size a
  inb_S16x82x120_S1x82x15_9_0_0 : ∀ a, (![9, 0, 0] : Fin 3 → Nat) a + S1x82x15.size a ≤ S16x82x120.size a
  packedbf16_S16x82x120_S1x82x15_9_0_0 : (Rect.unit (s := S16x82x120) ![9, 0, 0] S1x82x15.size inb_S16x82x120_S1x82x15_9_0_0).PackedRows (EltTy.packing .bf16)
  inb_S128x82x82_S1x82x82_73_0_0 : ∀ a, (![73, 0, 0] : Fin 3 → Nat) a + S1x82x82.size a ≤ S128x82x82.size a
  inb_S16x82x120_S1x82x15_9_0_15 : ∀ a, (![9, 0, 15] : Fin 3 → Nat) a + S1x82x15.size a ≤ S16x82x120.size a
  packedbf16_S16x82x120_S1x82x15_9_0_15 : (Rect.unit (s := S16x82x120) ![9, 0, 15] S1x82x15.size inb_S16x82x120_S1x82x15_9_0_15).PackedRows (EltTy.packing .bf16)
  inb_S128x82x82_S1x82x82_74_0_0 : ∀ a, (![74, 0, 0] : Fin 3 → Nat) a + S1x82x82.size a ≤ S128x82x82.size a
  inb_S16x82x120_S1x82x15_9_0_30 : ∀ a, (![9, 0, 30] : Fin 3 → Nat) a + S1x82x15.size a ≤ S16x82x120.size a
  packedbf16_S16x82x120_S1x82x15_9_0_30 : (Rect.unit (s := S16x82x120) ![9, 0, 30] S1x82x15.size inb_S16x82x120_S1x82x15_9_0_30).PackedRows (EltTy.packing .bf16)
  inb_S128x82x82_S1x82x82_75_0_0 : ∀ a, (![75, 0, 0] : Fin 3 → Nat) a + S1x82x82.size a ≤ S128x82x82.size a
  inb_S16x82x120_S1x82x15_9_0_45 : ∀ a, (![9, 0, 45] : Fin 3 → Nat) a + S1x82x15.size a ≤ S16x82x120.size a
  packedbf16_S16x82x120_S1x82x15_9_0_45 : (Rect.unit (s := S16x82x120) ![9, 0, 45] S1x82x15.size inb_S16x82x120_S1x82x15_9_0_45).PackedRows (EltTy.packing .bf16)
  inb_S128x82x82_S1x82x82_76_0_0 : ∀ a, (![76, 0, 0] : Fin 3 → Nat) a + S1x82x82.size a ≤ S128x82x82.size a
  inb_S16x82x120_S1x82x15_9_0_60 : ∀ a, (![9, 0, 60] : Fin 3 → Nat) a + S1x82x15.size a ≤ S16x82x120.size a
  packedbf16_S16x82x120_S1x82x15_9_0_60 : (Rect.unit (s := S16x82x120) ![9, 0, 60] S1x82x15.size inb_S16x82x120_S1x82x15_9_0_60).PackedRows (EltTy.packing .bf16)
  inb_S128x82x82_S1x82x82_77_0_0 : ∀ a, (![77, 0, 0] : Fin 3 → Nat) a + S1x82x82.size a ≤ S128x82x82.size a
  inb_S16x82x120_S1x82x15_9_0_75 : ∀ a, (![9, 0, 75] : Fin 3 → Nat) a + S1x82x15.size a ≤ S16x82x120.size a
  packedbf16_S16x82x120_S1x82x15_9_0_75 : (Rect.unit (s := S16x82x120) ![9, 0, 75] S1x82x15.size inb_S16x82x120_S1x82x15_9_0_75).PackedRows (EltTy.packing .bf16)
  inb_S128x82x82_S1x82x82_78_0_0 : ∀ a, (![78, 0, 0] : Fin 3 → Nat) a + S1x82x82.size a ≤ S128x82x82.size a
  inb_S16x82x120_S1x82x15_9_0_90 : ∀ a, (![9, 0, 90] : Fin 3 → Nat) a + S1x82x15.size a ≤ S16x82x120.size a
  packedbf16_S16x82x120_S1x82x15_9_0_90 : (Rect.unit (s := S16x82x120) ![9, 0, 90] S1x82x15.size inb_S16x82x120_S1x82x15_9_0_90).PackedRows (EltTy.packing .bf16)
  inb_S128x82x82_S1x82x82_79_0_0 : ∀ a, (![79, 0, 0] : Fin 3 → Nat) a + S1x82x82.size a ≤ S128x82x82.size a
  inb_S16x82x120_S1x82x15_9_0_105 : ∀ a, (![9, 0, 105] : Fin 3 → Nat) a + S1x82x15.size a ≤ S16x82x120.size a
  packedbf16_S16x82x120_S1x82x15_9_0_105 : (Rect.unit (s := S16x82x120) ![9, 0, 105] S1x82x15.size inb_S16x82x120_S1x82x15_9_0_105).PackedRows (EltTy.packing .bf16)
  inb_S128x82x82_S1x82x82_80_0_0 : ∀ a, (![80, 0, 0] : Fin 3 → Nat) a + S1x82x82.size a ≤ S128x82x82.size a
  inb_S16x82x120_S1x82x15_10_0_0 : ∀ a, (![10, 0, 0] : Fin 3 → Nat) a + S1x82x15.size a ≤ S16x82x120.size a
  packedbf16_S16x82x120_S1x82x15_10_0_0 : (Rect.unit (s := S16x82x120) ![10, 0, 0] S1x82x15.size inb_S16x82x120_S1x82x15_10_0_0).PackedRows (EltTy.packing .bf16)
  inb_S128x82x82_S1x82x82_81_0_0 : ∀ a, (![81, 0, 0] : Fin 3 → Nat) a + S1x82x82.size a ≤ S128x82x82.size a
  inb_S16x82x120_S1x82x15_10_0_15 : ∀ a, (![10, 0, 15] : Fin 3 → Nat) a + S1x82x15.size a ≤ S16x82x120.size a
  packedbf16_S16x82x120_S1x82x15_10_0_15 : (Rect.unit (s := S16x82x120) ![10, 0, 15] S1x82x15.size inb_S16x82x120_S1x82x15_10_0_15).PackedRows (EltTy.packing .bf16)
  inb_S128x82x82_S1x82x82_82_0_0 : ∀ a, (![82, 0, 0] : Fin 3 → Nat) a + S1x82x82.size a ≤ S128x82x82.size a
  inb_S16x82x120_S1x82x15_10_0_30 : ∀ a, (![10, 0, 30] : Fin 3 → Nat) a + S1x82x15.size a ≤ S16x82x120.size a
  packedbf16_S16x82x120_S1x82x15_10_0_30 : (Rect.unit (s := S16x82x120) ![10, 0, 30] S1x82x15.size inb_S16x82x120_S1x82x15_10_0_30).PackedRows (EltTy.packing .bf16)
  inb_S128x82x82_S1x82x82_83_0_0 : ∀ a, (![83, 0, 0] : Fin 3 → Nat) a + S1x82x82.size a ≤ S128x82x82.size a
  inb_S16x82x120_S1x82x15_10_0_45 : ∀ a, (![10, 0, 45] : Fin 3 → Nat) a + S1x82x15.size a ≤ S16x82x120.size a
  packedbf16_S16x82x120_S1x82x15_10_0_45 : (Rect.unit (s := S16x82x120) ![10, 0, 45] S1x82x15.size inb_S16x82x120_S1x82x15_10_0_45).PackedRows (EltTy.packing .bf16)
  inb_S128x82x82_S1x82x82_84_0_0 : ∀ a, (![84, 0, 0] : Fin 3 → Nat) a + S1x82x82.size a ≤ S128x82x82.size a
  inb_S16x82x120_S1x82x15_10_0_60 : ∀ a, (![10, 0, 60] : Fin 3 → Nat) a + S1x82x15.size a ≤ S16x82x120.size a
  packedbf16_S16x82x120_S1x82x15_10_0_60 : (Rect.unit (s := S16x82x120) ![10, 0, 60] S1x82x15.size inb_S16x82x120_S1x82x15_10_0_60).PackedRows (EltTy.packing .bf16)
  inb_S128x82x82_S1x82x82_85_0_0 : ∀ a, (![85, 0, 0] : Fin 3 → Nat) a + S1x82x82.size a ≤ S128x82x82.size a
  inb_S16x82x120_S1x82x15_10_0_75 : ∀ a, (![10, 0, 75] : Fin 3 → Nat) a + S1x82x15.size a ≤ S16x82x120.size a
  packedbf16_S16x82x120_S1x82x15_10_0_75 : (Rect.unit (s := S16x82x120) ![10, 0, 75] S1x82x15.size inb_S16x82x120_S1x82x15_10_0_75).PackedRows (EltTy.packing .bf16)
  inb_S128x82x82_S1x82x82_86_0_0 : ∀ a, (![86, 0, 0] : Fin 3 → Nat) a + S1x82x82.size a ≤ S128x82x82.size a
  inb_S16x82x120_S1x82x15_10_0_90 : ∀ a, (![10, 0, 90] : Fin 3 → Nat) a + S1x82x15.size a ≤ S16x82x120.size a
  packedbf16_S16x82x120_S1x82x15_10_0_90 : (Rect.unit (s := S16x82x120) ![10, 0, 90] S1x82x15.size inb_S16x82x120_S1x82x15_10_0_90).PackedRows (EltTy.packing .bf16)
  inb_S128x82x82_S1x82x82_87_0_0 : ∀ a, (![87, 0, 0] : Fin 3 → Nat) a + S1x82x82.size a ≤ S128x82x82.size a
  inb_S16x82x120_S1x82x15_10_0_105 : ∀ a, (![10, 0, 105] : Fin 3 → Nat) a + S1x82x15.size a ≤ S16x82x120.size a
  packedbf16_S16x82x120_S1x82x15_10_0_105 : (Rect.unit (s := S16x82x120) ![10, 0, 105] S1x82x15.size inb_S16x82x120_S1x82x15_10_0_105).PackedRows (EltTy.packing .bf16)
  inb_S128x82x82_S1x82x82_88_0_0 : ∀ a, (![88, 0, 0] : Fin 3 → Nat) a + S1x82x82.size a ≤ S128x82x82.size a
  inb_S16x82x120_S1x82x15_11_0_0 : ∀ a, (![11, 0, 0] : Fin 3 → Nat) a + S1x82x15.size a ≤ S16x82x120.size a
  packedbf16_S16x82x120_S1x82x15_11_0_0 : (Rect.unit (s := S16x82x120) ![11, 0, 0] S1x82x15.size inb_S16x82x120_S1x82x15_11_0_0).PackedRows (EltTy.packing .bf16)
  inb_S128x82x82_S1x82x82_89_0_0 : ∀ a, (![89, 0, 0] : Fin 3 → Nat) a + S1x82x82.size a ≤ S128x82x82.size a
  inb_S16x82x120_S1x82x15_11_0_15 : ∀ a, (![11, 0, 15] : Fin 3 → Nat) a + S1x82x15.size a ≤ S16x82x120.size a
  packedbf16_S16x82x120_S1x82x15_11_0_15 : (Rect.unit (s := S16x82x120) ![11, 0, 15] S1x82x15.size inb_S16x82x120_S1x82x15_11_0_15).PackedRows (EltTy.packing .bf16)
  inb_S128x82x82_S1x82x82_90_0_0 : ∀ a, (![90, 0, 0] : Fin 3 → Nat) a + S1x82x82.size a ≤ S128x82x82.size a
  inb_S16x82x120_S1x82x15_11_0_30 : ∀ a, (![11, 0, 30] : Fin 3 → Nat) a + S1x82x15.size a ≤ S16x82x120.size a
  packedbf16_S16x82x120_S1x82x15_11_0_30 : (Rect.unit (s := S16x82x120) ![11, 0, 30] S1x82x15.size inb_S16x82x120_S1x82x15_11_0_30).PackedRows (EltTy.packing .bf16)
  inb_S128x82x82_S1x82x82_91_0_0 : ∀ a, (![91, 0, 0] : Fin 3 → Nat) a + S1x82x82.size a ≤ S128x82x82.size a
  inb_S16x82x120_S1x82x15_11_0_45 : ∀ a, (![11, 0, 45] : Fin 3 → Nat) a + S1x82x15.size a ≤ S16x82x120.size a
  packedbf16_S16x82x120_S1x82x15_11_0_45 : (Rect.unit (s := S16x82x120) ![11, 0, 45] S1x82x15.size inb_S16x82x120_S1x82x15_11_0_45).PackedRows (EltTy.packing .bf16)
  inb_S128x82x82_S1x82x82_92_0_0 : ∀ a, (![92, 0, 0] : Fin 3 → Nat) a + S1x82x82.size a ≤ S128x82x82.size a
  inb_S16x82x120_S1x82x15_11_0_60 : ∀ a, (![11, 0, 60] : Fin 3 → Nat) a + S1x82x15.size a ≤ S16x82x120.size a
  packedbf16_S16x82x120_S1x82x15_11_0_60 : (Rect.unit (s := S16x82x120) ![11, 0, 60] S1x82x15.size inb_S16x82x120_S1x82x15_11_0_60).PackedRows (EltTy.packing .bf16)
  inb_S128x82x82_S1x82x82_93_0_0 : ∀ a, (![93, 0, 0] : Fin 3 → Nat) a + S1x82x82.size a ≤ S128x82x82.size a
  inb_S16x82x120_S1x82x15_11_0_75 : ∀ a, (![11, 0, 75] : Fin 3 → Nat) a + S1x82x15.size a ≤ S16x82x120.size a
  packedbf16_S16x82x120_S1x82x15_11_0_75 : (Rect.unit (s := S16x82x120) ![11, 0, 75] S1x82x15.size inb_S16x82x120_S1x82x15_11_0_75).PackedRows (EltTy.packing .bf16)
  inb_S128x82x82_S1x82x82_94_0_0 : ∀ a, (![94, 0, 0] : Fin 3 → Nat) a + S1x82x82.size a ≤ S128x82x82.size a
  inb_S16x82x120_S1x82x15_11_0_90 : ∀ a, (![11, 0, 90] : Fin 3 → Nat) a + S1x82x15.size a ≤ S16x82x120.size a
  packedbf16_S16x82x120_S1x82x15_11_0_90 : (Rect.unit (s := S16x82x120) ![11, 0, 90] S1x82x15.size inb_S16x82x120_S1x82x15_11_0_90).PackedRows (EltTy.packing .bf16)
  inb_S128x82x82_S1x82x82_95_0_0 : ∀ a, (![95, 0, 0] : Fin 3 → Nat) a + S1x82x82.size a ≤ S128x82x82.size a
  inb_S16x82x120_S1x82x15_11_0_105 : ∀ a, (![11, 0, 105] : Fin 3 → Nat) a + S1x82x15.size a ≤ S16x82x120.size a
  packedbf16_S16x82x120_S1x82x15_11_0_105 : (Rect.unit (s := S16x82x120) ![11, 0, 105] S1x82x15.size inb_S16x82x120_S1x82x15_11_0_105).PackedRows (EltTy.packing .bf16)
  inb_S128x82x82_S1x82x82_96_0_0 : ∀ a, (![96, 0, 0] : Fin 3 → Nat) a + S1x82x82.size a ≤ S128x82x82.size a
  inb_S16x82x120_S1x82x15_12_0_0 : ∀ a, (![12, 0, 0] : Fin 3 → Nat) a + S1x82x15.size a ≤ S16x82x120.size a
  packedbf16_S16x82x120_S1x82x15_12_0_0 : (Rect.unit (s := S16x82x120) ![12, 0, 0] S1x82x15.size inb_S16x82x120_S1x82x15_12_0_0).PackedRows (EltTy.packing .bf16)
  inb_S128x82x82_S1x82x82_97_0_0 : ∀ a, (![97, 0, 0] : Fin 3 → Nat) a + S1x82x82.size a ≤ S128x82x82.size a
  inb_S16x82x120_S1x82x15_12_0_15 : ∀ a, (![12, 0, 15] : Fin 3 → Nat) a + S1x82x15.size a ≤ S16x82x120.size a
  packedbf16_S16x82x120_S1x82x15_12_0_15 : (Rect.unit (s := S16x82x120) ![12, 0, 15] S1x82x15.size inb_S16x82x120_S1x82x15_12_0_15).PackedRows (EltTy.packing .bf16)
  inb_S128x82x82_S1x82x82_98_0_0 : ∀ a, (![98, 0, 0] : Fin 3 → Nat) a + S1x82x82.size a ≤ S128x82x82.size a
  inb_S16x82x120_S1x82x15_12_0_30 : ∀ a, (![12, 0, 30] : Fin 3 → Nat) a + S1x82x15.size a ≤ S16x82x120.size a
  packedbf16_S16x82x120_S1x82x15_12_0_30 : (Rect.unit (s := S16x82x120) ![12, 0, 30] S1x82x15.size inb_S16x82x120_S1x82x15_12_0_30).PackedRows (EltTy.packing .bf16)
  inb_S128x82x82_S1x82x82_99_0_0 : ∀ a, (![99, 0, 0] : Fin 3 → Nat) a + S1x82x82.size a ≤ S128x82x82.size a
  inb_S16x82x120_S1x82x15_12_0_45 : ∀ a, (![12, 0, 45] : Fin 3 → Nat) a + S1x82x15.size a ≤ S16x82x120.size a
  packedbf16_S16x82x120_S1x82x15_12_0_45 : (Rect.unit (s := S16x82x120) ![12, 0, 45] S1x82x15.size inb_S16x82x120_S1x82x15_12_0_45).PackedRows (EltTy.packing .bf16)
  inb_S128x82x82_S1x82x82_100_0_0 : ∀ a, (![100, 0, 0] : Fin 3 → Nat) a + S1x82x82.size a ≤ S128x82x82.size a
  inb_S16x82x120_S1x82x15_12_0_60 : ∀ a, (![12, 0, 60] : Fin 3 → Nat) a + S1x82x15.size a ≤ S16x82x120.size a
  packedbf16_S16x82x120_S1x82x15_12_0_60 : (Rect.unit (s := S16x82x120) ![12, 0, 60] S1x82x15.size inb_S16x82x120_S1x82x15_12_0_60).PackedRows (EltTy.packing .bf16)
  inb_S128x82x82_S1x82x82_101_0_0 : ∀ a, (![101, 0, 0] : Fin 3 → Nat) a + S1x82x82.size a ≤ S128x82x82.size a
  inb_S16x82x120_S1x82x15_12_0_75 : ∀ a, (![12, 0, 75] : Fin 3 → Nat) a + S1x82x15.size a ≤ S16x82x120.size a
  packedbf16_S16x82x120_S1x82x15_12_0_75 : (Rect.unit (s := S16x82x120) ![12, 0, 75] S1x82x15.size inb_S16x82x120_S1x82x15_12_0_75).PackedRows (EltTy.packing .bf16)
  inb_S128x82x82_S1x82x82_102_0_0 : ∀ a, (![102, 0, 0] : Fin 3 → Nat) a + S1x82x82.size a ≤ S128x82x82.size a
  inb_S16x82x120_S1x82x15_12_0_90 : ∀ a, (![12, 0, 90] : Fin 3 → Nat) a + S1x82x15.size a ≤ S16x82x120.size a
  packedbf16_S16x82x120_S1x82x15_12_0_90 : (Rect.unit (s := S16x82x120) ![12, 0, 90] S1x82x15.size inb_S16x82x120_S1x82x15_12_0_90).PackedRows (EltTy.packing .bf16)
  inb_S128x82x82_S1x82x82_103_0_0 : ∀ a, (![103, 0, 0] : Fin 3 → Nat) a + S1x82x82.size a ≤ S128x82x82.size a
  inb_S16x82x120_S1x82x15_12_0_105 : ∀ a, (![12, 0, 105] : Fin 3 → Nat) a + S1x82x15.size a ≤ S16x82x120.size a
  packedbf16_S16x82x120_S1x82x15_12_0_105 : (Rect.unit (s := S16x82x120) ![12, 0, 105] S1x82x15.size inb_S16x82x120_S1x82x15_12_0_105).PackedRows (EltTy.packing .bf16)
  inb_S128x82x82_S1x82x82_104_0_0 : ∀ a, (![104, 0, 0] : Fin 3 → Nat) a + S1x82x82.size a ≤ S128x82x82.size a
  inb_S16x82x120_S1x82x15_13_0_0 : ∀ a, (![13, 0, 0] : Fin 3 → Nat) a + S1x82x15.size a ≤ S16x82x120.size a
  packedbf16_S16x82x120_S1x82x15_13_0_0 : (Rect.unit (s := S16x82x120) ![13, 0, 0] S1x82x15.size inb_S16x82x120_S1x82x15_13_0_0).PackedRows (EltTy.packing .bf16)
  inb_S128x82x82_S1x82x82_105_0_0 : ∀ a, (![105, 0, 0] : Fin 3 → Nat) a + S1x82x82.size a ≤ S128x82x82.size a
  inb_S16x82x120_S1x82x15_13_0_15 : ∀ a, (![13, 0, 15] : Fin 3 → Nat) a + S1x82x15.size a ≤ S16x82x120.size a
  packedbf16_S16x82x120_S1x82x15_13_0_15 : (Rect.unit (s := S16x82x120) ![13, 0, 15] S1x82x15.size inb_S16x82x120_S1x82x15_13_0_15).PackedRows (EltTy.packing .bf16)
  inb_S128x82x82_S1x82x82_106_0_0 : ∀ a, (![106, 0, 0] : Fin 3 → Nat) a + S1x82x82.size a ≤ S128x82x82.size a
  inb_S16x82x120_S1x82x15_13_0_30 : ∀ a, (![13, 0, 30] : Fin 3 → Nat) a + S1x82x15.size a ≤ S16x82x120.size a
  packedbf16_S16x82x120_S1x82x15_13_0_30 : (Rect.unit (s := S16x82x120) ![13, 0, 30] S1x82x15.size inb_S16x82x120_S1x82x15_13_0_30).PackedRows (EltTy.packing .bf16)
  inb_S128x82x82_S1x82x82_107_0_0 : ∀ a, (![107, 0, 0] : Fin 3 → Nat) a + S1x82x82.size a ≤ S128x82x82.size a
  inb_S16x82x120_S1x82x15_13_0_45 : ∀ a, (![13, 0, 45] : Fin 3 → Nat) a + S1x82x15.size a ≤ S16x82x120.size a
  packedbf16_S16x82x120_S1x82x15_13_0_45 : (Rect.unit (s := S16x82x120) ![13, 0, 45] S1x82x15.size inb_S16x82x120_S1x82x15_13_0_45).PackedRows (EltTy.packing .bf16)
  inb_S128x82x82_S1x82x82_108_0_0 : ∀ a, (![108, 0, 0] : Fin 3 → Nat) a + S1x82x82.size a ≤ S128x82x82.size a
  inb_S16x82x120_S1x82x15_13_0_60 : ∀ a, (![13, 0, 60] : Fin 3 → Nat) a + S1x82x15.size a ≤ S16x82x120.size a
  packedbf16_S16x82x120_S1x82x15_13_0_60 : (Rect.unit (s := S16x82x120) ![13, 0, 60] S1x82x15.size inb_S16x82x120_S1x82x15_13_0_60).PackedRows (EltTy.packing .bf16)
  inb_S128x82x82_S1x82x82_109_0_0 : ∀ a, (![109, 0, 0] : Fin 3 → Nat) a + S1x82x82.size a ≤ S128x82x82.size a
  inb_S16x82x120_S1x82x15_13_0_75 : ∀ a, (![13, 0, 75] : Fin 3 → Nat) a + S1x82x15.size a ≤ S16x82x120.size a
  packedbf16_S16x82x120_S1x82x15_13_0_75 : (Rect.unit (s := S16x82x120) ![13, 0, 75] S1x82x15.size inb_S16x82x120_S1x82x15_13_0_75).PackedRows (EltTy.packing .bf16)
  inb_S128x82x82_S1x82x82_110_0_0 : ∀ a, (![110, 0, 0] : Fin 3 → Nat) a + S1x82x82.size a ≤ S128x82x82.size a
  inb_S16x82x120_S1x82x15_13_0_90 : ∀ a, (![13, 0, 90] : Fin 3 → Nat) a + S1x82x15.size a ≤ S16x82x120.size a
  packedbf16_S16x82x120_S1x82x15_13_0_90 : (Rect.unit (s := S16x82x120) ![13, 0, 90] S1x82x15.size inb_S16x82x120_S1x82x15_13_0_90).PackedRows (EltTy.packing .bf16)
  inb_S128x82x82_S1x82x82_111_0_0 : ∀ a, (![111, 0, 0] : Fin 3 → Nat) a + S1x82x82.size a ≤ S128x82x82.size a
  inb_S16x82x120_S1x82x15_13_0_105 : ∀ a, (![13, 0, 105] : Fin 3 → Nat) a + S1x82x15.size a ≤ S16x82x120.size a
  packedbf16_S16x82x120_S1x82x15_13_0_105 : (Rect.unit (s := S16x82x120) ![13, 0, 105] S1x82x15.size inb_S16x82x120_S1x82x15_13_0_105).PackedRows (EltTy.packing .bf16)
  inb_S128x82x82_S1x82x82_112_0_0 : ∀ a, (![112, 0, 0] : Fin 3 → Nat) a + S1x82x82.size a ≤ S128x82x82.size a
  inb_S16x82x120_S1x82x15_14_0_0 : ∀ a, (![14, 0, 0] : Fin 3 → Nat) a + S1x82x15.size a ≤ S16x82x120.size a
  packedbf16_S16x82x120_S1x82x15_14_0_0 : (Rect.unit (s := S16x82x120) ![14, 0, 0] S1x82x15.size inb_S16x82x120_S1x82x15_14_0_0).PackedRows (EltTy.packing .bf16)
  inb_S128x82x82_S1x82x82_113_0_0 : ∀ a, (![113, 0, 0] : Fin 3 → Nat) a + S1x82x82.size a ≤ S128x82x82.size a
  inb_S16x82x120_S1x82x15_14_0_15 : ∀ a, (![14, 0, 15] : Fin 3 → Nat) a + S1x82x15.size a ≤ S16x82x120.size a
  packedbf16_S16x82x120_S1x82x15_14_0_15 : (Rect.unit (s := S16x82x120) ![14, 0, 15] S1x82x15.size inb_S16x82x120_S1x82x15_14_0_15).PackedRows (EltTy.packing .bf16)
  inb_S128x82x82_S1x82x82_114_0_0 : ∀ a, (![114, 0, 0] : Fin 3 → Nat) a + S1x82x82.size a ≤ S128x82x82.size a
  inb_S16x82x120_S1x82x15_14_0_30 : ∀ a, (![14, 0, 30] : Fin 3 → Nat) a + S1x82x15.size a ≤ S16x82x120.size a
  packedbf16_S16x82x120_S1x82x15_14_0_30 : (Rect.unit (s := S16x82x120) ![14, 0, 30] S1x82x15.size inb_S16x82x120_S1x82x15_14_0_30).PackedRows (EltTy.packing .bf16)
  inb_S128x82x82_S1x82x82_115_0_0 : ∀ a, (![115, 0, 0] : Fin 3 → Nat) a + S1x82x82.size a ≤ S128x82x82.size a
  inb_S16x82x120_S1x82x15_14_0_45 : ∀ a, (![14, 0, 45] : Fin 3 → Nat) a + S1x82x15.size a ≤ S16x82x120.size a
  packedbf16_S16x82x120_S1x82x15_14_0_45 : (Rect.unit (s := S16x82x120) ![14, 0, 45] S1x82x15.size inb_S16x82x120_S1x82x15_14_0_45).PackedRows (EltTy.packing .bf16)
  inb_S128x82x82_S1x82x82_116_0_0 : ∀ a, (![116, 0, 0] : Fin 3 → Nat) a + S1x82x82.size a ≤ S128x82x82.size a
  inb_S16x82x120_S1x82x15_14_0_60 : ∀ a, (![14, 0, 60] : Fin 3 → Nat) a + S1x82x15.size a ≤ S16x82x120.size a
  packedbf16_S16x82x120_S1x82x15_14_0_60 : (Rect.unit (s := S16x82x120) ![14, 0, 60] S1x82x15.size inb_S16x82x120_S1x82x15_14_0_60).PackedRows (EltTy.packing .bf16)
  inb_S128x82x82_S1x82x82_117_0_0 : ∀ a, (![117, 0, 0] : Fin 3 → Nat) a + S1x82x82.size a ≤ S128x82x82.size a
  inb_S16x82x120_S1x82x15_14_0_75 : ∀ a, (![14, 0, 75] : Fin 3 → Nat) a + S1x82x15.size a ≤ S16x82x120.size a
  packedbf16_S16x82x120_S1x82x15_14_0_75 : (Rect.unit (s := S16x82x120) ![14, 0, 75] S1x82x15.size inb_S16x82x120_S1x82x15_14_0_75).PackedRows (EltTy.packing .bf16)
  inb_S128x82x82_S1x82x82_118_0_0 : ∀ a, (![118, 0, 0] : Fin 3 → Nat) a + S1x82x82.size a ≤ S128x82x82.size a
  inb_S16x82x120_S1x82x15_14_0_90 : ∀ a, (![14, 0, 90] : Fin 3 → Nat) a + S1x82x15.size a ≤ S16x82x120.size a
  packedbf16_S16x82x120_S1x82x15_14_0_90 : (Rect.unit (s := S16x82x120) ![14, 0, 90] S1x82x15.size inb_S16x82x120_S1x82x15_14_0_90).PackedRows (EltTy.packing .bf16)
  inb_S128x82x82_S1x82x82_119_0_0 : ∀ a, (![119, 0, 0] : Fin 3 → Nat) a + S1x82x82.size a ≤ S128x82x82.size a
  inb_S16x82x120_S1x82x15_14_0_105 : ∀ a, (![14, 0, 105] : Fin 3 → Nat) a + S1x82x15.size a ≤ S16x82x120.size a
  packedbf16_S16x82x120_S1x82x15_14_0_105 : (Rect.unit (s := S16x82x120) ![14, 0, 105] S1x82x15.size inb_S16x82x120_S1x82x15_14_0_105).PackedRows (EltTy.packing .bf16)
  inb_S128x82x82_S1x82x82_120_0_0 : ∀ a, (![120, 0, 0] : Fin 3 → Nat) a + S1x82x82.size a ≤ S128x82x82.size a
  inb_S16x82x120_S1x82x15_15_0_0 : ∀ a, (![15, 0, 0] : Fin 3 → Nat) a + S1x82x15.size a ≤ S16x82x120.size a
  packedbf16_S16x82x120_S1x82x15_15_0_0 : (Rect.unit (s := S16x82x120) ![15, 0, 0] S1x82x15.size inb_S16x82x120_S1x82x15_15_0_0).PackedRows (EltTy.packing .bf16)
  inb_S128x82x82_S1x82x82_121_0_0 : ∀ a, (![121, 0, 0] : Fin 3 → Nat) a + S1x82x82.size a ≤ S128x82x82.size a
  inb_S16x82x120_S1x82x15_15_0_15 : ∀ a, (![15, 0, 15] : Fin 3 → Nat) a + S1x82x15.size a ≤ S16x82x120.size a
  packedbf16_S16x82x120_S1x82x15_15_0_15 : (Rect.unit (s := S16x82x120) ![15, 0, 15] S1x82x15.size inb_S16x82x120_S1x82x15_15_0_15).PackedRows (EltTy.packing .bf16)
  inb_S128x82x82_S1x82x82_122_0_0 : ∀ a, (![122, 0, 0] : Fin 3 → Nat) a + S1x82x82.size a ≤ S128x82x82.size a
  inb_S16x82x120_S1x82x15_15_0_30 : ∀ a, (![15, 0, 30] : Fin 3 → Nat) a + S1x82x15.size a ≤ S16x82x120.size a
  packedbf16_S16x82x120_S1x82x15_15_0_30 : (Rect.unit (s := S16x82x120) ![15, 0, 30] S1x82x15.size inb_S16x82x120_S1x82x15_15_0_30).PackedRows (EltTy.packing .bf16)
  inb_S128x82x82_S1x82x82_123_0_0 : ∀ a, (![123, 0, 0] : Fin 3 → Nat) a + S1x82x82.size a ≤ S128x82x82.size a
  inb_S16x82x120_S1x82x15_15_0_45 : ∀ a, (![15, 0, 45] : Fin 3 → Nat) a + S1x82x15.size a ≤ S16x82x120.size a
  packedbf16_S16x82x120_S1x82x15_15_0_45 : (Rect.unit (s := S16x82x120) ![15, 0, 45] S1x82x15.size inb_S16x82x120_S1x82x15_15_0_45).PackedRows (EltTy.packing .bf16)
  inb_S128x82x82_S1x82x82_124_0_0 : ∀ a, (![124, 0, 0] : Fin 3 → Nat) a + S1x82x82.size a ≤ S128x82x82.size a
  inb_S16x82x120_S1x82x15_15_0_60 : ∀ a, (![15, 0, 60] : Fin 3 → Nat) a + S1x82x15.size a ≤ S16x82x120.size a
  packedbf16_S16x82x120_S1x82x15_15_0_60 : (Rect.unit (s := S16x82x120) ![15, 0, 60] S1x82x15.size inb_S16x82x120_S1x82x15_15_0_60).PackedRows (EltTy.packing .bf16)
  inb_S128x82x82_S1x82x82_125_0_0 : ∀ a, (![125, 0, 0] : Fin 3 → Nat) a + S1x82x82.size a ≤ S128x82x82.size a
  inb_S16x82x120_S1x82x15_15_0_75 : ∀ a, (![15, 0, 75] : Fin 3 → Nat) a + S1x82x15.size a ≤ S16x82x120.size a
  packedbf16_S16x82x120_S1x82x15_15_0_75 : (Rect.unit (s := S16x82x120) ![15, 0, 75] S1x82x15.size inb_S16x82x120_S1x82x15_15_0_75).PackedRows (EltTy.packing .bf16)
  inb_S128x82x82_S1x82x82_126_0_0 : ∀ a, (![126, 0, 0] : Fin 3 → Nat) a + S1x82x82.size a ≤ S128x82x82.size a
  inb_S16x82x120_S1x82x15_15_0_90 : ∀ a, (![15, 0, 90] : Fin 3 → Nat) a + S1x82x15.size a ≤ S16x82x120.size a
  packedbf16_S16x82x120_S1x82x15_15_0_90 : (Rect.unit (s := S16x82x120) ![15, 0, 90] S1x82x15.size inb_S16x82x120_S1x82x15_15_0_90).PackedRows (EltTy.packing .bf16)
  inb_S128x82x82_S1x82x82_127_0_0 : ∀ a, (![127, 0, 0] : Fin 3 → Nat) a + S1x82x82.size a ≤ S128x82x82.size a
  inb_S16x82x120_S1x82x15_15_0_105 : ∀ a, (![15, 0, 105] : Fin 3 → Nat) a + S1x82x15.size a ≤ S16x82x120.size a
  packedbf16_S16x82x120_S1x82x15_15_0_105 : (Rect.unit (s := S16x82x120) ![15, 0, 105] S1x82x15.size inb_S16x82x120_S1x82x15_15_0_105).PackedRows (EltTy.packing .bf16)
  transposes_S82x15_p1_0_S15x82 : S82x15.Transposes [1, 0] S15x82
  inb_S128x15x82_S1x15x82_0_0_0 : ∀ a, (![0, 0, 0] : Fin 3 → Nat) a + S1x15x82.size a ≤ S128x15x82.size a
  h_S1x15x82 : 0 < S1x15x82.numel
  shapeCasts_S1x15x82_S15x82 : S1x15x82.ShapeCasts S15x82
  shapeCasts_S15x82_S1x15x82 : S15x82.ShapeCasts S1x15x82
  packedbf16_S128x15x82_S1x15x82_0_0_0 : (Rect.unit (s := S128x15x82) ![0, 0, 0] S1x15x82.size inb_S128x15x82_S1x15x82_0_0_0).PackedRows (EltTy.packing .bf16)
  inb_S128x15x82_S1x15x82_1_0_0 : ∀ a, (![1, 0, 0] : Fin 3 → Nat) a + S1x15x82.size a ≤ S128x15x82.size a
  packedbf16_S128x15x82_S1x15x82_1_0_0 : (Rect.unit (s := S128x15x82) ![1, 0, 0] S1x15x82.size inb_S128x15x82_S1x15x82_1_0_0).PackedRows (EltTy.packing .bf16)
  inb_S128x15x82_S1x15x82_2_0_0 : ∀ a, (![2, 0, 0] : Fin 3 → Nat) a + S1x15x82.size a ≤ S128x15x82.size a
  packedbf16_S128x15x82_S1x15x82_2_0_0 : (Rect.unit (s := S128x15x82) ![2, 0, 0] S1x15x82.size inb_S128x15x82_S1x15x82_2_0_0).PackedRows (EltTy.packing .bf16)
  inb_S128x15x82_S1x15x82_3_0_0 : ∀ a, (![3, 0, 0] : Fin 3 → Nat) a + S1x15x82.size a ≤ S128x15x82.size a
  packedbf16_S128x15x82_S1x15x82_3_0_0 : (Rect.unit (s := S128x15x82) ![3, 0, 0] S1x15x82.size inb_S128x15x82_S1x15x82_3_0_0).PackedRows (EltTy.packing .bf16)
  inb_S128x15x82_S1x15x82_4_0_0 : ∀ a, (![4, 0, 0] : Fin 3 → Nat) a + S1x15x82.size a ≤ S128x15x82.size a
  packedbf16_S128x15x82_S1x15x82_4_0_0 : (Rect.unit (s := S128x15x82) ![4, 0, 0] S1x15x82.size inb_S128x15x82_S1x15x82_4_0_0).PackedRows (EltTy.packing .bf16)
  inb_S128x15x82_S1x15x82_5_0_0 : ∀ a, (![5, 0, 0] : Fin 3 → Nat) a + S1x15x82.size a ≤ S128x15x82.size a
  packedbf16_S128x15x82_S1x15x82_5_0_0 : (Rect.unit (s := S128x15x82) ![5, 0, 0] S1x15x82.size inb_S128x15x82_S1x15x82_5_0_0).PackedRows (EltTy.packing .bf16)
  inb_S128x15x82_S1x15x82_6_0_0 : ∀ a, (![6, 0, 0] : Fin 3 → Nat) a + S1x15x82.size a ≤ S128x15x82.size a
  packedbf16_S128x15x82_S1x15x82_6_0_0 : (Rect.unit (s := S128x15x82) ![6, 0, 0] S1x15x82.size inb_S128x15x82_S1x15x82_6_0_0).PackedRows (EltTy.packing .bf16)
  inb_S128x15x82_S1x15x82_7_0_0 : ∀ a, (![7, 0, 0] : Fin 3 → Nat) a + S1x15x82.size a ≤ S128x15x82.size a
  packedbf16_S128x15x82_S1x15x82_7_0_0 : (Rect.unit (s := S128x15x82) ![7, 0, 0] S1x15x82.size inb_S128x15x82_S1x15x82_7_0_0).PackedRows (EltTy.packing .bf16)
  inb_S128x15x82_S1x15x82_8_0_0 : ∀ a, (![8, 0, 0] : Fin 3 → Nat) a + S1x15x82.size a ≤ S128x15x82.size a
  packedbf16_S128x15x82_S1x15x82_8_0_0 : (Rect.unit (s := S128x15x82) ![8, 0, 0] S1x15x82.size inb_S128x15x82_S1x15x82_8_0_0).PackedRows (EltTy.packing .bf16)
  inb_S128x15x82_S1x15x82_9_0_0 : ∀ a, (![9, 0, 0] : Fin 3 → Nat) a + S1x15x82.size a ≤ S128x15x82.size a
  packedbf16_S128x15x82_S1x15x82_9_0_0 : (Rect.unit (s := S128x15x82) ![9, 0, 0] S1x15x82.size inb_S128x15x82_S1x15x82_9_0_0).PackedRows (EltTy.packing .bf16)
  inb_S128x15x82_S1x15x82_10_0_0 : ∀ a, (![10, 0, 0] : Fin 3 → Nat) a + S1x15x82.size a ≤ S128x15x82.size a
  packedbf16_S128x15x82_S1x15x82_10_0_0 : (Rect.unit (s := S128x15x82) ![10, 0, 0] S1x15x82.size inb_S128x15x82_S1x15x82_10_0_0).PackedRows (EltTy.packing .bf16)
  inb_S128x15x82_S1x15x82_11_0_0 : ∀ a, (![11, 0, 0] : Fin 3 → Nat) a + S1x15x82.size a ≤ S128x15x82.size a
  packedbf16_S128x15x82_S1x15x82_11_0_0 : (Rect.unit (s := S128x15x82) ![11, 0, 0] S1x15x82.size inb_S128x15x82_S1x15x82_11_0_0).PackedRows (EltTy.packing .bf16)
  inb_S128x15x82_S1x15x82_12_0_0 : ∀ a, (![12, 0, 0] : Fin 3 → Nat) a + S1x15x82.size a ≤ S128x15x82.size a
  packedbf16_S128x15x82_S1x15x82_12_0_0 : (Rect.unit (s := S128x15x82) ![12, 0, 0] S1x15x82.size inb_S128x15x82_S1x15x82_12_0_0).PackedRows (EltTy.packing .bf16)
  inb_S128x15x82_S1x15x82_13_0_0 : ∀ a, (![13, 0, 0] : Fin 3 → Nat) a + S1x15x82.size a ≤ S128x15x82.size a
  packedbf16_S128x15x82_S1x15x82_13_0_0 : (Rect.unit (s := S128x15x82) ![13, 0, 0] S1x15x82.size inb_S128x15x82_S1x15x82_13_0_0).PackedRows (EltTy.packing .bf16)
  inb_S128x15x82_S1x15x82_14_0_0 : ∀ a, (![14, 0, 0] : Fin 3 → Nat) a + S1x15x82.size a ≤ S128x15x82.size a
  packedbf16_S128x15x82_S1x15x82_14_0_0 : (Rect.unit (s := S128x15x82) ![14, 0, 0] S1x15x82.size inb_S128x15x82_S1x15x82_14_0_0).PackedRows (EltTy.packing .bf16)
  inb_S128x15x82_S1x15x82_15_0_0 : ∀ a, (![15, 0, 0] : Fin 3 → Nat) a + S1x15x82.size a ≤ S128x15x82.size a
  packedbf16_S128x15x82_S1x15x82_15_0_0 : (Rect.unit (s := S128x15x82) ![15, 0, 0] S1x15x82.size inb_S128x15x82_S1x15x82_15_0_0).PackedRows (EltTy.packing .bf16)
  inb_S128x15x82_S1x15x82_16_0_0 : ∀ a, (![16, 0, 0] : Fin 3 → Nat) a + S1x15x82.size a ≤ S128x15x82.size a
  packedbf16_S128x15x82_S1x15x82_16_0_0 : (Rect.unit (s := S128x15x82) ![16, 0, 0] S1x15x82.size inb_S128x15x82_S1x15x82_16_0_0).PackedRows (EltTy.packing .bf16)
  inb_S128x15x82_S1x15x82_17_0_0 : ∀ a, (![17, 0, 0] : Fin 3 → Nat) a + S1x15x82.size a ≤ S128x15x82.size a
  packedbf16_S128x15x82_S1x15x82_17_0_0 : (Rect.unit (s := S128x15x82) ![17, 0, 0] S1x15x82.size inb_S128x15x82_S1x15x82_17_0_0).PackedRows (EltTy.packing .bf16)
  inb_S128x15x82_S1x15x82_18_0_0 : ∀ a, (![18, 0, 0] : Fin 3 → Nat) a + S1x15x82.size a ≤ S128x15x82.size a
  packedbf16_S128x15x82_S1x15x82_18_0_0 : (Rect.unit (s := S128x15x82) ![18, 0, 0] S1x15x82.size inb_S128x15x82_S1x15x82_18_0_0).PackedRows (EltTy.packing .bf16)
  inb_S128x15x82_S1x15x82_19_0_0 : ∀ a, (![19, 0, 0] : Fin 3 → Nat) a + S1x15x82.size a ≤ S128x15x82.size a
  packedbf16_S128x15x82_S1x15x82_19_0_0 : (Rect.unit (s := S128x15x82) ![19, 0, 0] S1x15x82.size inb_S128x15x82_S1x15x82_19_0_0).PackedRows (EltTy.packing .bf16)
  inb_S128x15x82_S1x15x82_20_0_0 : ∀ a, (![20, 0, 0] : Fin 3 → Nat) a + S1x15x82.size a ≤ S128x15x82.size a
  packedbf16_S128x15x82_S1x15x82_20_0_0 : (Rect.unit (s := S128x15x82) ![20, 0, 0] S1x15x82.size inb_S128x15x82_S1x15x82_20_0_0).PackedRows (EltTy.packing .bf16)
  inb_S128x15x82_S1x15x82_21_0_0 : ∀ a, (![21, 0, 0] : Fin 3 → Nat) a + S1x15x82.size a ≤ S128x15x82.size a
  packedbf16_S128x15x82_S1x15x82_21_0_0 : (Rect.unit (s := S128x15x82) ![21, 0, 0] S1x15x82.size inb_S128x15x82_S1x15x82_21_0_0).PackedRows (EltTy.packing .bf16)
  inb_S128x15x82_S1x15x82_22_0_0 : ∀ a, (![22, 0, 0] : Fin 3 → Nat) a + S1x15x82.size a ≤ S128x15x82.size a
  packedbf16_S128x15x82_S1x15x82_22_0_0 : (Rect.unit (s := S128x15x82) ![22, 0, 0] S1x15x82.size inb_S128x15x82_S1x15x82_22_0_0).PackedRows (EltTy.packing .bf16)
  inb_S128x15x82_S1x15x82_23_0_0 : ∀ a, (![23, 0, 0] : Fin 3 → Nat) a + S1x15x82.size a ≤ S128x15x82.size a
  packedbf16_S128x15x82_S1x15x82_23_0_0 : (Rect.unit (s := S128x15x82) ![23, 0, 0] S1x15x82.size inb_S128x15x82_S1x15x82_23_0_0).PackedRows (EltTy.packing .bf16)
  inb_S128x15x82_S1x15x82_24_0_0 : ∀ a, (![24, 0, 0] : Fin 3 → Nat) a + S1x15x82.size a ≤ S128x15x82.size a
  packedbf16_S128x15x82_S1x15x82_24_0_0 : (Rect.unit (s := S128x15x82) ![24, 0, 0] S1x15x82.size inb_S128x15x82_S1x15x82_24_0_0).PackedRows (EltTy.packing .bf16)
  inb_S128x15x82_S1x15x82_25_0_0 : ∀ a, (![25, 0, 0] : Fin 3 → Nat) a + S1x15x82.size a ≤ S128x15x82.size a
  packedbf16_S128x15x82_S1x15x82_25_0_0 : (Rect.unit (s := S128x15x82) ![25, 0, 0] S1x15x82.size inb_S128x15x82_S1x15x82_25_0_0).PackedRows (EltTy.packing .bf16)
  inb_S128x15x82_S1x15x82_26_0_0 : ∀ a, (![26, 0, 0] : Fin 3 → Nat) a + S1x15x82.size a ≤ S128x15x82.size a
  packedbf16_S128x15x82_S1x15x82_26_0_0 : (Rect.unit (s := S128x15x82) ![26, 0, 0] S1x15x82.size inb_S128x15x82_S1x15x82_26_0_0).PackedRows (EltTy.packing .bf16)
  inb_S128x15x82_S1x15x82_27_0_0 : ∀ a, (![27, 0, 0] : Fin 3 → Nat) a + S1x15x82.size a ≤ S128x15x82.size a
  packedbf16_S128x15x82_S1x15x82_27_0_0 : (Rect.unit (s := S128x15x82) ![27, 0, 0] S1x15x82.size inb_S128x15x82_S1x15x82_27_0_0).PackedRows (EltTy.packing .bf16)
  inb_S128x15x82_S1x15x82_28_0_0 : ∀ a, (![28, 0, 0] : Fin 3 → Nat) a + S1x15x82.size a ≤ S128x15x82.size a
  packedbf16_S128x15x82_S1x15x82_28_0_0 : (Rect.unit (s := S128x15x82) ![28, 0, 0] S1x15x82.size inb_S128x15x82_S1x15x82_28_0_0).PackedRows (EltTy.packing .bf16)
  inb_S128x15x82_S1x15x82_29_0_0 : ∀ a, (![29, 0, 0] : Fin 3 → Nat) a + S1x15x82.size a ≤ S128x15x82.size a
  packedbf16_S128x15x82_S1x15x82_29_0_0 : (Rect.unit (s := S128x15x82) ![29, 0, 0] S1x15x82.size inb_S128x15x82_S1x15x82_29_0_0).PackedRows (EltTy.packing .bf16)
  inb_S128x15x82_S1x15x82_30_0_0 : ∀ a, (![30, 0, 0] : Fin 3 → Nat) a + S1x15x82.size a ≤ S128x15x82.size a
  packedbf16_S128x15x82_S1x15x82_30_0_0 : (Rect.unit (s := S128x15x82) ![30, 0, 0] S1x15x82.size inb_S128x15x82_S1x15x82_30_0_0).PackedRows (EltTy.packing .bf16)
  inb_S128x15x82_S1x15x82_31_0_0 : ∀ a, (![31, 0, 0] : Fin 3 → Nat) a + S1x15x82.size a ≤ S128x15x82.size a
  packedbf16_S128x15x82_S1x15x82_31_0_0 : (Rect.unit (s := S128x15x82) ![31, 0, 0] S1x15x82.size inb_S128x15x82_S1x15x82_31_0_0).PackedRows (EltTy.packing .bf16)
  inb_S128x15x82_S1x15x82_32_0_0 : ∀ a, (![32, 0, 0] : Fin 3 → Nat) a + S1x15x82.size a ≤ S128x15x82.size a
  packedbf16_S128x15x82_S1x15x82_32_0_0 : (Rect.unit (s := S128x15x82) ![32, 0, 0] S1x15x82.size inb_S128x15x82_S1x15x82_32_0_0).PackedRows (EltTy.packing .bf16)
  inb_S128x15x82_S1x15x82_33_0_0 : ∀ a, (![33, 0, 0] : Fin 3 → Nat) a + S1x15x82.size a ≤ S128x15x82.size a
  packedbf16_S128x15x82_S1x15x82_33_0_0 : (Rect.unit (s := S128x15x82) ![33, 0, 0] S1x15x82.size inb_S128x15x82_S1x15x82_33_0_0).PackedRows (EltTy.packing .bf16)
  inb_S128x15x82_S1x15x82_34_0_0 : ∀ a, (![34, 0, 0] : Fin 3 → Nat) a + S1x15x82.size a ≤ S128x15x82.size a
  packedbf16_S128x15x82_S1x15x82_34_0_0 : (Rect.unit (s := S128x15x82) ![34, 0, 0] S1x15x82.size inb_S128x15x82_S1x15x82_34_0_0).PackedRows (EltTy.packing .bf16)
  inb_S128x15x82_S1x15x82_35_0_0 : ∀ a, (![35, 0, 0] : Fin 3 → Nat) a + S1x15x82.size a ≤ S128x15x82.size a
  packedbf16_S128x15x82_S1x15x82_35_0_0 : (Rect.unit (s := S128x15x82) ![35, 0, 0] S1x15x82.size inb_S128x15x82_S1x15x82_35_0_0).PackedRows (EltTy.packing .bf16)
  inb_S128x15x82_S1x15x82_36_0_0 : ∀ a, (![36, 0, 0] : Fin 3 → Nat) a + S1x15x82.size a ≤ S128x15x82.size a
  packedbf16_S128x15x82_S1x15x82_36_0_0 : (Rect.unit (s := S128x15x82) ![36, 0, 0] S1x15x82.size inb_S128x15x82_S1x15x82_36_0_0).PackedRows (EltTy.packing .bf16)
  inb_S128x15x82_S1x15x82_37_0_0 : ∀ a, (![37, 0, 0] : Fin 3 → Nat) a + S1x15x82.size a ≤ S128x15x82.size a
  packedbf16_S128x15x82_S1x15x82_37_0_0 : (Rect.unit (s := S128x15x82) ![37, 0, 0] S1x15x82.size inb_S128x15x82_S1x15x82_37_0_0).PackedRows (EltTy.packing .bf16)
  inb_S128x15x82_S1x15x82_38_0_0 : ∀ a, (![38, 0, 0] : Fin 3 → Nat) a + S1x15x82.size a ≤ S128x15x82.size a
  packedbf16_S128x15x82_S1x15x82_38_0_0 : (Rect.unit (s := S128x15x82) ![38, 0, 0] S1x15x82.size inb_S128x15x82_S1x15x82_38_0_0).PackedRows (EltTy.packing .bf16)
  inb_S128x15x82_S1x15x82_39_0_0 : ∀ a, (![39, 0, 0] : Fin 3 → Nat) a + S1x15x82.size a ≤ S128x15x82.size a
  packedbf16_S128x15x82_S1x15x82_39_0_0 : (Rect.unit (s := S128x15x82) ![39, 0, 0] S1x15x82.size inb_S128x15x82_S1x15x82_39_0_0).PackedRows (EltTy.packing .bf16)
  inb_S128x15x82_S1x15x82_40_0_0 : ∀ a, (![40, 0, 0] : Fin 3 → Nat) a + S1x15x82.size a ≤ S128x15x82.size a
  packedbf16_S128x15x82_S1x15x82_40_0_0 : (Rect.unit (s := S128x15x82) ![40, 0, 0] S1x15x82.size inb_S128x15x82_S1x15x82_40_0_0).PackedRows (EltTy.packing .bf16)
  inb_S128x15x82_S1x15x82_41_0_0 : ∀ a, (![41, 0, 0] : Fin 3 → Nat) a + S1x15x82.size a ≤ S128x15x82.size a
  packedbf16_S128x15x82_S1x15x82_41_0_0 : (Rect.unit (s := S128x15x82) ![41, 0, 0] S1x15x82.size inb_S128x15x82_S1x15x82_41_0_0).PackedRows (EltTy.packing .bf16)
  inb_S128x15x82_S1x15x82_42_0_0 : ∀ a, (![42, 0, 0] : Fin 3 → Nat) a + S1x15x82.size a ≤ S128x15x82.size a
  packedbf16_S128x15x82_S1x15x82_42_0_0 : (Rect.unit (s := S128x15x82) ![42, 0, 0] S1x15x82.size inb_S128x15x82_S1x15x82_42_0_0).PackedRows (EltTy.packing .bf16)
  inb_S128x15x82_S1x15x82_43_0_0 : ∀ a, (![43, 0, 0] : Fin 3 → Nat) a + S1x15x82.size a ≤ S128x15x82.size a
  packedbf16_S128x15x82_S1x15x82_43_0_0 : (Rect.unit (s := S128x15x82) ![43, 0, 0] S1x15x82.size inb_S128x15x82_S1x15x82_43_0_0).PackedRows (EltTy.packing .bf16)
  inb_S128x15x82_S1x15x82_44_0_0 : ∀ a, (![44, 0, 0] : Fin 3 → Nat) a + S1x15x82.size a ≤ S128x15x82.size a
  packedbf16_S128x15x82_S1x15x82_44_0_0 : (Rect.unit (s := S128x15x82) ![44, 0, 0] S1x15x82.size inb_S128x15x82_S1x15x82_44_0_0).PackedRows (EltTy.packing .bf16)
  inb_S128x15x82_S1x15x82_45_0_0 : ∀ a, (![45, 0, 0] : Fin 3 → Nat) a + S1x15x82.size a ≤ S128x15x82.size a
  packedbf16_S128x15x82_S1x15x82_45_0_0 : (Rect.unit (s := S128x15x82) ![45, 0, 0] S1x15x82.size inb_S128x15x82_S1x15x82_45_0_0).PackedRows (EltTy.packing .bf16)
  inb_S128x15x82_S1x15x82_46_0_0 : ∀ a, (![46, 0, 0] : Fin 3 → Nat) a + S1x15x82.size a ≤ S128x15x82.size a
  packedbf16_S128x15x82_S1x15x82_46_0_0 : (Rect.unit (s := S128x15x82) ![46, 0, 0] S1x15x82.size inb_S128x15x82_S1x15x82_46_0_0).PackedRows (EltTy.packing .bf16)
  inb_S128x15x82_S1x15x82_47_0_0 : ∀ a, (![47, 0, 0] : Fin 3 → Nat) a + S1x15x82.size a ≤ S128x15x82.size a
  packedbf16_S128x15x82_S1x15x82_47_0_0 : (Rect.unit (s := S128x15x82) ![47, 0, 0] S1x15x82.size inb_S128x15x82_S1x15x82_47_0_0).PackedRows (EltTy.packing .bf16)
  inb_S128x15x82_S1x15x82_48_0_0 : ∀ a, (![48, 0, 0] : Fin 3 → Nat) a + S1x15x82.size a ≤ S128x15x82.size a
  packedbf16_S128x15x82_S1x15x82_48_0_0 : (Rect.unit (s := S128x15x82) ![48, 0, 0] S1x15x82.size inb_S128x15x82_S1x15x82_48_0_0).PackedRows (EltTy.packing .bf16)
  inb_S128x15x82_S1x15x82_49_0_0 : ∀ a, (![49, 0, 0] : Fin 3 → Nat) a + S1x15x82.size a ≤ S128x15x82.size a
  packedbf16_S128x15x82_S1x15x82_49_0_0 : (Rect.unit (s := S128x15x82) ![49, 0, 0] S1x15x82.size inb_S128x15x82_S1x15x82_49_0_0).PackedRows (EltTy.packing .bf16)
  inb_S128x15x82_S1x15x82_50_0_0 : ∀ a, (![50, 0, 0] : Fin 3 → Nat) a + S1x15x82.size a ≤ S128x15x82.size a
  packedbf16_S128x15x82_S1x15x82_50_0_0 : (Rect.unit (s := S128x15x82) ![50, 0, 0] S1x15x82.size inb_S128x15x82_S1x15x82_50_0_0).PackedRows (EltTy.packing .bf16)
  inb_S128x15x82_S1x15x82_51_0_0 : ∀ a, (![51, 0, 0] : Fin 3 → Nat) a + S1x15x82.size a ≤ S128x15x82.size a
  packedbf16_S128x15x82_S1x15x82_51_0_0 : (Rect.unit (s := S128x15x82) ![51, 0, 0] S1x15x82.size inb_S128x15x82_S1x15x82_51_0_0).PackedRows (EltTy.packing .bf16)
  inb_S128x15x82_S1x15x82_52_0_0 : ∀ a, (![52, 0, 0] : Fin 3 → Nat) a + S1x15x82.size a ≤ S128x15x82.size a
  packedbf16_S128x15x82_S1x15x82_52_0_0 : (Rect.unit (s := S128x15x82) ![52, 0, 0] S1x15x82.size inb_S128x15x82_S1x15x82_52_0_0).PackedRows (EltTy.packing .bf16)
  inb_S128x15x82_S1x15x82_53_0_0 : ∀ a, (![53, 0, 0] : Fin 3 → Nat) a + S1x15x82.size a ≤ S128x15x82.size a
  packedbf16_S128x15x82_S1x15x82_53_0_0 : (Rect.unit (s := S128x15x82) ![53, 0, 0] S1x15x82.size inb_S128x15x82_S1x15x82_53_0_0).PackedRows (EltTy.packing .bf16)
  inb_S128x15x82_S1x15x82_54_0_0 : ∀ a, (![54, 0, 0] : Fin 3 → Nat) a + S1x15x82.size a ≤ S128x15x82.size a
  packedbf16_S128x15x82_S1x15x82_54_0_0 : (Rect.unit (s := S128x15x82) ![54, 0, 0] S1x15x82.size inb_S128x15x82_S1x15x82_54_0_0).PackedRows (EltTy.packing .bf16)
  inb_S128x15x82_S1x15x82_55_0_0 : ∀ a, (![55, 0, 0] : Fin 3 → Nat) a + S1x15x82.size a ≤ S128x15x82.size a
  packedbf16_S128x15x82_S1x15x82_55_0_0 : (Rect.unit (s := S128x15x82) ![55, 0, 0] S1x15x82.size inb_S128x15x82_S1x15x82_55_0_0).PackedRows (EltTy.packing .bf16)
  inb_S128x15x82_S1x15x82_56_0_0 : ∀ a, (![56, 0, 0] : Fin 3 → Nat) a + S1x15x82.size a ≤ S128x15x82.size a
  packedbf16_S128x15x82_S1x15x82_56_0_0 : (Rect.unit (s := S128x15x82) ![56, 0, 0] S1x15x82.size inb_S128x15x82_S1x15x82_56_0_0).PackedRows (EltTy.packing .bf16)
  inb_S128x15x82_S1x15x82_57_0_0 : ∀ a, (![57, 0, 0] : Fin 3 → Nat) a + S1x15x82.size a ≤ S128x15x82.size a
  packedbf16_S128x15x82_S1x15x82_57_0_0 : (Rect.unit (s := S128x15x82) ![57, 0, 0] S1x15x82.size inb_S128x15x82_S1x15x82_57_0_0).PackedRows (EltTy.packing .bf16)
  inb_S128x15x82_S1x15x82_58_0_0 : ∀ a, (![58, 0, 0] : Fin 3 → Nat) a + S1x15x82.size a ≤ S128x15x82.size a
  packedbf16_S128x15x82_S1x15x82_58_0_0 : (Rect.unit (s := S128x15x82) ![58, 0, 0] S1x15x82.size inb_S128x15x82_S1x15x82_58_0_0).PackedRows (EltTy.packing .bf16)
  inb_S128x15x82_S1x15x82_59_0_0 : ∀ a, (![59, 0, 0] : Fin 3 → Nat) a + S1x15x82.size a ≤ S128x15x82.size a
  packedbf16_S128x15x82_S1x15x82_59_0_0 : (Rect.unit (s := S128x15x82) ![59, 0, 0] S1x15x82.size inb_S128x15x82_S1x15x82_59_0_0).PackedRows (EltTy.packing .bf16)
  inb_S128x15x82_S1x15x82_60_0_0 : ∀ a, (![60, 0, 0] : Fin 3 → Nat) a + S1x15x82.size a ≤ S128x15x82.size a
  packedbf16_S128x15x82_S1x15x82_60_0_0 : (Rect.unit (s := S128x15x82) ![60, 0, 0] S1x15x82.size inb_S128x15x82_S1x15x82_60_0_0).PackedRows (EltTy.packing .bf16)
  inb_S128x15x82_S1x15x82_61_0_0 : ∀ a, (![61, 0, 0] : Fin 3 → Nat) a + S1x15x82.size a ≤ S128x15x82.size a
  packedbf16_S128x15x82_S1x15x82_61_0_0 : (Rect.unit (s := S128x15x82) ![61, 0, 0] S1x15x82.size inb_S128x15x82_S1x15x82_61_0_0).PackedRows (EltTy.packing .bf16)
  inb_S128x15x82_S1x15x82_62_0_0 : ∀ a, (![62, 0, 0] : Fin 3 → Nat) a + S1x15x82.size a ≤ S128x15x82.size a
  packedbf16_S128x15x82_S1x15x82_62_0_0 : (Rect.unit (s := S128x15x82) ![62, 0, 0] S1x15x82.size inb_S128x15x82_S1x15x82_62_0_0).PackedRows (EltTy.packing .bf16)
  inb_S128x15x82_S1x15x82_63_0_0 : ∀ a, (![63, 0, 0] : Fin 3 → Nat) a + S1x15x82.size a ≤ S128x15x82.size a
  packedbf16_S128x15x82_S1x15x82_63_0_0 : (Rect.unit (s := S128x15x82) ![63, 0, 0] S1x15x82.size inb_S128x15x82_S1x15x82_63_0_0).PackedRows (EltTy.packing .bf16)
  inb_S128x15x82_S1x15x82_64_0_0 : ∀ a, (![64, 0, 0] : Fin 3 → Nat) a + S1x15x82.size a ≤ S128x15x82.size a
  packedbf16_S128x15x82_S1x15x82_64_0_0 : (Rect.unit (s := S128x15x82) ![64, 0, 0] S1x15x82.size inb_S128x15x82_S1x15x82_64_0_0).PackedRows (EltTy.packing .bf16)
  inb_S128x15x82_S1x15x82_65_0_0 : ∀ a, (![65, 0, 0] : Fin 3 → Nat) a + S1x15x82.size a ≤ S128x15x82.size a
  packedbf16_S128x15x82_S1x15x82_65_0_0 : (Rect.unit (s := S128x15x82) ![65, 0, 0] S1x15x82.size inb_S128x15x82_S1x15x82_65_0_0).PackedRows (EltTy.packing .bf16)
  inb_S128x15x82_S1x15x82_66_0_0 : ∀ a, (![66, 0, 0] : Fin 3 → Nat) a + S1x15x82.size a ≤ S128x15x82.size a
  packedbf16_S128x15x82_S1x15x82_66_0_0 : (Rect.unit (s := S128x15x82) ![66, 0, 0] S1x15x82.size inb_S128x15x82_S1x15x82_66_0_0).PackedRows (EltTy.packing .bf16)
  inb_S128x15x82_S1x15x82_67_0_0 : ∀ a, (![67, 0, 0] : Fin 3 → Nat) a + S1x15x82.size a ≤ S128x15x82.size a
  packedbf16_S128x15x82_S1x15x82_67_0_0 : (Rect.unit (s := S128x15x82) ![67, 0, 0] S1x15x82.size inb_S128x15x82_S1x15x82_67_0_0).PackedRows (EltTy.packing .bf16)
  inb_S128x15x82_S1x15x82_68_0_0 : ∀ a, (![68, 0, 0] : Fin 3 → Nat) a + S1x15x82.size a ≤ S128x15x82.size a
  packedbf16_S128x15x82_S1x15x82_68_0_0 : (Rect.unit (s := S128x15x82) ![68, 0, 0] S1x15x82.size inb_S128x15x82_S1x15x82_68_0_0).PackedRows (EltTy.packing .bf16)
  inb_S128x15x82_S1x15x82_69_0_0 : ∀ a, (![69, 0, 0] : Fin 3 → Nat) a + S1x15x82.size a ≤ S128x15x82.size a
  packedbf16_S128x15x82_S1x15x82_69_0_0 : (Rect.unit (s := S128x15x82) ![69, 0, 0] S1x15x82.size inb_S128x15x82_S1x15x82_69_0_0).PackedRows (EltTy.packing .bf16)
  inb_S128x15x82_S1x15x82_70_0_0 : ∀ a, (![70, 0, 0] : Fin 3 → Nat) a + S1x15x82.size a ≤ S128x15x82.size a
  packedbf16_S128x15x82_S1x15x82_70_0_0 : (Rect.unit (s := S128x15x82) ![70, 0, 0] S1x15x82.size inb_S128x15x82_S1x15x82_70_0_0).PackedRows (EltTy.packing .bf16)
  inb_S128x15x82_S1x15x82_71_0_0 : ∀ a, (![71, 0, 0] : Fin 3 → Nat) a + S1x15x82.size a ≤ S128x15x82.size a
  packedbf16_S128x15x82_S1x15x82_71_0_0 : (Rect.unit (s := S128x15x82) ![71, 0, 0] S1x15x82.size inb_S128x15x82_S1x15x82_71_0_0).PackedRows (EltTy.packing .bf16)
  inb_S128x15x82_S1x15x82_72_0_0 : ∀ a, (![72, 0, 0] : Fin 3 → Nat) a + S1x15x82.size a ≤ S128x15x82.size a
  packedbf16_S128x15x82_S1x15x82_72_0_0 : (Rect.unit (s := S128x15x82) ![72, 0, 0] S1x15x82.size inb_S128x15x82_S1x15x82_72_0_0).PackedRows (EltTy.packing .bf16)
  inb_S128x15x82_S1x15x82_73_0_0 : ∀ a, (![73, 0, 0] : Fin 3 → Nat) a + S1x15x82.size a ≤ S128x15x82.size a
  packedbf16_S128x15x82_S1x15x82_73_0_0 : (Rect.unit (s := S128x15x82) ![73, 0, 0] S1x15x82.size inb_S128x15x82_S1x15x82_73_0_0).PackedRows (EltTy.packing .bf16)
  inb_S128x15x82_S1x15x82_74_0_0 : ∀ a, (![74, 0, 0] : Fin 3 → Nat) a + S1x15x82.size a ≤ S128x15x82.size a
  packedbf16_S128x15x82_S1x15x82_74_0_0 : (Rect.unit (s := S128x15x82) ![74, 0, 0] S1x15x82.size inb_S128x15x82_S1x15x82_74_0_0).PackedRows (EltTy.packing .bf16)
  inb_S128x15x82_S1x15x82_75_0_0 : ∀ a, (![75, 0, 0] : Fin 3 → Nat) a + S1x15x82.size a ≤ S128x15x82.size a
  packedbf16_S128x15x82_S1x15x82_75_0_0 : (Rect.unit (s := S128x15x82) ![75, 0, 0] S1x15x82.size inb_S128x15x82_S1x15x82_75_0_0).PackedRows (EltTy.packing .bf16)
  inb_S128x15x82_S1x15x82_76_0_0 : ∀ a, (![76, 0, 0] : Fin 3 → Nat) a + S1x15x82.size a ≤ S128x15x82.size a
  packedbf16_S128x15x82_S1x15x82_76_0_0 : (Rect.unit (s := S128x15x82) ![76, 0, 0] S1x15x82.size inb_S128x15x82_S1x15x82_76_0_0).PackedRows (EltTy.packing .bf16)
  inb_S128x15x82_S1x15x82_77_0_0 : ∀ a, (![77, 0, 0] : Fin 3 → Nat) a + S1x15x82.size a ≤ S128x15x82.size a
  packedbf16_S128x15x82_S1x15x82_77_0_0 : (Rect.unit (s := S128x15x82) ![77, 0, 0] S1x15x82.size inb_S128x15x82_S1x15x82_77_0_0).PackedRows (EltTy.packing .bf16)
  inb_S128x15x82_S1x15x82_78_0_0 : ∀ a, (![78, 0, 0] : Fin 3 → Nat) a + S1x15x82.size a ≤ S128x15x82.size a
  packedbf16_S128x15x82_S1x15x82_78_0_0 : (Rect.unit (s := S128x15x82) ![78, 0, 0] S1x15x82.size inb_S128x15x82_S1x15x82_78_0_0).PackedRows (EltTy.packing .bf16)
  inb_S128x15x82_S1x15x82_79_0_0 : ∀ a, (![79, 0, 0] : Fin 3 → Nat) a + S1x15x82.size a ≤ S128x15x82.size a
  packedbf16_S128x15x82_S1x15x82_79_0_0 : (Rect.unit (s := S128x15x82) ![79, 0, 0] S1x15x82.size inb_S128x15x82_S1x15x82_79_0_0).PackedRows (EltTy.packing .bf16)
  inb_S128x15x82_S1x15x82_80_0_0 : ∀ a, (![80, 0, 0] : Fin 3 → Nat) a + S1x15x82.size a ≤ S128x15x82.size a
  packedbf16_S128x15x82_S1x15x82_80_0_0 : (Rect.unit (s := S128x15x82) ![80, 0, 0] S1x15x82.size inb_S128x15x82_S1x15x82_80_0_0).PackedRows (EltTy.packing .bf16)
  inb_S128x15x82_S1x15x82_81_0_0 : ∀ a, (![81, 0, 0] : Fin 3 → Nat) a + S1x15x82.size a ≤ S128x15x82.size a
  packedbf16_S128x15x82_S1x15x82_81_0_0 : (Rect.unit (s := S128x15x82) ![81, 0, 0] S1x15x82.size inb_S128x15x82_S1x15x82_81_0_0).PackedRows (EltTy.packing .bf16)
  inb_S128x15x82_S1x15x82_82_0_0 : ∀ a, (![82, 0, 0] : Fin 3 → Nat) a + S1x15x82.size a ≤ S128x15x82.size a
  packedbf16_S128x15x82_S1x15x82_82_0_0 : (Rect.unit (s := S128x15x82) ![82, 0, 0] S1x15x82.size inb_S128x15x82_S1x15x82_82_0_0).PackedRows (EltTy.packing .bf16)
  inb_S128x15x82_S1x15x82_83_0_0 : ∀ a, (![83, 0, 0] : Fin 3 → Nat) a + S1x15x82.size a ≤ S128x15x82.size a
  packedbf16_S128x15x82_S1x15x82_83_0_0 : (Rect.unit (s := S128x15x82) ![83, 0, 0] S1x15x82.size inb_S128x15x82_S1x15x82_83_0_0).PackedRows (EltTy.packing .bf16)
  inb_S128x15x82_S1x15x82_84_0_0 : ∀ a, (![84, 0, 0] : Fin 3 → Nat) a + S1x15x82.size a ≤ S128x15x82.size a
  packedbf16_S128x15x82_S1x15x82_84_0_0 : (Rect.unit (s := S128x15x82) ![84, 0, 0] S1x15x82.size inb_S128x15x82_S1x15x82_84_0_0).PackedRows (EltTy.packing .bf16)
  inb_S128x15x82_S1x15x82_85_0_0 : ∀ a, (![85, 0, 0] : Fin 3 → Nat) a + S1x15x82.size a ≤ S128x15x82.size a
  packedbf16_S128x15x82_S1x15x82_85_0_0 : (Rect.unit (s := S128x15x82) ![85, 0, 0] S1x15x82.size inb_S128x15x82_S1x15x82_85_0_0).PackedRows (EltTy.packing .bf16)
  inb_S128x15x82_S1x15x82_86_0_0 : ∀ a, (![86, 0, 0] : Fin 3 → Nat) a + S1x15x82.size a ≤ S128x15x82.size a
  packedbf16_S128x15x82_S1x15x82_86_0_0 : (Rect.unit (s := S128x15x82) ![86, 0, 0] S1x15x82.size inb_S128x15x82_S1x15x82_86_0_0).PackedRows (EltTy.packing .bf16)
  inb_S128x15x82_S1x15x82_87_0_0 : ∀ a, (![87, 0, 0] : Fin 3 → Nat) a + S1x15x82.size a ≤ S128x15x82.size a
  packedbf16_S128x15x82_S1x15x82_87_0_0 : (Rect.unit (s := S128x15x82) ![87, 0, 0] S1x15x82.size inb_S128x15x82_S1x15x82_87_0_0).PackedRows (EltTy.packing .bf16)
  inb_S128x15x82_S1x15x82_88_0_0 : ∀ a, (![88, 0, 0] : Fin 3 → Nat) a + S1x15x82.size a ≤ S128x15x82.size a
  packedbf16_S128x15x82_S1x15x82_88_0_0 : (Rect.unit (s := S128x15x82) ![88, 0, 0] S1x15x82.size inb_S128x15x82_S1x15x82_88_0_0).PackedRows (EltTy.packing .bf16)
  inb_S128x15x82_S1x15x82_89_0_0 : ∀ a, (![89, 0, 0] : Fin 3 → Nat) a + S1x15x82.size a ≤ S128x15x82.size a
  packedbf16_S128x15x82_S1x15x82_89_0_0 : (Rect.unit (s := S128x15x82) ![89, 0, 0] S1x15x82.size inb_S128x15x82_S1x15x82_89_0_0).PackedRows (EltTy.packing .bf16)
  inb_S128x15x82_S1x15x82_90_0_0 : ∀ a, (![90, 0, 0] : Fin 3 → Nat) a + S1x15x82.size a ≤ S128x15x82.size a
  packedbf16_S128x15x82_S1x15x82_90_0_0 : (Rect.unit (s := S128x15x82) ![90, 0, 0] S1x15x82.size inb_S128x15x82_S1x15x82_90_0_0).PackedRows (EltTy.packing .bf16)
  inb_S128x15x82_S1x15x82_91_0_0 : ∀ a, (![91, 0, 0] : Fin 3 → Nat) a + S1x15x82.size a ≤ S128x15x82.size a
  packedbf16_S128x15x82_S1x15x82_91_0_0 : (Rect.unit (s := S128x15x82) ![91, 0, 0] S1x15x82.size inb_S128x15x82_S1x15x82_91_0_0).PackedRows (EltTy.packing .bf16)
  inb_S128x15x82_S1x15x82_92_0_0 : ∀ a, (![92, 0, 0] : Fin 3 → Nat) a + S1x15x82.size a ≤ S128x15x82.size a
  packedbf16_S128x15x82_S1x15x82_92_0_0 : (Rect.unit (s := S128x15x82) ![92, 0, 0] S1x15x82.size inb_S128x15x82_S1x15x82_92_0_0).PackedRows (EltTy.packing .bf16)
  inb_S128x15x82_S1x15x82_93_0_0 : ∀ a, (![93, 0, 0] : Fin 3 → Nat) a + S1x15x82.size a ≤ S128x15x82.size a
  packedbf16_S128x15x82_S1x15x82_93_0_0 : (Rect.unit (s := S128x15x82) ![93, 0, 0] S1x15x82.size inb_S128x15x82_S1x15x82_93_0_0).PackedRows (EltTy.packing .bf16)
  inb_S128x15x82_S1x15x82_94_0_0 : ∀ a, (![94, 0, 0] : Fin 3 → Nat) a + S1x15x82.size a ≤ S128x15x82.size a
  packedbf16_S128x15x82_S1x15x82_94_0_0 : (Rect.unit (s := S128x15x82) ![94, 0, 0] S1x15x82.size inb_S128x15x82_S1x15x82_94_0_0).PackedRows (EltTy.packing .bf16)
  inb_S128x15x82_S1x15x82_95_0_0 : ∀ a, (![95, 0, 0] : Fin 3 → Nat) a + S1x15x82.size a ≤ S128x15x82.size a
  packedbf16_S128x15x82_S1x15x82_95_0_0 : (Rect.unit (s := S128x15x82) ![95, 0, 0] S1x15x82.size inb_S128x15x82_S1x15x82_95_0_0).PackedRows (EltTy.packing .bf16)
  inb_S128x15x82_S1x15x82_96_0_0 : ∀ a, (![96, 0, 0] : Fin 3 → Nat) a + S1x15x82.size a ≤ S128x15x82.size a
  packedbf16_S128x15x82_S1x15x82_96_0_0 : (Rect.unit (s := S128x15x82) ![96, 0, 0] S1x15x82.size inb_S128x15x82_S1x15x82_96_0_0).PackedRows (EltTy.packing .bf16)
  inb_S128x15x82_S1x15x82_97_0_0 : ∀ a, (![97, 0, 0] : Fin 3 → Nat) a + S1x15x82.size a ≤ S128x15x82.size a
  packedbf16_S128x15x82_S1x15x82_97_0_0 : (Rect.unit (s := S128x15x82) ![97, 0, 0] S1x15x82.size inb_S128x15x82_S1x15x82_97_0_0).PackedRows (EltTy.packing .bf16)
  inb_S128x15x82_S1x15x82_98_0_0 : ∀ a, (![98, 0, 0] : Fin 3 → Nat) a + S1x15x82.size a ≤ S128x15x82.size a
  packedbf16_S128x15x82_S1x15x82_98_0_0 : (Rect.unit (s := S128x15x82) ![98, 0, 0] S1x15x82.size inb_S128x15x82_S1x15x82_98_0_0).PackedRows (EltTy.packing .bf16)
  inb_S128x15x82_S1x15x82_99_0_0 : ∀ a, (![99, 0, 0] : Fin 3 → Nat) a + S1x15x82.size a ≤ S128x15x82.size a
  packedbf16_S128x15x82_S1x15x82_99_0_0 : (Rect.unit (s := S128x15x82) ![99, 0, 0] S1x15x82.size inb_S128x15x82_S1x15x82_99_0_0).PackedRows (EltTy.packing .bf16)
  inb_S128x15x82_S1x15x82_100_0_0 : ∀ a, (![100, 0, 0] : Fin 3 → Nat) a + S1x15x82.size a ≤ S128x15x82.size a
  packedbf16_S128x15x82_S1x15x82_100_0_0 : (Rect.unit (s := S128x15x82) ![100, 0, 0] S1x15x82.size inb_S128x15x82_S1x15x82_100_0_0).PackedRows (EltTy.packing .bf16)
  inb_S128x15x82_S1x15x82_101_0_0 : ∀ a, (![101, 0, 0] : Fin 3 → Nat) a + S1x15x82.size a ≤ S128x15x82.size a
  packedbf16_S128x15x82_S1x15x82_101_0_0 : (Rect.unit (s := S128x15x82) ![101, 0, 0] S1x15x82.size inb_S128x15x82_S1x15x82_101_0_0).PackedRows (EltTy.packing .bf16)
  inb_S128x15x82_S1x15x82_102_0_0 : ∀ a, (![102, 0, 0] : Fin 3 → Nat) a + S1x15x82.size a ≤ S128x15x82.size a
  packedbf16_S128x15x82_S1x15x82_102_0_0 : (Rect.unit (s := S128x15x82) ![102, 0, 0] S1x15x82.size inb_S128x15x82_S1x15x82_102_0_0).PackedRows (EltTy.packing .bf16)
  inb_S128x15x82_S1x15x82_103_0_0 : ∀ a, (![103, 0, 0] : Fin 3 → Nat) a + S1x15x82.size a ≤ S128x15x82.size a
  packedbf16_S128x15x82_S1x15x82_103_0_0 : (Rect.unit (s := S128x15x82) ![103, 0, 0] S1x15x82.size inb_S128x15x82_S1x15x82_103_0_0).PackedRows (EltTy.packing .bf16)
  inb_S128x15x82_S1x15x82_104_0_0 : ∀ a, (![104, 0, 0] : Fin 3 → Nat) a + S1x15x82.size a ≤ S128x15x82.size a
  packedbf16_S128x15x82_S1x15x82_104_0_0 : (Rect.unit (s := S128x15x82) ![104, 0, 0] S1x15x82.size inb_S128x15x82_S1x15x82_104_0_0).PackedRows (EltTy.packing .bf16)
  inb_S128x15x82_S1x15x82_105_0_0 : ∀ a, (![105, 0, 0] : Fin 3 → Nat) a + S1x15x82.size a ≤ S128x15x82.size a
  packedbf16_S128x15x82_S1x15x82_105_0_0 : (Rect.unit (s := S128x15x82) ![105, 0, 0] S1x15x82.size inb_S128x15x82_S1x15x82_105_0_0).PackedRows (EltTy.packing .bf16)
  inb_S128x15x82_S1x15x82_106_0_0 : ∀ a, (![106, 0, 0] : Fin 3 → Nat) a + S1x15x82.size a ≤ S128x15x82.size a
  packedbf16_S128x15x82_S1x15x82_106_0_0 : (Rect.unit (s := S128x15x82) ![106, 0, 0] S1x15x82.size inb_S128x15x82_S1x15x82_106_0_0).PackedRows (EltTy.packing .bf16)
  inb_S128x15x82_S1x15x82_107_0_0 : ∀ a, (![107, 0, 0] : Fin 3 → Nat) a + S1x15x82.size a ≤ S128x15x82.size a
  packedbf16_S128x15x82_S1x15x82_107_0_0 : (Rect.unit (s := S128x15x82) ![107, 0, 0] S1x15x82.size inb_S128x15x82_S1x15x82_107_0_0).PackedRows (EltTy.packing .bf16)
  inb_S128x15x82_S1x15x82_108_0_0 : ∀ a, (![108, 0, 0] : Fin 3 → Nat) a + S1x15x82.size a ≤ S128x15x82.size a
  packedbf16_S128x15x82_S1x15x82_108_0_0 : (Rect.unit (s := S128x15x82) ![108, 0, 0] S1x15x82.size inb_S128x15x82_S1x15x82_108_0_0).PackedRows (EltTy.packing .bf16)
  inb_S128x15x82_S1x15x82_109_0_0 : ∀ a, (![109, 0, 0] : Fin 3 → Nat) a + S1x15x82.size a ≤ S128x15x82.size a
  packedbf16_S128x15x82_S1x15x82_109_0_0 : (Rect.unit (s := S128x15x82) ![109, 0, 0] S1x15x82.size inb_S128x15x82_S1x15x82_109_0_0).PackedRows (EltTy.packing .bf16)
  inb_S128x15x82_S1x15x82_110_0_0 : ∀ a, (![110, 0, 0] : Fin 3 → Nat) a + S1x15x82.size a ≤ S128x15x82.size a
  packedbf16_S128x15x82_S1x15x82_110_0_0 : (Rect.unit (s := S128x15x82) ![110, 0, 0] S1x15x82.size inb_S128x15x82_S1x15x82_110_0_0).PackedRows (EltTy.packing .bf16)
  inb_S128x15x82_S1x15x82_111_0_0 : ∀ a, (![111, 0, 0] : Fin 3 → Nat) a + S1x15x82.size a ≤ S128x15x82.size a
  packedbf16_S128x15x82_S1x15x82_111_0_0 : (Rect.unit (s := S128x15x82) ![111, 0, 0] S1x15x82.size inb_S128x15x82_S1x15x82_111_0_0).PackedRows (EltTy.packing .bf16)
  inb_S128x15x82_S1x15x82_112_0_0 : ∀ a, (![112, 0, 0] : Fin 3 → Nat) a + S1x15x82.size a ≤ S128x15x82.size a
  packedbf16_S128x15x82_S1x15x82_112_0_0 : (Rect.unit (s := S128x15x82) ![112, 0, 0] S1x15x82.size inb_S128x15x82_S1x15x82_112_0_0).PackedRows (EltTy.packing .bf16)
  inb_S128x15x82_S1x15x82_113_0_0 : ∀ a, (![113, 0, 0] : Fin 3 → Nat) a + S1x15x82.size a ≤ S128x15x82.size a
  packedbf16_S128x15x82_S1x15x82_113_0_0 : (Rect.unit (s := S128x15x82) ![113, 0, 0] S1x15x82.size inb_S128x15x82_S1x15x82_113_0_0).PackedRows (EltTy.packing .bf16)
  inb_S128x15x82_S1x15x82_114_0_0 : ∀ a, (![114, 0, 0] : Fin 3 → Nat) a + S1x15x82.size a ≤ S128x15x82.size a
  packedbf16_S128x15x82_S1x15x82_114_0_0 : (Rect.unit (s := S128x15x82) ![114, 0, 0] S1x15x82.size inb_S128x15x82_S1x15x82_114_0_0).PackedRows (EltTy.packing .bf16)
  inb_S128x15x82_S1x15x82_115_0_0 : ∀ a, (![115, 0, 0] : Fin 3 → Nat) a + S1x15x82.size a ≤ S128x15x82.size a
  packedbf16_S128x15x82_S1x15x82_115_0_0 : (Rect.unit (s := S128x15x82) ![115, 0, 0] S1x15x82.size inb_S128x15x82_S1x15x82_115_0_0).PackedRows (EltTy.packing .bf16)
  inb_S128x15x82_S1x15x82_116_0_0 : ∀ a, (![116, 0, 0] : Fin 3 → Nat) a + S1x15x82.size a ≤ S128x15x82.size a
  packedbf16_S128x15x82_S1x15x82_116_0_0 : (Rect.unit (s := S128x15x82) ![116, 0, 0] S1x15x82.size inb_S128x15x82_S1x15x82_116_0_0).PackedRows (EltTy.packing .bf16)
  inb_S128x15x82_S1x15x82_117_0_0 : ∀ a, (![117, 0, 0] : Fin 3 → Nat) a + S1x15x82.size a ≤ S128x15x82.size a
  packedbf16_S128x15x82_S1x15x82_117_0_0 : (Rect.unit (s := S128x15x82) ![117, 0, 0] S1x15x82.size inb_S128x15x82_S1x15x82_117_0_0).PackedRows (EltTy.packing .bf16)
  inb_S128x15x82_S1x15x82_118_0_0 : ∀ a, (![118, 0, 0] : Fin 3 → Nat) a + S1x15x82.size a ≤ S128x15x82.size a
  packedbf16_S128x15x82_S1x15x82_118_0_0 : (Rect.unit (s := S128x15x82) ![118, 0, 0] S1x15x82.size inb_S128x15x82_S1x15x82_118_0_0).PackedRows (EltTy.packing .bf16)
  inb_S128x15x82_S1x15x82_119_0_0 : ∀ a, (![119, 0, 0] : Fin 3 → Nat) a + S1x15x82.size a ≤ S128x15x82.size a
  packedbf16_S128x15x82_S1x15x82_119_0_0 : (Rect.unit (s := S128x15x82) ![119, 0, 0] S1x15x82.size inb_S128x15x82_S1x15x82_119_0_0).PackedRows (EltTy.packing .bf16)
  inb_S128x15x82_S1x15x82_120_0_0 : ∀ a, (![120, 0, 0] : Fin 3 → Nat) a + S1x15x82.size a ≤ S128x15x82.size a
  packedbf16_S128x15x82_S1x15x82_120_0_0 : (Rect.unit (s := S128x15x82) ![120, 0, 0] S1x15x82.size inb_S128x15x82_S1x15x82_120_0_0).PackedRows (EltTy.packing .bf16)
  inb_S128x15x82_S1x15x82_121_0_0 : ∀ a, (![121, 0, 0] : Fin 3 → Nat) a + S1x15x82.size a ≤ S128x15x82.size a
  packedbf16_S128x15x82_S1x15x82_121_0_0 : (Rect.unit (s := S128x15x82) ![121, 0, 0] S1x15x82.size inb_S128x15x82_S1x15x82_121_0_0).PackedRows (EltTy.packing .bf16)
  inb_S128x15x82_S1x15x82_122_0_0 : ∀ a, (![122, 0, 0] : Fin 3 → Nat) a + S1x15x82.size a ≤ S128x15x82.size a
  packedbf16_S128x15x82_S1x15x82_122_0_0 : (Rect.unit (s := S128x15x82) ![122, 0, 0] S1x15x82.size inb_S128x15x82_S1x15x82_122_0_0).PackedRows (EltTy.packing .bf16)
  inb_S128x15x82_S1x15x82_123_0_0 : ∀ a, (![123, 0, 0] : Fin 3 → Nat) a + S1x15x82.size a ≤ S128x15x82.size a
  packedbf16_S128x15x82_S1x15x82_123_0_0 : (Rect.unit (s := S128x15x82) ![123, 0, 0] S1x15x82.size inb_S128x15x82_S1x15x82_123_0_0).PackedRows (EltTy.packing .bf16)
  inb_S128x15x82_S1x15x82_124_0_0 : ∀ a, (![124, 0, 0] : Fin 3 → Nat) a + S1x15x82.size a ≤ S128x15x82.size a
  packedbf16_S128x15x82_S1x15x82_124_0_0 : (Rect.unit (s := S128x15x82) ![124, 0, 0] S1x15x82.size inb_S128x15x82_S1x15x82_124_0_0).PackedRows (EltTy.packing .bf16)
  inb_S128x15x82_S1x15x82_125_0_0 : ∀ a, (![125, 0, 0] : Fin 3 → Nat) a + S1x15x82.size a ≤ S128x15x82.size a
  packedbf16_S128x15x82_S1x15x82_125_0_0 : (Rect.unit (s := S128x15x82) ![125, 0, 0] S1x15x82.size inb_S128x15x82_S1x15x82_125_0_0).PackedRows (EltTy.packing .bf16)
  inb_S128x15x82_S1x15x82_126_0_0 : ∀ a, (![126, 0, 0] : Fin 3 → Nat) a + S1x15x82.size a ≤ S128x15x82.size a
  packedbf16_S128x15x82_S1x15x82_126_0_0 : (Rect.unit (s := S128x15x82) ![126, 0, 0] S1x15x82.size inb_S128x15x82_S1x15x82_126_0_0).PackedRows (EltTy.packing .bf16)
  inb_S128x15x82_S1x15x82_127_0_0 : ∀ a, (![127, 0, 0] : Fin 3 → Nat) a + S1x15x82.size a ≤ S128x15x82.size a
  packedbf16_S128x15x82_S1x15x82_127_0_0 : (Rect.unit (s := S128x15x82) ![127, 0, 0] S1x15x82.size inb_S128x15x82_S1x15x82_127_0_0).PackedRows (EltTy.packing .bf16)
  shapeCasts_S4096x15x82_S4096x1230 : S4096x15x82.ShapeCasts S4096x1230
  inb_S512x1230_S512x1230_0_0 : ∀ a, (![0, 0] : Fin 2 → Nat) a + S512x1230.size a ≤ S512x1230.size a
  h_S512x1230 : 0 < S512x1230.numel
  shapeCasts_S512x1230_S512x1230 : S512x1230.ShapeCasts S512x1230
  inb_S1230x300_S1230x300_0_0 : ∀ a, (![0, 0] : Fin 2 → Nat) a + S1230x300.size a ≤ S1230x300.size a
  h_S1230x300 : 0 < S1230x300.numel
  shapeCasts_S1230x300_S1230x300 : S1230x300.ShapeCasts S1230x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S512x300 : S1x300.Broadcasts S512x300
  inb_S300x29_S300x29_0_0 : ∀ a, (![0, 0] : Fin 2 → Nat) a + S300x29.size a ≤ S300x29.size a
  h_S300x29 : 0 < S300x29.numel
  shapeCasts_S300x29_S300x29 : S300x29.ShapeCasts S300x29
  inb_S1x29_S1x29_0_0 : ∀ a, (![0, 0] : Fin 2 → Nat) a + S1x29.size a ≤ S1x29.size a
  h_S1x29 : 0 < S1x29.numel
  shapeCasts_S1x29_S1x29 : S1x29.ShapeCasts S1x29
  broadcasts_S1x29_S512x29 : S1x29.Broadcasts S512x29
  inb_S512x29_S512x29_0_0 : ∀ a, (![0, 0] : Fin 2 → Nat) a + S512x29.size a ≤ S512x29.size a
  h_S512x29 : 0 < S512x29.numel
  dot_S82x80_S80x120_S82x120_1_0_0_1_n_n_wf : DotDims.WF S82x80 S80x120 S82x120 [1] [0] [0] [1] [] []
  dot_S82x82_S82x120_S82x120_1_0_0_1_n_n_wf : DotDims.WF S82x82 S82x120 S82x120 [1] [0] [0] [1] [] []
  dot_S82x120_S120x120_S82x120_1_0_0_1_n_n_wf : DotDims.WF S82x120 S120x120 S82x120 [1] [0] [0] [1] [] []
  dot_S512x1230_S1230x300_S512x300_1_0_0_1_n_n_wf : DotDims.WF S512x1230 S1230x300 S512x300 [1] [0] [0] [1] [] []
  dot_S512x300_S300x29_S512x29_1_0_0_1_n_n_wf : DotDims.WF S512x300 S300x29 S512x29 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x82x80.size a ≤ S512x82x80.size a
  hwx0_0 : ∀ i : grid0.Coords, EltTy.bits .f32 = 32 ∨ (Rect.block (s := S512x82x80) S16x82x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x82x82.size a ≤ S4096x82x82.size a
  hwx0_1 : ∀ i : grid0.Coords, EltTy.bits .f32 = 32 ∨ (Rect.block (s := S4096x82x82) S128x82x82.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80x120.size a ≤ S80x120.size a
  hwx0_2 : ∀ i : grid0.Coords, EltTy.bits .bf16 = 32 ∨ (Rect.block (s := S80x120) S80x120.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x120.size a ≤ S1x120.size a
  hwx0_3 : ∀ i : grid0.Coords, EltTy.bits .f32 = 32 ∨ (Rect.block (s := S1x120) S1x120.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S120x120.size a ≤ S120x120.size a
  hwx0_4 : ∀ i : grid0.Coords, EltTy.bits .bf16 = 32 ∨ (Rect.block (s := S120x120) S120x120.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x120.size a ≤ S1x120.size a
  hwx0_5 : ∀ i : grid0.Coords, EltTy.bits .f32 = 32 ∨ (Rect.block (s := S1x120) S1x120.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x15x82.size a ≤ S4096x15x82.size a
  hwx0_6 : ∀ i : grid0.Coords, EltTy.bits .bf16 = 32 ∨ (Rect.block (s := S4096x15x82) S128x15x82.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1230.size a ≤ S4096x1230.size a
  hwx1_0 : ∀ i : grid1.Coords, EltTy.bits .bf16 = 32 ∨ (Rect.block (s := S4096x1230) S512x1230.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1230x300.size a ≤ S1230x300.size a
  hwx1_1 : ∀ i : grid1.Coords, EltTy.bits .bf16 = 32 ∨ (Rect.block (s := S1230x300) S1230x300.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x29.size a ≤ S300x29.size a
  hwx1_3 : ∀ i : grid1.Coords, EltTy.bits .bf16 = 32 ∨ (Rect.block (s := S300x29) S300x29.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x29.size a ≤ S1x29.size a
  hwx1_4 : ∀ i : grid1.Coords, EltTy.bits .f32 = 32 ∨ (Rect.block (s := S1x29) S1x29.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x29.size a ≤ S4096x29.size a
  hwx1_5 : ∀ i : grid1.Coords, EltTy.bits .f32 = 32 ∨ (Rect.block (s := S4096x29) S512x29.size (cc1_transform_5 i) (hinb1_5 i)).WholeWords (EltTy.packing .f32)

variable [Facts₀]

def dot_S82x80_S80x120_S82x120_1_0_0_1_n_n : DotDims S82x80 S80x120 S82x120 where
  lhsContracting := [1]
  rhsContracting := [0]
  lhsNonContracting := [0]
  rhsNonContracting := [1]
  lhsBatch := []
  rhsBatch := []
  wf := dot_S82x80_S80x120_S82x120_1_0_0_1_n_n_wf
def dot_S82x82_S82x120_S82x120_1_0_0_1_n_n : DotDims S82x82 S82x120 S82x120 where
  lhsContracting := [1]
  rhsContracting := [0]
  lhsNonContracting := [0]
  rhsNonContracting := [1]
  lhsBatch := []
  rhsBatch := []
  wf := dot_S82x82_S82x120_S82x120_1_0_0_1_n_n_wf
def dot_S82x120_S120x120_S82x120_1_0_0_1_n_n : DotDims S82x120 S120x120 S82x120 where
  lhsContracting := [1]
  rhsContracting := [0]
  lhsNonContracting := [0]
  rhsNonContracting := [1]
  lhsBatch := []
  rhsBatch := []
  wf := dot_S82x120_S120x120_S82x120_1_0_0_1_n_n_wf
def dot_S512x1230_S1230x300_S512x300_1_0_0_1_n_n : DotDims S512x1230 S1230x300 S512x300 where
  lhsContracting := [1]
  rhsContracting := [0]
  lhsNonContracting := [0]
  rhsNonContracting := [1]
  lhsBatch := []
  rhsBatch := []
  wf := dot_S512x1230_S1230x300_S512x300_1_0_0_1_n_n_wf
def dot_S512x300_S300x29_S512x29_1_0_0_1_n_n : DotDims S512x300 S300x29 S512x29 where
  lhsContracting := [1]
  rhsContracting := [0]
  lhsNonContracting := [0]
  rhsNonContracting := [1]
  lhsBatch := []
  rhsBatch := []
  wf := dot_S512x300_S300x29_S512x29_1_0_0_1_n_n_wf

abbrev win0_0 : Pipeline.Window sig grid0 :=
  Pipeline.Window.ofSpec (Memref.whole main_v22) S16x82x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x82x82.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S80x120.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S120x120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S128x15x82.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S512x1230.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1230x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S300x29.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x29.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S512x29.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x82x10 : Shape := ⟨3, ![4096, 82, 10]⟩
abbrev S4096x82x82 : Shape := ⟨3, ![4096, 82, 82]⟩
abbrev S10x15 : Shape := ⟨2, ![10, 15]⟩
abbrev S15 : Shape := ⟨1, ![15]⟩
abbrev S15x15 : Shape := ⟨2, ![15, 15]⟩
abbrev S1230x300 : Shape := ⟨2, ![1230, 300]⟩
abbrev S300 : Shape := ⟨1, ![300]⟩
abbrev S300x29 : Shape := ⟨2, ![300, 29]⟩
abbrev S29 : Shape := ⟨1, ![29]⟩
abbrev S4096x82x15 : Shape := ⟨3, ![4096, 82, 15]⟩
abbrev S1x1x15 : Shape := ⟨3, ![1, 1, 15]⟩
abbrev S_ : Shape := ⟨0, ![]⟩
abbrev S4096x1230 : Shape := ⟨2, ![4096, 1230]⟩
abbrev S4096x300 : Shape := ⟨2, ![4096, 300]⟩
abbrev S1x300 : Shape := ⟨2, ![1, 300]⟩
abbrev S4096x29 : Shape := ⟨2, ![4096, 29]⟩
abbrev S1x29 : Shape := ⟨2, ![1, 29]⟩

abbrev nBuf : Space → Nat
  | .hbm => 38
  | .vmem => 0
  | .smem => 0
  | _ => 0

abbrev bufTy : (tb : Table) → Fin (tcTables nBuf tb) → BufTy
  | .hbm, ⟨0, _⟩ => ⟨S4096x82x10, .f32⟩
  | .hbm, ⟨1, _⟩ => ⟨S4096x82x82, .f32⟩
  | .hbm, ⟨2, _⟩ => ⟨S10x15, .f32⟩
  | .hbm, ⟨3, _⟩ => ⟨S15, .f32⟩
  | .hbm, ⟨4, _⟩ => ⟨S15x15, .f32⟩
  | .hbm, ⟨5, _⟩ => ⟨S15, .f32⟩
  | .hbm, ⟨6, _⟩ => ⟨S1230x300, .f32⟩
  | .hbm, ⟨7, _⟩ => ⟨S300, .f32⟩
  | .hbm, ⟨8, _⟩ => ⟨S300x29, .f32⟩
  | .hbm, ⟨9, _⟩ => ⟨S29, .f32⟩
  | .hbm, ⟨10, _⟩ => ⟨S4096x82x15, .f32⟩
  | .hbm, ⟨11, _⟩ => ⟨S4096x82x15, .f32⟩
  | .hbm, ⟨12, _⟩ => ⟨S1x1x15, .f32⟩
  | .hbm, ⟨13, _⟩ => ⟨S4096x82x15, .f32⟩
  | .hbm, ⟨14, _⟩ => ⟨S4096x82x15, .f32⟩
  | .hbm, ⟨15, _⟩ => ⟨S_, .f32⟩
  | .hbm, ⟨16, _⟩ => ⟨S4096x82x15, .f32⟩
  | .hbm, ⟨17, _⟩ => ⟨S4096x82x15, .f32⟩
  | .hbm, ⟨18, _⟩ => ⟨S4096x82x15, .f32⟩
  | .hbm, ⟨19, _⟩ => ⟨S4096x82x15, .f32⟩
  | .hbm, ⟨20, _⟩ => ⟨S1x1x15, .f32⟩
  | .hbm, ⟨21, _⟩ => ⟨S4096x82x15, .f32⟩
  | .hbm, ⟨22, _⟩ => ⟨S4096x82x15, .f32⟩
  | .hbm, ⟨23, _⟩ => ⟨S_, .f32⟩
  | .hbm, ⟨24, _⟩ => ⟨S4096x82x15, .f32⟩
  | .hbm, ⟨25, _⟩ => ⟨S4096x82x15, .f32⟩
  | .hbm, ⟨26, _⟩ => ⟨S4096x1230, .f32⟩
  | .hbm, ⟨27, _⟩ => ⟨S4096x300, .f32⟩
  | .hbm, ⟨28, _⟩ => ⟨S1x300, .f32⟩
  | .hbm, ⟨29, _⟩ => ⟨S4096x300, .f32⟩
  | .hbm, ⟨30, _⟩ => ⟨S4096x300, .f32⟩
  | .hbm, ⟨31, _⟩ => ⟨S_, .f32⟩
  | .hbm, ⟨32, _⟩ => ⟨S4096x300, .f32⟩
  | .hbm, ⟨33, _⟩ => ⟨S4096x300, .f32⟩
  | .hbm, ⟨34, _⟩ => ⟨S4096x29, .f32⟩
  | .hbm, ⟨35, _⟩ => ⟨S1x29, .f32⟩
  | .hbm, ⟨36, _⟩ => ⟨S4096x29, .f32⟩
  | .hbm, ⟨37, _⟩ => ⟨S4096x29, .f32⟩
  | _, _ => ⟨S4096x82x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S15_S1x1x15_2 : S15.BroadcastsInDim S1x1x15 (![2] : Fin 1 → Fin S1x1x15.rank)
  bcast_S1x1x15_S4096x82x15_0_1_2 : S1x1x15.BroadcastsInDim S4096x82x15 (![0, 1, 2] : Fin 3 → Fin S4096x82x15.rank)
  bcast_S_S4096x82x15 : S_.BroadcastsInDim S4096x82x15 (![] : Fin 0 → Fin S4096x82x15.rank)
  shapeCasts_S4096x82x15_S4096x1230 : S4096x82x15.ShapeCasts S4096x1230
  bcast_S300_S1x300_1 : S300.BroadcastsInDim S1x300 (![1] : Fin 1 → Fin S1x300.rank)
  bcast_S1x300_S4096x300_0_1 : S1x300.BroadcastsInDim S4096x300 (![0, 1] : Fin 2 → Fin S4096x300.rank)
  bcast_S_S4096x300 : S_.BroadcastsInDim S4096x300 (![] : Fin 0 → Fin S4096x300.rank)
  bcast_S29_S1x29_1 : S29.BroadcastsInDim S1x29 (![1] : Fin 1 → Fin S1x29.rank)
  bcast_S1x29_S4096x29_0_1 : S1x29.BroadcastsInDim S4096x29 (![0, 1] : Fin 2 → Fin S4096x29.rank)
  dot_S4096x82x10_S10x15_S4096x82x15_2_0_01_1_n_n_wf : DotDims.WF S4096x82x10 S10x15 S4096x82x15 [2] [0] [0, 1] [1] [] []
  dot_S4096x82x82_S4096x82x15_S4096x82x15_2_1_1_2_0_0_wf : DotDims.WF S4096x82x82 S4096x82x15 S4096x82x15 [2] [1] [1] [2] [0] [0]
  dot_S4096x82x15_S15x15_S4096x82x15_2_0_01_1_n_n_wf : DotDims.WF S4096x82x15 S15x15 S4096x82x15 [2] [0] [0, 1] [1] [] []
  dot_S4096x1230_S1230x300_S4096x300_1_0_0_1_n_n_wf : DotDims.WF S4096x1230 S1230x300 S4096x300 [1] [0] [0] [1] [] []
  dot_S4096x300_S300x29_S4096x29_1_0_0_1_n_n_wf : DotDims.WF S4096x300 S300x29 S4096x29 [1] [0] [0] [1] [] []

variable [Facts₀]

def dot_S4096x82x10_S10x15_S4096x82x15_2_0_01_1_n_n : DotDims S4096x82x10 S10x15 S4096x82x15 where
  lhsContracting := [2]
  rhsContracting := [0]
  lhsNonContracting := [0, 1]
  rhsNonContracting := [1]
  lhsBatch := []
  rhsBatch := []
  wf := dot_S4096x82x10_S10x15_S4096x82x15_2_0_01_1_n_n_wf
def dot_S4096x82x82_S4096x82x15_S4096x82x15_2_1_1_2_0_0 : DotDims S4096x82x82 S4096x82x15 S4096x82x15 where
  lhsContracting := [2]
  rhsContracting := [1]
  lhsNonContracting := [1]
  rhsNonContracting := [2]
  lhsBatch := [0]
  rhsBatch := [0]
  wf := dot_S4096x82x82_S4096x82x15_S4096x82x15_2_1_1_2_0_0_wf
def dot_S4096x82x15_S15x15_S4096x82x15_2_0_01_1_n_n : DotDims S4096x82x15 S15x15 S4096x82x15 where
  lhsContracting := [2]
  rhsContracting := [0]
  lhsNonContracting := [0, 1]
  rhsNonContracting := [1]
  lhsBatch := []
  rhsBatch := []
  wf := dot_S4096x82x15_S15x15_S4096x82x15_2_0_01_1_n_n_wf
def dot_S4096x1230_S1230x300_S4096x300_1_0_0_1_n_n : DotDims S4096x1230 S1230x300 S4096x300 where
  lhsContracting := [1]
  rhsContracting := [0]
  lhsNonContracting := [0]
  rhsNonContracting := [1]
  lhsBatch := []
  rhsBatch := []
  wf := dot_S4096x1230_S1230x300_S4096x300_1_0_0_1_n_n_wf
def dot_S4096x300_S300x29_S4096x29_1_0_0_1_n_n : DotDims S4096x300 S300x29 S4096x29 where
  lhsContracting := [1]
  rhsContracting := [0]
  lhsNonContracting := [0]
  rhsNonContracting := [1]
  lhsBatch := []
  rhsBatch := []
  wf := dot_S4096x300_S300x29_S4096x29_1_0_0_1_n_n_wf

class Facts : Prop extends Facts₀ where

variable [Facts]
-- ==== Proof.Spec.lean ====
/-
  The function both programs compute, over the extended reals, index by index.

  Two graph-convolution layers on a batch of 4096 dense graphs of 82 nodes, then a two-layer dense head:
    xw  b m e = Σ_s x[b,m,s] · W1[s,e]                         (node features times the first weight)
    h1  b n e = max (Σ_m adj[b,n,m] · xw b m e + b1[e]) 0      (first layer)
    hw  b m f = Σ_e h1 b m e · W2[e,f]
    h2  b n f = max (Σ_m adj[b,n,m] · hw b m f + b2[f]) 0      (second layer)
    z   b h   = max (Σ_k h2 b (k / 15) (k % 15) · fW[k,h] + fb[h]) 0   (the 82·15 features of a graph, node-major; every bias is added AFTER its sum)
    out b c   = Σ_h z b h · oW[h,c] + ob[c]
  Nothing here mentions a program: the arrays are functions of indices built by `ix1 / ix2 / ix3`.
-/
import Idealize.ShloMosaic.PureOps.Ideal
import Idealize.ShloMosaic.Lib.ValueIdx

noncomputable section

namespace Cert.GcnSpec

open Idealize.ShloMosaic Idealize.ShloMosaic.ValueIdx

/-- Arrays of extended reals over literal extents. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The node index `k / 15` and the feature index `k % 15` of a flattened feature `k < 82 · 15`. -/
def nodeOf (k : Fin 1230) : Fin 82 := ⟨k.val / 15, by have := k.isLt; omega⟩
def featOf (k : Fin 1230) : Fin 15 := ⟨k.val % 15, Nat.mod_lt _ (by decide)⟩

variable (x : A3 4096 82 10) (adj : A3 4096 82 82) (W1 : A2 10 15) (b1 : A1 15) (W2 : A2 15 15) (b2 : A1 15)
  (fW : A2 1230 300) (fb : A1 300) (oW : A2 300 29) (ob : A1 29)

def xw (b : Fin 4096) (m : Fin 82) (e : Fin 15) : EReal := ∑ s : Fin 10, x (ix3 b m s) * W1 (ix2 s e)

def h1 (b : Fin 4096) (n : Fin 82) (e : Fin 15) : EReal :=
  max ((∑ m : Fin 82, adj (ix3 b n m) * xw x W1 b m e) + b1 (ix1 e)) 0

def hw (b : Fin 4096) (m : Fin 82) (f : Fin 15) : EReal := ∑ e : Fin 15, h1 x adj W1 b1 b m e * W2 (ix2 e f)

def h2 (b : Fin 4096) (n : Fin 82) (f : Fin 15) : EReal :=
  max ((∑ m : Fin 82, adj (ix3 b n m) * hw x adj W1 b1 W2 b m f) + b2 (ix1 f)) 0

def z (b : Fin 4096) (h : Fin 300) : EReal :=
  max ((∑ k : Fin 1230, h2 x adj W1 b1 W2 b2 b (nodeOf k) (featOf k) * fW (ix2 k h)) + fb (ix1 h)) 0

def out (b : Fin 4096) (c : Fin 29) : EReal :=
  (∑ h : Fin 300, z x adj W1 b1 W2 b2 fW fb b h * oW (ix2 h c)) + ob (ix1 c)

/-- The whole result array. -/
def G : A2 4096 29 := fun j => out x adj W1 b1 W2 b2 fW fb oW ob (j 0) (j 1)

end Cert.GcnSpec

end
-- ==== Proof.RefSpec.lean ====
/-
  The reference program's result, read at an index, is the specification: two graph-convolution layers and a
  two-layer dense head, every contraction a finite sum over the extended reals, every bias added after its sum.
-/
import proofs.«116279_g79757542687100_cont_9to1c4b_149_25_alg».proof.Proof.Gen.ReferenceIdeal.Read
import proofs.«116279_g79757542687100_cont_9to1c4b_149_25_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx Cert.ReferenceIdeal Cert.GcnSpec

/-- The arrays of the reference at the extended reals, by their literal shapes. -/
abbrev Arr (S : Shape) : Type := (⟨S, .f32⟩ : BufTy).Contents (Elt Ideal)

variable (x : Arr S4096x82x10) (adj : Arr S4096x82x82) (W1 : Arr S10x15) (b1 : Arr S15) (W2 : Arr S15x15) (b2 : Arr S15)
  (fW : Arr S1230x300) (fb : Arr S300) (oW : Arr S300x29) (ob : Arr S29)

/-! ## The first layer -/

theorem lidx0 (b : Fin 4096) (m : Fin 82) (e : Fin 15) (k : Fin 10) : Read.lidx_main_v0 (ix3 b m e) k = ix3 b m k :=
  funext fun a => Fin.ext (by match a with | ⟨0, _⟩ => rfl | ⟨1, _⟩ => rfl | ⟨2, _⟩ => rfl)
theorem ridx0 (b : Fin 4096) (m : Fin 82) (e : Fin 15) (k : Fin 10) : Read.ridx_main_v0 (ix3 b m e) k = ix2 k e :=
  funext fun a => Fin.ext (by match a with | ⟨0, _⟩ => rfl | ⟨1, _⟩ => rfl)

/-- The product of the node features with the first weight. -/
theorem v0_at (b : Fin 4096) (m : Fin 82) (e : Fin 15) :
    Read.val_main_v0 (F := Ideal) x W1 (ix3 b m e) = xw x W1 b m e := by
  rw [Read.val_main_v0_apply]
  refine Finset.sum_congr rfl fun k _ => ?_
  rw [lidx0, ridx0]

theorem lidx1 (b : Fin 4096) (n : Fin 82) (e : Fin 15) (k : Fin 82) : Read.lidx_main_v1 (ix3 b n e) k = ix3 b n k :=
  funext fun a => Fin.ext (by match a with | ⟨0, _⟩ => rfl | ⟨1, _⟩ => rfl | ⟨2, _⟩ => rfl)
theorem ridx1 (b : Fin 4096) (n : Fin 82) (e : Fin 15) (k : Fin 82) : Read.ridx_main_v1 (ix3 b n e) k = ix3 b k e :=
  funext fun a => Fin.ext (by match a with | ⟨0, _⟩ => rfl | ⟨1, _⟩ => rfl | ⟨2, _⟩ => rfl)

/-- The adjacency applied to the weighted features. -/
theorem v1_at (b : Fin 4096) (n : Fin 82) (e : Fin 15) :
    Read.val_main_v1 (F := Ideal) x adj W1 (ix3 b n e) = ∑ m : Fin 82, adj (ix3 b n m) * xw x W1 b m e := by
  rw [Read.val_main_v1_apply]
  refine Finset.sum_congr rfl fun k _ => ?_
  rw [lidx1, ridx1, v0_at]

theorem idx3 (b : Fin 4096) (n : Fin 82) (e : Fin 15) : Read.idx_main_v2 (Read.idx_main_v3 (ix3 b n e)) = ix1 e :=
  funext fun a => Fin.ext (by match a with | ⟨0, _⟩ => rfl)

/-- The first bias, broadcast along the graphs and the nodes. -/
theorem v3_at (b : Fin 4096) (n : Fin 82) (e : Fin 15) : Read.val_main_v3 (F := Ideal) b1 (ix3 b n e) = b1 (ix1 e) := by
  rw [Read.val_main_v3_apply, Read.val_main_v2_apply, idx3]

/-- The rectifier's zero array is zero at every index. -/
theorem zero0_at (i : S4096x82x15.Idx) : Read.val_main_call0_v0 (F := Ideal) i = 0 := by
  rw [Read.val_main_call0_v0_apply, Read.val_main_call0_cst_apply]
  exact Ideal.ofBits_zero_f32

/-- The first layer. -/
theorem v5_at (b : Fin 4096) (n : Fin 82) (e : Fin 15) :
    Read.val_main_v5 (F := Ideal) x adj W1 b1 (ix3 b n e) = h1 x adj W1 b1 b n e := by
  rw [Read.val_main_v5_apply, Read.val_main_v4_apply, v1_at, v3_at, zero0_at]
  rfl

/-! ## The second layer -/

theorem lidx6 (b : Fin 4096) (m : Fin 82) (f : Fin 15) (k : Fin 15) : Read.lidx_main_v6 (ix3 b m f) k = ix3 b m k :=
  funext fun a => Fin.ext (by match a with | ⟨0, _⟩ => rfl | ⟨1, _⟩ => rfl | ⟨2, _⟩ => rfl)
theorem ridx6 (b : Fin 4096) (m : Fin 82) (f : Fin 15) (k : Fin 15) : Read.ridx_main_v6 (ix3 b m f) k = ix2 k f :=
  funext fun a => Fin.ext (by match a with | ⟨0, _⟩ => rfl | ⟨1, _⟩ => rfl)

/-- The product of the first layer with the second weight. -/
theorem v6_at (b : Fin 4096) (m : Fin 82) (f : Fin 15) :
    Read.val_main_v6 (F := Ideal) x adj W1 b1 W2 (ix3 b m f) = hw x adj W1 b1 W2 b m f := by
  rw [Read.val_main_v6_apply]
  refine Finset.sum_congr rfl fun k _ => ?_
  rw [lidx6, ridx6, v5_at]

theorem lidx7 (b : Fin 4096) (n : Fin 82) (f : Fin 15) (k : Fin 82) : Read.lidx_main_v7 (ix3 b n f) k = ix3 b n k :=
  funext fun a => Fin.ext (by match a with | ⟨0, _⟩ => rfl | ⟨1, _⟩ => rfl | ⟨2, _⟩ => rfl)
theorem ridx7 (b : Fin 4096) (n : Fin 82) (f : Fin 15) (k : Fin 82) : Read.ridx_main_v7 (ix3 b n f) k = ix3 b k f :=
  funext fun a => Fin.ext (by match a with | ⟨0, _⟩ => rfl | ⟨1, _⟩ => rfl | ⟨2, _⟩ => rfl)

theorem v7_at (b : Fin 4096) (n : Fin 82) (f : Fin 15) :
    Read.val_main_v7 (F := Ideal) x adj W1 b1 W2 (ix3 b n f) = ∑ m : Fin 82, adj (ix3 b n m) * hw x adj W1 b1 W2 b m f := by
  rw [Read.val_main_v7_apply]
  refine Finset.sum_congr rfl fun k _ => ?_
  rw [lidx7, ridx7, v6_at]

theorem idx9 (b : Fin 4096) (n : Fin 82) (f : Fin 15) : Read.idx_main_v8 (Read.idx_main_v9 (ix3 b n f)) = ix1 f :=
  funext fun a => Fin.ext (by match a with | ⟨0, _⟩ => rfl)

/-- The second bias, broadcast along the graphs and the nodes. -/
theorem v9_at (b : Fin 4096) (n : Fin 82) (f : Fin 15) : Read.val_main_v9 (F := Ideal) b2 (ix3 b n f) = b2 (ix1 f) := by
  rw [Read.val_main_v9_apply, Read.val_main_v8_apply, idx9]

theorem zero1_at (i : S4096x82x15.Idx) : Read.val_main_call1_v0 (F := Ideal) i = 0 := by
  rw [Read.val_main_call1_v0_apply, Read.val_main_call1_cst_apply]
  exact Ideal.ofBits_zero_f32

/-- The second layer. -/
theorem v11_at (b : Fin 4096) (n : Fin 82) (f : Fin 15) :
    Read.val_main_v11 (F := Ideal) x adj W1 b1 W2 b2 (ix3 b n f) = h2 x adj W1 b1 W2 b2 b n f := by
  rw [Read.val_main_v11_apply, Read.val_main_v10_apply, v7_at, v9_at, zero1_at]
  rfl

/-! ## The dense head -/

/-- Flattening a graph's features node-major: feature `k` is feature `k % 15` of node `k / 15`. -/
theorem idx12 (b : Fin 4096) (k : Fin 1230) : Read.idx_main_v12 (ix2 b k) = ix3 b (nodeOf k) (featOf k) :=
  funext fun a => Fin.ext (by
    have hb : b.val < 4096 := b.isLt
    have hk : k.val < 1230 := k.isLt
    match a with
    | ⟨0, _⟩ => show (b.val * 1230 + k.val) / 1230 = b.val; omega
    | ⟨1, _⟩ => show (b.val * 1230 + k.val) / 15 % 82 = k.val / 15; omega
    | ⟨2, _⟩ => show (b.val * 1230 + k.val) % 15 = k.val % 15; omega)

theorem v12_at (b : Fin 4096) (k : Fin 1230) :
    Read.val_main_v12 (F := Ideal) x adj W1 b1 W2 b2 (ix2 b k) = h2 x adj W1 b1 W2 b2 b (nodeOf k) (featOf k) := by
  rw [Read.val_main_v12_apply, idx12, v11_at]

theorem lidx13 (b : Fin 4096) (h : Fin 300) (k : Fin 1230) : Read.lidx_main_v13 (ix2 b h) k = ix2 b k :=
  funext fun a => Fin.ext (by match a with | ⟨0, _⟩ => rfl | ⟨1, _⟩ => rfl)
theorem ridx13 (b : Fin 4096) (h : Fin 300) (k : Fin 1230) : Read.ridx_main_v13 (ix2 b h) k = ix2 k h :=
  funext fun a => Fin.ext (by match a with | ⟨0, _⟩ => rfl | ⟨1, _⟩ => rfl)

theorem v13_at (b : Fin 4096) (h : Fin 300) :
    Read.val_main_v13 (F := Ideal) x adj W1 b1 W2 b2 fW (ix2 b h)
      = ∑ k : Fin 1230, h2 x adj W1 b1 W2 b2 b (nodeOf k) (featOf k) * fW (ix2 k h) := by
  rw [Read.val_main_v13_apply]
  refine Finset.sum_congr rfl fun k _ => ?_
  rw [lidx13, ridx13, v12_at]

theorem idx15 (b : Fin 4096) (h : Fin 300) : Read.idx_main_v14 (Read.idx_main_v15 (ix2 b h)) = ix1 h :=
  funext fun a => Fin.ext (by match a with | ⟨0, _⟩ => rfl)

theorem v15_at (b : Fin 4096) (h : Fin 300) : Read.val_main_v15 (F := Ideal) fb (ix2 b h) = fb (ix1 h) := by
  rw [Read.val_main_v15_apply, Read.val_main_v14_apply, idx15]

theorem zero2_at (i : S4096x300.Idx) : Read.val_main_call2_v0 (F := Ideal) i = 0 := by
  rw [Read.val_main_call2_v0_apply, Read.val_main_call2_cst_apply]
  exact Ideal.ofBits_zero_f32

/-- The hidden layer of the head. -/
theorem v17_at (b : Fin 4096) (h : Fin 300) :
    Read.val_main_v17 (F := Ideal) x adj W1 b1 W2 b2 fW fb (ix2 b h) = z x adj W1 b1 W2 b2 fW fb b h := by
  rw [Read.val_main_v17_apply, Read.val_main_v16_apply, v13_at, v15_at, zero2_at]
  rfl

theorem lidx18 (b : Fin 4096) (c : Fin 29) (k : Fin 300) : Read.lidx_main_v18 (ix2 b c) k = ix2 b k :=
  funext fun a => Fin.ext (by match a with | ⟨0, _⟩ => rfl | ⟨1, _⟩ => rfl)
theorem ridx18 (b : Fin 4096) (c : Fin 29) (k : Fin 300) : Read.ridx_main_v18 (ix2 b c) k = ix2 k c :=
  funext fun a => Fin.ext (by match a with | ⟨0, _⟩ => rfl | ⟨1, _⟩ => rfl)

theorem v18_at (b : Fin 4096) (c : Fin 29) :
    Read.val_main_v18 (F := Ideal) x adj W1 b1 W2 b2 fW fb oW (ix2 b c)
      = ∑ h : Fin 300, z x adj W1 b1 W2 b2 fW fb b h * oW (ix2 h c) := by
  rw [Read.val_main_v18_apply]
  refine Finset.sum_congr rfl fun k _ => ?_
  rw [lidx18, ridx18, v17_at]

theorem idx20 (b : Fin 4096) (c : Fin 29) : Read.idx_main_v19 (Read.idx_main_v20 (ix2 b c)) = ix1 c :=
  funext fun a => Fin.ext (by match a with | ⟨0, _⟩ => rfl)

theorem v20_at (b : Fin 4096) (c : Fin 29) : Read.val_main_v20 (F := Ideal) ob (ix2 b c) = ob (ix1 c) := by
  rw [Read.val_main_v20_apply, Read.val_main_v19_apply, idx20]

/-- The result at an index. -/
theorem v21_at (b : Fin 4096) (c : Fin 29) :
    Read.val_main_v21 (F := Ideal) x adj W1 b1 W2 b2 fW fb oW ob (ix2 b c) = out x adj W1 b1 W2 b2 fW fb oW ob b c := by
  rw [Read.val_main_v21_apply, v18_at, v20_at]
  rfl

/-- The reference's result is the specification. -/
theorem ref_eq : Read.val_main_v21 (F := Ideal) x adj W1 b1 W2 b2 fW fb oW ob = G x adj W1 b1 W2 b2 fW fb oW ob := by
  funext i
  obtain ⟨b, c, rfl⟩ : ∃ (b : Fin 4096) (c : Fin 29), i = ix2 b c := ⟨i 0, i 1, eq_ix2 i⟩
  exact v21_at x adj W1 b1 W2 b2 fW fb oW ob b c

/-! ## The reference's run, in terms of the specification -/

open Cert.ReferenceIdeal.Gen Idealize.ShloMosaic.StableHlo in
/-- On every device, from any memory with zero counters, every weakly fair execution of the reference terminates with the
    result buffer at the specification of the arguments' launch contents, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨by rw [(h c).1, Read.val_main_v21_eq, ref_eq], (h c).2⟩)
    (Cert.ReferenceIdeal.Value.run (F := Ideal) m ρ)

end Cert.ReferenceIdeal.RefValue

end
-- ==== Proof.KernelRun.lean ====
/-
  The idealized kernel's whole run with its result named. The program is eight segments — five stretches of host
  operations, the graph-convolution region, one more stretch, the dense-head region — and the buffer contents at
  each boundary are a fold from the launch memory. Every weakly fair execution terminates without a fault, the ten
  argument arrays end as launched, and the result buffer ends at what the last region's write-backs leave in its
  output array: the contents at the last boundary read at the result's reference.
-/
import proofs.«116279_g79757542687100_cont_9to1c4b_149_25_alg».proof.Proof.KernelIdealFrameP
import Idealize.ShloMosaic.PureOps.Ideal

set_option maxRecDepth 16384

noncomputable section

open Cert.KernelIdeal Cert.KernelIdeal.Gen Cert.KernelIdeal.GenP

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, with the result buffer at the dense head's output array after its region. -/
theorem run_out : θ_run defs (onTc (τ := τ) (main (F := Ideal))) ⟨m, fun _ => 0, ρ⟩ (fun r => ∀ c : Dev nD,
      r.2.mem ((c.tc : Thread nD τ).loc main_v30) = (dat1 (F := Ideal) (V7 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v30 (by decide))).trans (W8_arr m ρ c 5),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KRun

end
-- ==== Proof.Mlp.lean ====
/-
  The second region of the kernel: the dense head. Each of the eight grid points takes a block of 512 rows of the
  flattened node features (1230 per graph) and computes, for each row r and class q,
      Σ_h max (Σ_k X[r,k] · W[k,h] + b[h]) 0 · O[h,q] + ob[q]
  with the hidden weight W [1230,300], its bias row b, the class weight O [300,29] and its bias row ob held whole at
  every point. Over the extended reals the changes of float format are the identity and a matrix product into a zero
  accumulator is the plain sum of products, so the block a point writes back is the corresponding 512 rows of that one
  function of the five arrays; the eight blocks tile the 4096 rows, hence the whole output array is that function.
-/
import proofs.«116279_g79757542687100_cont_9to1c4b_149_25_alg».proof.Proof.KernelIdealFrameP
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MlpValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-! ## The two products' operand indices

For a plain row-by-column product the left operand is read at (row, k) and the right at (k, column): the coordinates of
the dimension numbers' index maps, one lemma per axis. -/

theorem lhsA_0 (i : S512x300.Idx) (q : dot_S512x1230_S1230x300_S512x300_1_0_0_1_n_n.contr.Idx) : (dot_S512x1230_S1230x300_S512x300_1_0_0_1_n_n.lhsIdx i q 0).val = (i 0).val := by
  unfold DotDims.lhsIdx
  rw [dif_neg (show ¬(0 : Fin S512x1230.rank) ∈ dot_S512x1230_S1230x300_S512x300_1_0_0_1_n_n.lhsBatch by decide), dif_pos (show (0 : Fin S512x1230.rank) ∈ dot_S512x1230_S1230x300_S512x300_1_0_0_1_n_n.lhsNonContracting by decide)]
  rfl
theorem lhsA_1 (i : S512x300.Idx) (q : dot_S512x1230_S1230x300_S512x300_1_0_0_1_n_n.contr.Idx) : (dot_S512x1230_S1230x300_S512x300_1_0_0_1_n_n.lhsIdx i q 1).val = (q ⟨0, by decide⟩).val :=
  dot_S512x1230_S1230x300_S512x300_1_0_0_1_n_n.lhsIdx_val_of_single rfl i q
theorem rhsA_0 (i : S512x300.Idx) (q : dot_S512x1230_S1230x300_S512x300_1_0_0_1_n_n.contr.Idx) : (dot_S512x1230_S1230x300_S512x300_1_0_0_1_n_n.rhsIdx i q 0).val = (q ⟨0, by decide⟩).val :=
  dot_S512x1230_S1230x300_S512x300_1_0_0_1_n_n.rhsIdx_val_of_single rfl i q
theorem rhsA_1 (i : S512x300.Idx) (q : dot_S512x1230_S1230x300_S512x300_1_0_0_1_n_n.contr.Idx) : (dot_S512x1230_S1230x300_S512x300_1_0_0_1_n_n.rhsIdx i q 1).val = (i 1).val := by
  unfold DotDims.rhsIdx
  rw [dif_neg (show ¬(1 : Fin S1230x300.rank) ∈ dot_S512x1230_S1230x300_S512x300_1_0_0_1_n_n.rhsBatch by decide), dif_pos (show (1 : Fin S1230x300.rank) ∈ dot_S512x1230_S1230x300_S512x300_1_0_0_1_n_n.rhsNonContracting by decide)]
  rfl

theorem lhsB_0 (i : S512x29.Idx) (q : dot_S512x300_S300x29_S512x29_1_0_0_1_n_n.contr.Idx) : (dot_S512x300_S300x29_S512x29_1_0_0_1_n_n.lhsIdx i q 0).val = (i 0).val := by
  unfold DotDims.lhsIdx
  rw [dif_neg (show ¬(0 : Fin S512x300.rank) ∈ dot_S512x300_S300x29_S512x29_1_0_0_1_n_n.lhsBatch by decide), dif_pos (show (0 : Fin S512x300.rank) ∈ dot_S512x300_S300x29_S512x29_1_0_0_1_n_n.lhsNonContracting by decide)]
  rfl
theorem lhsB_1 (i : S512x29.Idx) (q : dot_S512x300_S300x29_S512x29_1_0_0_1_n_n.contr.Idx) : (dot_S512x300_S300x29_S512x29_1_0_0_1_n_n.lhsIdx i q 1).val = (q ⟨0, by decide⟩).val :=
  dot_S512x300_S300x29_S512x29_1_0_0_1_n_n.lhsIdx_val_of_single rfl i q
theorem rhsB_0 (i : S512x29.Idx) (q : dot_S512x300_S300x29_S512x29_1_0_0_1_n_n.contr.Idx) : (dot_S512x300_S300x29_S512x29_1_0_0_1_n_n.rhsIdx i q 0).val = (q ⟨0, by decide⟩).val :=
  dot_S512x300_S300x29_S512x29_1_0_0_1_n_n.rhsIdx_val_of_single rfl i q
theorem rhsB_1 (i : S512x29.Idx) (q : dot_S512x300_S300x29_S512x29_1_0_0_1_n_n.contr.Idx) : (dot_S512x300_S300x29_S512x29_1_0_0_1_n_n.rhsIdx i q 1).val = (i 1).val := by
  unfold DotDims.rhsIdx
  rw [dif_neg (show ¬(1 : Fin S300x29.rank) ∈ dot_S512x300_S300x29_S512x29_1_0_0_1_n_n.rhsBatch by decide), dif_pos (show (1 : Fin S300x29.rank) ∈ dot_S512x300_S300x29_S512x29_1_0_0_1_n_n.rhsNonContracting by decide)]
  rfl

/-- The first product, a [512,1230] block times the [1230,300] weight into the zero accumulator, at row `p` and hidden
    unit `h`: the sum over the 1230 flattened features. -/
theorem hidden_sum (x : FVec Ideal S512x1230 .bf16) (w : FVec Ideal S1230x300 .bf16) (p : Fin 512) (h : Fin 300) :
    FloatOps.matmul dot_S512x1230_S1230x300_S512x300_1_0_0_1_n_n none x w (constant (F := Ideal) S512x300 .f32 0x00000000#32) (ix2 p h)
      = ∑ k : Fin 1230, x (ix2 p k) * w (ix2 k h) := by
  rw [Ideal.matmul_constant_zero_apply, ← Equiv.sum_comp (contrEquiv1 dot_S512x1230_S1230x300_S512x300_1_0_0_1_n_n 1230 rfl rfl).symm]
  refine Finset.sum_congr rfl fun k _ => ?_
  have hk := contrEquiv1_symm_val dot_S512x1230_S1230x300_S512x300_1_0_0_1_n_n 1230 rfl rfl k
  have el : dot_S512x1230_S1230x300_S512x300_1_0_0_1_n_n.lhsIdx (ix2 p h) ((contrEquiv1 dot_S512x1230_S1230x300_S512x300_1_0_0_1_n_n 1230 rfl rfl).symm k) = ix2 p k := funext fun ax => Fin.ext (by
    match ax with
    | ⟨0, _⟩ => exact lhsA_0 _ _
    | ⟨1, _⟩ => exact (lhsA_1 _ _).trans hk)
  have er : dot_S512x1230_S1230x300_S512x300_1_0_0_1_n_n.rhsIdx (ix2 p h) ((contrEquiv1 dot_S512x1230_S1230x300_S512x300_1_0_0_1_n_n 1230 rfl rfl).symm k) = ix2 k h := funext fun ax => Fin.ext (by
    match ax with
    | ⟨0, _⟩ => exact (rhsA_0 _ _).trans hk
    | ⟨1, _⟩ => exact rhsA_1 _ _)
  rw [el, er]

/-- The second product, the [512,300] hidden block times the [300,29] weight into the zero accumulator, at row `p` and
    class `q`: the sum over the 300 hidden units. -/
theorem class_sum (z : FVec Ideal S512x300 .bf16) (w : FVec Ideal S300x29 .bf16) (p : Fin 512) (q : Fin 29) :
    FloatOps.matmul dot_S512x300_S300x29_S512x29_1_0_0_1_n_n none z w (constant (F := Ideal) S512x29 .f32 0x00000000#32) (ix2 p q)
      = ∑ k : Fin 300, z (ix2 p k) * w (ix2 k q) := by
  rw [Ideal.matmul_constant_zero_apply, ← Equiv.sum_comp (contrEquiv1 dot_S512x300_S300x29_S512x29_1_0_0_1_n_n 300 rfl rfl).symm]
  refine Finset.sum_congr rfl fun k _ => ?_
  have hk := contrEquiv1_symm_val dot_S512x300_S300x29_S512x29_1_0_0_1_n_n 300 rfl rfl k
  have el : dot_S512x300_S300x29_S512x29_1_0_0_1_n_n.lhsIdx (ix2 p q) ((contrEquiv1 dot_S512x300_S300x29_S512x29_1_0_0_1_n_n 300 rfl rfl).symm k) = ix2 p k := funext fun ax => Fin.ext (by
    match ax with
    | ⟨0, _⟩ => exact lhsB_0 _ _
    | ⟨1, _⟩ => exact (lhsB_1 _ _).trans hk)
  have er : dot_S512x300_S300x29_S512x29_1_0_0_1_n_n.rhsIdx (ix2 p q) ((contrEquiv1 dot_S512x300_S300x29_S512x29_1_0_0_1_n_n 300 rfl rfl).symm k) = ix2 k q := funext fun ax => Fin.ext (by
    match ax with
    | ⟨0, _⟩ => exact (rhsB_0 _ _).trans hk
    | ⟨1, _⟩ => exact rhsB_1 _ _)
  rw [el, er]

/-- The body's payload at row `p` of the block and class `q`: the dense head on that row. The format changes are the
    identity on extended reals, each bias is its one row read at the column, and the rectifier is `max · 0`. -/
theorem pay_apply (x0 : Vec Ideal S512x1230 .bf16) (x1 : Vec Ideal S1230x300 .bf16) (x2 : Vec Ideal S1x300 .f32)
    (x3 : Vec Ideal S300x29 .bf16) (x4 : Vec Ideal S1x29 .f32) (p : Fin 512) (q : Fin 29) :
    k1_pay1 (F := Ideal) x0 x1 x2 x3 x4 (ix2 p q)
      = (∑ h : Fin 300, max ((∑ k : Fin 1230, x0 (ix2 p k) * x1 (ix2 k h)) + x2 (ix2 (0 : Fin 1) h)) 0 * x3 (ix2 h q))
          + x4 (ix2 (0 : Fin 1) q) := by
  unfold k1_pay1
  simp only [shapeCast_self]
  refine (addf_apply _ _ (ix2 p q)).trans ?_
  refine congrArg₂ (· + ·) ?_ (broadcastTo_1b_ab_apply x4 broadcasts_S1x29_S512x29 p q)
  refine (class_sum _ x3 p q).trans ?_
  refine Finset.sum_congr rfl fun h _ => ?_
  refine congrArg (· * x3 (ix2 h q)) ?_
  show max (_ + _) (Ideal.ofBits .f32 0x00000000#32) = _
  rw [Ideal.ofBits_zero_f32]
  refine congrArg (max · 0) ?_
  exact congrArg₂ (· + ·) (hidden_sum x0 x1 p h) (broadcastTo_1b_ab_apply x2 broadcasts_S1x300_S512x300 p h)

/-! ## From the blocks to the whole array -/

/-- The dense head on every row: what the region leaves in its output, as one function of the five arrays it reads
    (the flattened features, the hidden weight and its bias row, the class weight and its bias row). -/
def headOut (X : S4096x1230.Idx → EReal) (W : S1230x300.Idx → EReal) (b : S1x300.Idx → EReal)
    (O : S300x29.Idx → EReal) (ob : S1x29.Idx → EReal) : S4096x29.Idx → EReal :=
  fun j => (∑ h : Fin 300, max ((∑ k : Fin 1230, X (ix2 (j 0) k) * W (ix2 k h)) + b (ix2 (0 : Fin 1) h)) 0 * O (ix2 h (j 1)))
    + ob (ix2 (0 : Fin 1) (j 1))

/-- The head at row `r` and class `q`, written out. -/
theorem headOut_apply (X : S4096x1230.Idx → EReal) (W : S1230x300.Idx → EReal) (b : S1x300.Idx → EReal)
    (O : S300x29.Idx → EReal) (ob : S1x29.Idx → EReal) (r : Fin 4096) (q : Fin 29) :
    headOut X W b O ob (ix2 r q)
      = (∑ h : Fin 300, max ((∑ k : Fin 1230, X (ix2 r k) * W (ix2 k h)) + b (ix2 (0 : Fin 1) h)) 0 * O (ix2 h q))
          + ob (ix2 (0 : Fin 1) q) := rfl

theorem hz : (![0, 0] : Fin 2 → Nat) = fun _ => 0 := funext fun a => by fin_cases a <;> rfl

/-- One row of a block is one row of the array: if the block of features agrees, on row `y 0`, with row `i 0` of the
    array `X`, the four small operands are the whole arrays, and the columns agree, the payload at `y` is the head at `i`. -/
theorem pay_eq_headOut (X : S4096x1230.Idx → EReal) (W : S1230x300.Idx → EReal) (b : S1x300.Idx → EReal)
    (O : S300x29.Idx → EReal) (ob : S1x29.Idx → EReal)
    (x0 : Vec Ideal S512x1230 .bf16) (x1 : Vec Ideal S1230x300 .bf16) (x2 : Vec Ideal S1x300 .f32)
    (x3 : Vec Ideal S300x29 .bf16) (x4 : Vec Ideal S1x29 .f32) (y : S512x29.Idx) (i : S4096x29.Idx)
    (h0 : ∀ k : Fin 1230, x0 (ix2 (y 0) k) = X (ix2 (i 0) k)) (h1 : x1 = W) (h2 : x2 = b) (h3 : x3 = O) (h4 : x4 = ob)
    (hi : (i 1).val = (y 1).val) :
    k1_pay1 (F := Ideal) x0 x1 x2 x3 x4 y = headOut X W b O ob i := by
  obtain ⟨p, q, rfl⟩ : ∃ (p : Fin 512) (q : Fin 29), y = ix2 p q := ⟨y 0, y 1, eq_ix2 y⟩
  subst h1 h2 h3 h4
  have e1 : i 1 = q := Fin.ext hi
  refine (pay_apply x0 x1 x2 x3 x4 p q).trans ?_
  unfold headOut
  rw [e1]
  refine congrArg (· + x4 (ix2 (0 : Fin 1) q)) (Finset.sum_congr rfl fun h _ => ?_)
  refine congrArg (fun s => max (s + x2 (ix2 (0 : Fin 1) h)) 0 * x3 (ix2 h q)) (Finset.sum_congr rfl fun k _ => ?_)
  exact congrArg (· * x1 (ix2 k h)) (h0 k)

/-- The printed index maps, decided over the eight points: the feature window moves with the output window down the
    rows, point `t` at block row `t`; every other window stays at the origin. -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of the head of the arrays as the region finds them: the feature block at
    point `t` is rows `512 t … 512 t + 511` of the feature array, and the other four windows hold their whole arrays. -/
theorem flushed_eq (c : Dev nD) (t : Fin cfg1.N) :
    (dat1 (F := Ideal) V c).flushed 5 t = ((cfg1.win 5).blk t).view.read (Elt Ideal)
      (headOut (V c main_v29) (V c main_v26) (V c main_v18) (V c main_v27) (V c main_v19)) := by
  show (cfg1.win 5).cut (grid1.coords t) ((dat1 V c).after 5 t) = _
  rw [after1_5]
  unfold out1_5
  rw [View.canon_unit_zero hz]
  simp only [View.ld_unit_zero (S := S512x1230) hz, View.ld_unit_zero (S := S1230x300) hz, View.ld_unit_zero (S := S1x300) hz,
    View.ld_unit_zero (S := S300x29) hz, View.ld_unit_zero (S := S1x29) hz]
  obtain ⟨e50, e51, e00, e01, e10, e11, e20, e21, e30, e31, e40, e41⟩ := idx_facts t
  funext j
  show k1_pay1 (F := Ideal) (iblk1 V c 0 t) (iblk1 V c 1 t) (iblk1 V c 2 t) (iblk1 V c 3 t) (iblk1 V c 4 t) j
    = headOut (V c main_v29) (V c main_v26) (V c main_v18) (V c main_v27) (V c main_v19) (((cfg1.win 5).blk t).view.emb j)
  refine pay_eq_headOut (V c main_v29) (V c main_v26) (V c main_v18) (V c main_v27) (V c main_v19)
    (iblk1 V c 0 t) (iblk1 V c 1 t) (iblk1 V c 2 t) (iblk1 V c 3 t) (iblk1 V c 4 t) j (((cfg1.win 5).blk t).view.emb j)
    (fun k => ?_) (funext fun y => ?_) (funext fun y => ?_) (funext fun y => ?_) (funext fun y => ?_) ?_
  · show V c main_v29 (((cfg1.win 0).blk t).view.emb (ix2 (j 0) k)) = V c main_v29 (ix2 ((((cfg1.win 5).blk t).view.emb j) 0) k)
    refine congrArg (V c main_v29) (funext fun a => Fin.ext ?_)
    match a with
    | ⟨0, _⟩ => show win1_0.index t (0 : Fin 2) * 512 + 1 * (j 0).val = win1_5.index t (0 : Fin 2) * 512 + 1 * (j 0).val; omega
    | ⟨1, _⟩ => show win1_0.index t (1 : Fin 2) * 1230 + 1 * k.val = k.val; omega
  · show V c main_v26 (((cfg1.win 1).blk t).view.emb y) = V c main_v26 y
    refine congrArg (V c main_v26) (funext fun a => Fin.ext ?_)
    match a with
    | ⟨0, _⟩ => show win1_1.index t (0 : Fin 2) * 1230 + 1 * (y 0).val = (y 0).val; omega
    | ⟨1, _⟩ => show win1_1.index t (1 : Fin 2) * 300 + 1 * (y 1).val = (y 1).val; omega
  · show V c main_v18 (((cfg1.win 2).blk t).view.emb y) = V c main_v18 y
    refine congrArg (V c main_v18) (funext fun a => Fin.ext ?_)
    match a with
    | ⟨0, _⟩ => show win1_2.index t (0 : Fin 2) * 1 + 1 * (y 0).val = (y 0).val; omega
    | ⟨1, _⟩ => show win1_2.index t (1 : Fin 2) * 300 + 1 * (y 1).val = (y 1).val; omega
  · show V c main_v27 (((cfg1.win 3).blk t).view.emb y) = V c main_v27 y
    refine congrArg (V c main_v27) (funext fun a => Fin.ext ?_)
    match a with
    | ⟨0, _⟩ => show win1_3.index t (0 : Fin 2) * 300 + 1 * (y 0).val = (y 0).val; omega
    | ⟨1, _⟩ => show win1_3.index t (1 : Fin 2) * 29 + 1 * (y 1).val = (y 1).val; omega
  · show V c main_v19 (((cfg1.win 4).blk t).view.emb y) = V c main_v19 y
    refine congrArg (V c main_v19) (funext fun a => Fin.ext ?_)
    match a with
    | ⟨0, _⟩ => show win1_4.index t (0 : Fin 2) * 1 + 1 * (y 0).val = (y 0).val; omega
    | ⟨1, _⟩ => show win1_4.index t (1 : Fin 2) * 29 + 1 * (y 1).val = (y 1).val; omega
  · show win1_5.index t (1 : Fin 2) * 29 + 1 * (j 1).val = (j 1).val
    omega

/-- An index of the output array is in point `t`'s block iff each coordinate is in the block's range on its axis. -/
theorem mem_blk (t : Fin cfg1.N) (i : S4096x29.Idx) :
    i ∈ ((cfg1.win 5).blk t).view.set ↔ ∀ a : Fin 2, win1_5.index t a * S512x29.size a ≤ (i a).val ∧ (i a).val < win1_5.index t a * S512x29.size a + S512x29.size a := by
  show i ∈ ((View.whole main_v30).slice (win1_5.rect t)).set ↔ _
  rw [View.set_slice_whole, Rect.mem_set_unit]
  exact Iff.rfl

/-- Row `r` of the output lies in the block of point `r / 512`: the eight blocks of 512 rows tile the 4096 rows. -/
theorem cover (i : S4096x29.Idx) : ∃ t : Fin cfg1.N, (cfg1.win 5).flush t = true ∧ i ∈ ((cfg1.win 5).blk t).view.set := by
  have hi0 : (i 0).val < 4096 := (i 0).isLt
  have hi1 : (i 1).val < 29 := (i 1).isLt
  have hlt : (i 0).val / 512 < cfg1.N := by show _ < grid1.N; rw [N_1]; omega
  refine ⟨⟨(i 0).val / 512, hlt⟩, flush1_5 _, ?_⟩
  rw [mem_blk]
  obtain ⟨e50, e51, -⟩ := idx_facts ⟨(i 0).val / 512, hlt⟩
  have e50' : win1_5.index ⟨(i 0).val / 512, hlt⟩ (0 : Fin 2) = (i 0).val / 512 := e50
  intro a
  match a with
  | ⟨0, _⟩ => show win1_5.index _ (0 : Fin 2) * 512 ≤ (i 0).val ∧ (i 0).val < win1_5.index _ (0 : Fin 2) * 512 + 512; omega
  | ⟨1, _⟩ => show win1_5.index _ (1 : Fin 2) * 29 ≤ (i 1).val ∧ (i 1).val < win1_5.index _ (1 : Fin 2) * 29 + 29; omega

/-- THE OUTPUT ARRAY after the region: the dense head of the five arrays the region reads, as it finds them. Entry
    (r, q) is Σ_h max (Σ_k X[r,k] · W[k,h] + b[0,h]) 0 · O[h,q] + ob[0,q], with X the flattened features, W and b the hidden
    weight and bias row, O and ob the class weight and bias row. -/
theorem final1 (c : Dev nD) : (dat1 (F := Ideal) V c).arrAt 5 cfg1.N
    = headOut (V c main_v29) (V c main_v26) (V c main_v18) (V c main_v27) (V c main_v19) :=
  (dat1 (F := Ideal) V c).arrAt_eq_of_cover 5 (headOut (V c main_v29) (V c main_v26) (V c main_v18) (V c main_v27) (V c main_v19))
    (fun t _ => flushed_eq V c t) cover

end Cert.KernelIdeal.MlpValue

end
-- ==== Proof.Glue.lean ====
/-
  The host operations around the two regions, read at an index over the extended reals.

  Before the first region the program builds, from its arguments: the 8 by 8 identity and with it the two
  block-diagonal weights (8 copies of W1, of W2, on the diagonal); the two biases repeated 8 times along the lanes;
  the node features of 8 graphs laid side by side; the dense head's first weight with its rows regrouped
  feature-major; and its two biases as rows. Between the regions the first region's output [4096,15,82] is read
  flat as [4096,1230]. Every one of these is a re-indexing of an argument (a change of float format is the identity
  on extended reals), except the block-diagonal weights, where the identity's entry 1 or 0 multiplies the weight's
  entry: 1 * w = w and 0 * w = 0 hold for every extended real w.
-/
import proofs.«116279_g79757542687100_cont_9to1c4b_149_25_alg».proof.Proof.KernelIdealFrameP
import Idealize.ShloMosaic.Lib.ValueIdx
import Idealize.ShloMosaic.Lib.Pipeline.Value
import Idealize.ShloMosaic.Lib.StableHlo.Run

set_option maxRecDepth 16384

noncomputable section

namespace Cert.KernelIdeal.GlueValue

open Cert.KernelIdeal.Gen Cert.KernelIdeal.GenP
open Idealize.ShloMosaic Idealize.ShloMosaic.TcCoe Idealize.ShloMosaic.ValueIdx
open Idealize.ShloMosaic.StableHlo (after_cons after_nil)

variable (m : (ℓ : Loc nD τ sig) → Buf (Elt Ideal) ℓ) (ρ : Dev nD → PrngReg)

/-! ## The two biases, tiled 8 times along the lanes

[15] → [1,15] → [8,15] → [120] → [1,120]: lane 15 i + e of the tiled row holds entry e of the bias. -/

/-- The tiling chain read at lane 15 i + e. -/
theorem tile8_apply (x : S15.Idx → EReal) (i : Fin 8) (e : Fin 15) :
    shapeCast S1x120 (shapeCast S120 (broadcastInDim S8x15 ![0, 1] bcast_S1x15_S8x15_0_1
        (shapeCast S1x15 x shapeCasts_S15_S1x15)) shapeCasts_S8x15_S120) shapeCasts_S120_S1x120
      (ix2 (0 : Fin 1) (⟨15 * i.val + e.val, by omega⟩ : Fin 120)) = x (ix1 e) := by
  refine (shapeCast_apply _ _ _ (ix1 (⟨15 * i.val + e.val, by omega⟩ : Fin 120)) ?_).trans ?_
  · rw [Shape.rowMajor_val_one, Shape.rowMajor_val_two]; show 15 * i.val + e.val = 0 * 120 + (15 * i.val + e.val); omega
  refine (shapeCast_apply _ _ _ (ix2 i e) ?_).trans ?_
  · rw [Shape.rowMajor_val_one, Shape.rowMajor_val_two]; show i.val * 15 + e.val = 15 * i.val + e.val; omega
  refine (broadcastInDim_apply _ _ _ _ (ix2 (0 : Fin 1) e) ?_).trans ?_
  · intro a; match a with
    | ⟨0, _⟩ => rfl
    | ⟨1, _⟩ => rfl
  refine (shapeCast_apply _ _ _ (ix1 e) ?_).trans rfl
  rw [Shape.rowMajor_val_one, Shape.rowMajor_val_two]; show e.val = 0 * 15 + e.val; omega

/-- The first layer's bias row: lane 15 i + e holds b1[e]. -/
theorem b1r (c : Dev nD) (i : Fin 8) (e : Fin 15) :
    (V5 m ρ c main_v13 : S1x120.Idx → EReal) (ix2 (0 : Fin 1) (⟨15 * i.val + e.val, by omega⟩ : Fin 120))
      = (m ((c : Thread nD τ).loc main_arg3) : S15.Idx → EReal) (ix1 e) := by
  have h : (V5 m ρ c main_v13 : S1x120.Idx → EReal)
      = shapeCast S1x120 (shapeCast S120 (broadcastInDim S8x15 ![0, 1] bcast_S1x15_S8x15_0_1
          (shapeCast S1x15 (m ((c : Thread nD τ).loc main_arg3) : S15.Idx → EReal) shapeCasts_S15_S1x15))
          shapeCasts_S8x15_S120) shapeCasts_S120_S1x120 := by
    dsimp only [GenP.V5, GenP.W5, GenP.W4, GenP.W3, GenP.W2, GenP.W1, GenP.W0]
    after_results
    rfl
  rw [h]; exact tile8_apply _ i e

/-- The second layer's bias row: lane 15 i + e holds b2[e]. -/
theorem b2r (c : Dev nD) (i : Fin 8) (e : Fin 15) :
    (V5 m ρ c main_v17 : S1x120.Idx → EReal) (ix2 (0 : Fin 1) (⟨15 * i.val + e.val, by omega⟩ : Fin 120))
      = (m ((c : Thread nD τ).loc main_arg5) : S15.Idx → EReal) (ix1 e) := by
  have h : (V5 m ρ c main_v17 : S1x120.Idx → EReal)
      = shapeCast S1x120 (shapeCast S120 (broadcastInDim S8x15 ![0, 1] bcast_S1x15_S8x15_0_1
          (shapeCast S1x15 (m ((c : Thread nD τ).loc main_arg5) : S15.Idx → EReal) shapeCasts_S15_S1x15))
          shapeCasts_S8x15_S120) shapeCasts_S120_S1x120 := by
    dsimp only [GenP.V5, GenP.W5, GenP.W4, GenP.W3, GenP.W2, GenP.W1, GenP.W0]
    after_results
    rfl
  rw [h]; exact tile8_apply _ i e

/-! ## The dense head's biases as rows, its second weight, and the adjacency -/

/-- The hidden bias as a row [1,300]. -/
theorem fbr (c : Dev nD) (h : Fin 300) :
    (V5 m ρ c main_v18 : S1x300.Idx → EReal) (ix2 (0 : Fin 1) h)
      = (m ((c : Thread nD τ).loc main_arg7) : S300.Idx → EReal) (ix1 h) := by
  have e0 : (V5 m ρ c main_v18 : S1x300.Idx → EReal)
      = shapeCast S1x300 (m ((c : Thread nD τ).loc main_arg7) : S300.Idx → EReal) shapeCasts_S300_S1x300 := by
    dsimp only [GenP.V5, GenP.W5, GenP.W4, GenP.W3, GenP.W2, GenP.W1, GenP.W0]
    after_results
    rfl
  rw [e0]
  refine (shapeCast_apply _ _ _ (ix1 h) ?_).trans rfl
  rw [Shape.rowMajor_val_one, Shape.rowMajor_val_two]; show h.val = 0 * 300 + h.val; omega

/-- The output bias as a row [1,29]. -/
theorem obr (c : Dev nD) (q : Fin 29) :
    (V5 m ρ c main_v19 : S1x29.Idx → EReal) (ix2 (0 : Fin 1) q)
      = (m ((c : Thread nD τ).loc main_arg9) : S29.Idx → EReal) (ix1 q) := by
  have e0 : (V5 m ρ c main_v19 : S1x29.Idx → EReal)
      = shapeCast S1x29 (m ((c : Thread nD τ).loc main_arg9) : S29.Idx → EReal) shapeCasts_S29_S1x29 := by
    dsimp only [GenP.V5, GenP.W5, GenP.W4, GenP.W3, GenP.W2, GenP.W1, GenP.W0]
    after_results
    rfl
  rw [e0]
  refine (shapeCast_apply _ _ _ (ix1 q) ?_).trans rfl
  rw [Shape.rowMajor_val_one, Shape.rowMajor_val_two]; show q.val = 0 * 29 + q.val; omega

/-- The output weight: a change of float format only, the identity on extended reals. -/
theorem owb (c : Dev nD) :
    (V5 m ρ c main_v27 : S300x29.Idx → EReal) = (m ((c : Thread nD τ).loc main_arg8) : S300x29.Idx → EReal) := by
  dsimp only [GenP.V5, GenP.W5, GenP.W4, GenP.W3, GenP.W2, GenP.W1, GenP.W0]
  after_results
  rfl

/-- The adjacency is not touched before the first region. -/
theorem adj5 (c : Dev nD) :
    V5 m ρ c main_arg1 = m ((c : Thread nD τ).loc main_arg1) := by
  dsimp only [GenP.V5, GenP.W5, GenP.W4, GenP.W3, GenP.W2, GenP.W1, GenP.W0]
  after_results

/-! ## The node features, 8 graphs side by side

[4096,82,10] → [512,8,82,10] → (swap the graph-in-group and node axes) [512,82,8,10] → [512,82,80]:
lane 10 j + s of node n of group g holds feature s of node n of graph 8 g + j. -/

theorem xpk (c : Dev nD) (g : Fin 512) (n : Fin 82) (j : Fin 8) (s : Fin 10) :
    (V5 m ρ c main_v22 : S512x82x80.Idx → EReal) (ix3 g n (⟨10 * j.val + s.val, by omega⟩ : Fin 80))
      = (m ((c : Thread nD τ).loc main_arg0) : S4096x82x10.Idx → EReal) (ix3 (⟨8 * g.val + j.val, by omega⟩ : Fin 4096) n s) := by
  have e0 : (V5 m ρ c main_v22 : S512x82x80.Idx → EReal)
      = shapeCast S512x82x80 (transpose S512x82x8x10 [0, 2, 1, 3]
          (shapeCast S512x8x82x10 (m ((c : Thread nD τ).loc main_arg0) : S4096x82x10.Idx → EReal) shapeCasts_S4096x82x10_S512x8x82x10)
          transposes_S512x8x82x10_S512x82x8x10_0_2_1_3) shapeCasts_S512x82x8x10_S512x82x80 := by
    dsimp only [GenP.V5, GenP.W5, GenP.W4, GenP.W3, GenP.W2, GenP.W1, GenP.W0]
    after_results
    rfl
  rw [e0]
  refine (shapeCast_apply _ _ _ (ix4 g n j s) ?_).trans ?_
  · rw [Shape.rowMajor_val_three, Shape.rowMajor_val_four]
    show ((g.val * 82 + n.val) * 8 + j.val) * 10 + s.val = (g.val * 82 + n.val) * 80 + (10 * j.val + s.val)
    omega
  refine (transpose_apply _ _ _ _ (ix4 g j n s) ?_).trans ?_
  · intro b; match b with
    | ⟨0, _⟩ => rfl
    | ⟨1, _⟩ => rfl
    | ⟨2, _⟩ => rfl
    | ⟨3, _⟩ => rfl
  refine (shapeCast_apply _ _ _ (ix3 (⟨8 * g.val + j.val, by omega⟩ : Fin 4096) n s) ?_).trans rfl
  rw [Shape.rowMajor_val_three, Shape.rowMajor_val_four]
  show ((8 * g.val + j.val) * 82 + n.val) * 10 + s.val = ((g.val * 8 + j.val) * 82 + n.val) * 10 + s.val
  omega

/-! ## The dense head's first weight, rows regrouped feature-major

[1230,300] → [82,15,300] → (swap node and feature) [15,82,300] → [1230,300]:
row 82 e + n of the regrouped weight is row 15 n + e of the argument. -/

theorem fwb (c : Dev nD) (e : Fin 15) (n : Fin 82) (h : Fin 300) :
    (V5 m ρ c main_v26 : S1230x300.Idx → EReal) (ix2 (⟨82 * e.val + n.val, by omega⟩ : Fin 1230) h)
      = (m ((c : Thread nD τ).loc main_arg6) : S1230x300.Idx → EReal) (ix2 (⟨15 * n.val + e.val, by omega⟩ : Fin 1230) h) := by
  have e0 : (V5 m ρ c main_v26 : S1230x300.Idx → EReal)
      = shapeCast S1230x300 (transpose S15x82x300 [1, 0, 2]
          (shapeCast S82x15x300 (m ((c : Thread nD τ).loc main_arg6) : S1230x300.Idx → EReal) shapeCasts_S1230x300_S82x15x300)
          transposes_S82x15x300_S15x82x300_1_0_2) shapeCasts_S15x82x300_S1230x300 := by
    dsimp only [GenP.V5, GenP.W5, GenP.W4, GenP.W3, GenP.W2, GenP.W1, GenP.W0]
    after_results
    rfl
  rw [e0]
  refine (shapeCast_apply _ _ _ (ix3 e n h) ?_).trans ?_
  · rw [Shape.rowMajor_val_two, Shape.rowMajor_val_three]
    show (e.val * 82 + n.val) * 300 + h.val = (82 * e.val + n.val) * 300 + h.val
    omega
  refine (transpose_apply _ _ _ _ (ix3 n e h) ?_).trans ?_
  · intro b; match b with
    | ⟨0, _⟩ => rfl
    | ⟨1, _⟩ => rfl
    | ⟨2, _⟩ => rfl
  refine (shapeCast_apply _ _ _ (ix2 (⟨15 * n.val + e.val, by omega⟩ : Fin 1230) h) ?_).trans rfl
  rw [Shape.rowMajor_val_two, Shape.rowMajor_val_three]
  show (15 * n.val + e.val) * 300 + h.val = (n.val * 15 + e.val) * 300 + h.val
  omega

/-! ## Between the two regions

The second region finds the dense head's operands as the first region found them (the first region writes none of
them, and the one host operation between the regions writes only the flattened features), and the flattened
features are the first region's output read row-major: column 82 e + n of graph b is entry (b, e, n). -/

theorem fwb7 (c : Dev nD) : V7 m ρ c main_v26 = V5 m ρ c main_v26 := by
  have h1 : V7 m ρ c main_v26 = V6 m ρ c main_v26 := by
    dsimp only [GenP.V7, GenP.W7, GenP.V6]
    after_results
  exact h1.trans (W6_of_ne m ρ c main_v26 (by decide))

theorem fbr7 (c : Dev nD) : V7 m ρ c main_v18 = V5 m ρ c main_v18 := by
  have h1 : V7 m ρ c main_v18 = V6 m ρ c main_v18 := by
    dsimp only [GenP.V7, GenP.W7, GenP.V6]
    after_results
  exact h1.trans (W6_of_ne m ρ c main_v18 (by decide))

theorem owb7 (c : Dev nD) : V7 m ρ c main_v27 = V5 m ρ c main_v27 := by
  have h1 : V7 m ρ c main_v27 = V6 m ρ c main_v27 := by
    dsimp only [GenP.V7, GenP.W7, GenP.V6]
    after_results
  exact h1.trans (W6_of_ne m ρ c main_v27 (by decide))

theorem obr7 (c : Dev nD) : V7 m ρ c main_v19 = V5 m ρ c main_v19 := by
  have h1 : V7 m ρ c main_v19 = V6 m ρ c main_v19 := by
    dsimp only [GenP.V7, GenP.W7, GenP.V6]
    after_results
  exact h1.trans (W6_of_ne m ρ c main_v19 (by decide))

theorem flat7 (c : Dev nD) (b : Fin 4096) (e : Fin 15) (n : Fin 82) :
    (V7 m ρ c main_v29 : S4096x1230.Idx → EReal) (ix2 b (⟨82 * e.val + n.val, by omega⟩ : Fin 1230))
      = (V6 m ρ c main_v28 : S4096x15x82.Idx → EReal) (ix3 b e n) := by
  have e0 : (V7 m ρ c main_v29 : S4096x1230.Idx → EReal)
      = shapeCast S4096x1230 (V6 m ρ c main_v28 : S4096x15x82.Idx → EReal) shapeCasts_S4096x15x82_S4096x1230 := by
    dsimp only [GenP.V7, GenP.W7, GenP.V6]
    after_results
    rfl
  rw [e0]
  refine (shapeCast_apply _ _ _ (ix3 b e n) ?_).trans rfl
  rw [Shape.rowMajor_val_two, Shape.rowMajor_val_three]
  show (b.val * 15 + e.val) * 82 + n.val = b.val * 1230 + (82 * e.val + n.val)
  omega

/-! ## The block-diagonal weights

The 8 by 8 identity is built as the float of the bit "row index + 0 = column index"; the weight is spread along two
new axes, multiplied by the identity spread along the other two, and the four axes are read row-major as two:
entry (10 j + s, 15 i + e) is the identity's entry (j, i) times the weight's entry (s, e). -/

/-- The 8 by 8 identity as the host operations build it. -/
def eye : S8x8.Idx → EReal :=
  uitofp (F := Ideal) .f32 (cmpi .eq (addi (iotaInDim S8x8 32 0) (broadcastInDim S8x8 ![] bcast_S_S8x8 (constantI S_ 32 0#32)))
    (iotaInDim S8x8 32 1))

theorem eye_bit : ∀ j i : Fin 8, IntOp.cmpi .eq (IntOp.addi (BitVec.ofNat 32 j.val) 0#32) (BitVec.ofNat 32 i.val)
    = if j = i then 1#1 else 0#1 := by decide

/-- Its entries are 1 on the diagonal and 0 off it. -/
theorem eye_apply (j i : Fin 8) : eye (ix2 j i) = if j = i then 1 else 0 := by
  show (((IntOp.cmpi .eq (IntOp.addi (BitVec.ofNat 32 j.val) 0#32) (BitVec.ofNat 32 i.val)).toNat : ℝ) : EReal) = _
  rw [eye_bit]
  by_cases h : j = i
  · rw [if_pos h, if_pos h]; simp
  · rw [if_neg h, if_neg h]; simp

theorem w1_term (c : Dev nD) :
    (V5 m ρ c main_v7 : S80x120.Idx → EReal)
      = shapeCast S80x120 (mulf (F := Ideal) (φ := .f32)
          (broadcastInDim S8x10x8x15 ![0, 1, 2, 3] bcast_S8x1x8x1_S8x10x8x15_0_1_2_3
            (broadcastInDim S8x1x8x1 ![0, 2] bcast_S8x8_S8x1x8x1_0_2 eye))
          (broadcastInDim S8x10x8x15 ![0, 1, 2, 3] bcast_S1x10x1x15_S8x10x8x15_0_1_2_3
            (broadcastInDim S1x10x1x15 ![1, 3] bcast_S10x15_S1x10x1x15_1_3
              (m ((c : Thread nD τ).loc main_arg2) : S10x15.Idx → EReal)))) shapeCasts_S8x10x8x15_S80x120 := by
  dsimp only [GenP.V5, GenP.W5, GenP.W4, GenP.W3, GenP.W2, GenP.W1, GenP.W0]
  after_results
  rfl

/-- The first layer's block-diagonal weight: block (j, i) is W1 when j = i and zero otherwise. -/
theorem w1bd (c : Dev nD) (j i : Fin 8) (s : Fin 10) (e : Fin 15) :
    (V5 m ρ c main_v7 : S80x120.Idx → EReal)
        (ix2 (⟨10 * j.val + s.val, by omega⟩ : Fin 80) (⟨15 * i.val + e.val, by omega⟩ : Fin 120))
      = (if j = i then (m ((c : Thread nD τ).loc main_arg2) : S10x15.Idx → EReal) (ix2 s e) else 0 : EReal) := by
  rw [w1_term]
  refine (shapeCast_apply _ _ _ (ix4 j s i e) ?_).trans ?_
  · rw [Shape.rowMajor_val_two, Shape.rowMajor_val_four]
    show ((j.val * 10 + s.val) * 8 + i.val) * 15 + e.val = (10 * j.val + s.val) * 120 + (15 * i.val + e.val)
    omega
  have hl : broadcastInDim S8x10x8x15 ![0, 1, 2, 3] bcast_S8x1x8x1_S8x10x8x15_0_1_2_3
      (broadcastInDim S8x1x8x1 ![0, 2] bcast_S8x8_S8x1x8x1_0_2 eye) (ix4 j s i e) = eye (ix2 j i) := by
    refine (broadcastInDim_apply _ _ _ _ (ix4 j (0 : Fin 1) i (0 : Fin 1)) ?_).trans ?_
    · intro a; match a with
      | ⟨0, _⟩ => rfl
      | ⟨1, _⟩ => rfl
      | ⟨2, _⟩ => rfl
      | ⟨3, _⟩ => rfl
    refine (broadcastInDim_apply _ _ _ _ (ix2 j i) ?_).trans rfl
    intro a; match a with
      | ⟨0, _⟩ => rfl
      | ⟨1, _⟩ => rfl
  have hr : broadcastInDim S8x10x8x15 ![0, 1, 2, 3] bcast_S1x10x1x15_S8x10x8x15_0_1_2_3
      (broadcastInDim S1x10x1x15 ![1, 3] bcast_S10x15_S1x10x1x15_1_3
        (m ((c : Thread nD τ).loc main_arg2) : S10x15.Idx → EReal)) (ix4 j s i e)
      = (m ((c : Thread nD τ).loc main_arg2) : S10x15.Idx → EReal) (ix2 s e) := by
    refine (broadcastInDim_apply _ _ _ _ (ix4 (0 : Fin 1) s (0 : Fin 1) e) ?_).trans ?_
    · intro a; match a with
      | ⟨0, _⟩ => rfl
      | ⟨1, _⟩ => rfl
      | ⟨2, _⟩ => rfl
      | ⟨3, _⟩ => rfl
    refine (broadcastInDim_apply _ _ _ _ (ix2 s e) ?_).trans rfl
    intro a; match a with
      | ⟨0, _⟩ => rfl
      | ⟨1, _⟩ => rfl
  rw [mulf_apply, hl, hr, eye_apply]
  by_cases h : j = i
  · rw [if_pos h, if_pos h, one_mul]
  · rw [if_neg h, if_neg h, zero_mul]

theorem w2_term (c : Dev nD) :
    (V5 m ρ c main_v9 : S120x120.Idx → EReal)
      = shapeCast S120x120 (mulf (F := Ideal) (φ := .f32)
          (broadcastInDim S8x15x8x15 ![0, 1, 2, 3] bcast_S8x1x8x1_S8x15x8x15_0_1_2_3
            (broadcastInDim S8x1x8x1 ![0, 2] bcast_S8x8_S8x1x8x1_0_2 eye))
          (broadcastInDim S8x15x8x15 ![0, 1, 2, 3] bcast_S1x15x1x15_S8x15x8x15_0_1_2_3
            (broadcastInDim S1x15x1x15 ![1, 3] bcast_S15x15_S1x15x1x15_1_3
              (m ((c : Thread nD τ).loc main_arg4) : S15x15.Idx → EReal)))) shapeCasts_S8x15x8x15_S120x120 := by
  dsimp only [GenP.V5, GenP.W5, GenP.W4, GenP.W3, GenP.W2, GenP.W1, GenP.W0]
  after_results
  rfl

/-- The second layer's block-diagonal weight: block (j, i) is W2 when j = i and zero otherwise. -/
theorem w2bd (c : Dev nD) (j i : Fin 8) (e f : Fin 15) :
    (V5 m ρ c main_v9 : S120x120.Idx → EReal)
        (ix2 (⟨15 * j.val + e.val, by omega⟩ : Fin 120) (⟨15 * i.val + f.val, by omega⟩ : Fin 120))
      = (if j = i then (m ((c : Thread nD τ).loc main_arg4) : S15x15.Idx → EReal) (ix2 e f) else 0 : EReal) := by
  rw [w2_term]
  refine (shapeCast_apply _ _ _ (ix4 j e i f) ?_).trans ?_
  · rw [Shape.rowMajor_val_two, Shape.rowMajor_val_four]
    show ((j.val * 15 + e.val) * 8 + i.val) * 15 + f.val = (15 * j.val + e.val) * 120 + (15 * i.val + f.val)
    omega
  have hl : broadcastInDim S8x15x8x15 ![0, 1, 2, 3] bcast_S8x1x8x1_S8x15x8x15_0_1_2_3
      (broadcastInDim S8x1x8x1 ![0, 2] bcast_S8x8_S8x1x8x1_0_2 eye) (ix4 j e i f) = eye (ix2 j i) := by
    refine (broadcastInDim_apply _ _ _ _ (ix4 j (0 : Fin 1) i (0 : Fin 1)) ?_).trans ?_
    · intro a; match a with
      | ⟨0, _⟩ => rfl
      | ⟨1, _⟩ => rfl
      | ⟨2, _⟩ => rfl
      | ⟨3, _⟩ => rfl
    refine (broadcastInDim_apply _ _ _ _ (ix2 j i) ?_).trans rfl
    intro a; match a with
      | ⟨0, _⟩ => rfl
      | ⟨1, _⟩ => rfl
  have hr : broadcastInDim S8x15x8x15 ![0, 1, 2, 3] bcast_S1x15x1x15_S8x15x8x15_0_1_2_3
      (broadcastInDim S1x15x1x15 ![1, 3] bcast_S15x15_S1x15x1x15_1_3
        (m ((c : Thread nD τ).loc main_arg4) : S15x15.Idx → EReal)) (ix4 j e i f)
      = (m ((c : Thread nD τ).loc main_arg4) : S15x15.Idx → EReal) (ix2 e f) := by
    refine (broadcastInDim_apply _ _ _ _ (ix4 (0 : Fin 1) e (0 : Fin 1) f) ?_).trans ?_
    · intro a; match a with
      | ⟨0, _⟩ => rfl
      | ⟨1, _⟩ => rfl
      | ⟨2, _⟩ => rfl
      | ⟨3, _⟩ => rfl
    refine (broadcastInDim_apply _ _ _ _ (ix2 e f) ?_).trans rfl
    intro a; match a with
      | ⟨0, _⟩ => rfl
      | ⟨1, _⟩ => rfl
  rw [mulf_apply, hl, hr, eye_apply]
  by_cases h : j = i
  · rw [if_pos h, if_pos h, one_mul]
  · rw [if_neg h, if_neg h, zero_mul]

end Cert.KernelIdeal.GlueValue
end
-- ==== Proof.GcnFun.lean ====
/-
  The four functions one grid point of the graph-convolution kernel computes, each over the extended reals and each a
  function of the point's six input blocks (x0: 16 groups of 8 graphs' node features laid side by side, 82 x 80 per
  group; x1: 128 adjacency matrices; x2, x4: the two weights, block-diagonal; x3, x5: the two biases, tiled along
  the 120 lanes):
    T1 (g, n, c) = Σ_k x0(g, n, k) · x2(k, c)
    H1 (g, n, c) = max (Σ_m x1(8g + c/15, n, m) · T1 (g, m, c) + x3(c)) 0      (lane block c/15 belongs to graph 8g + c/15)
    T2 (g, n, c) = Σ_k H1 (g, n, k) · x4(k, c)
    O  (b, e, n) = max (Σ_m x1(b, n, m) · T2 (b/8, m, 15·(b%8) + e) + x5(15·(b%8) + e)) 0
-/
import proofs.«116279_g79757542687100_cont_9to1c4b_149_25_alg».proof.KernelIdeal
import Idealize.ShloMosaic.Lib.ValueIdx

noncomputable section

open Idealize.ShloMosaic
open Cert.KernelIdeal

namespace Cert.KernelIdeal.GcnBody

open Idealize.ShloMosaic.ValueIdx

section Spec

variable (x0 : S16x82x80.Idx → EReal) (x1 : S128x82x82.Idx → EReal) (x2 : S80x120.Idx → EReal)
  (x3 : S1x120.Idx → EReal) (x4 : S120x120.Idx → EReal) (x5 : S1x120.Idx → EReal)

/-- The first panel: a group's packed features times the first weight. -/
def T1 : S16x82x120.Idx → EReal := fun y => ∑ k : Fin 80, x0 (ix3 (y 0) (y 1) k) * x2 (ix2 k (y 2))

/-- The graph whose block of 15 lanes holds lane `c` of group `g`. -/
def graphOf (g : Fin 16) (c : Fin 120) : Fin 128 := ⟨8 * g.val + c.val / 15, by have := g.isLt; have := c.isLt; omega⟩

/-- The first layer, kept as the group's panel. -/
def H1 : S16x82x120.Idx → EReal := fun y =>
  max ((∑ m : Fin 82, x1 (ix3 (graphOf (y 0) (y 2)) (y 1) m) * T1 x0 x2 (ix3 (y 0) m (y 2))) + x3 (ix2 (0 : Fin 1) (y 2))) 0

/-- The second panel: the first layer times the second weight. -/
def T2 : S16x82x120.Idx → EReal := fun y => ∑ k : Fin 120, H1 x0 x1 x2 x3 (ix3 (y 0) (y 1) k) * x4 (ix2 k (y 2))

/-- A graph's group, and the lane of its feature `e` in the group's panel. -/
def groupOf (b : Fin 128) : Fin 16 := ⟨b.val / 8, by have := b.isLt; omega⟩
def laneOf (b : Fin 128) (e : Fin 15) : Fin 120 := ⟨15 * (b.val % 8) + e.val, by have := e.isLt; omega⟩

/-- The block's result: the second layer, features by nodes. -/
def O : S128x15x82.Idx → EReal := fun y =>
  max ((∑ m : Fin 82, x1 (ix3 (y 0) (y 2) m) * T2 x0 x1 x2 x3 x4 (ix3 (groupOf (y 0)) m (laneOf (y 0) (y 1))))
    + x5 (ix2 (0 : Fin 1) (laneOf (y 0) (y 1)))) 0

end Spec

end Cert.KernelIdeal.GcnBody

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«116279_g79757542687100_cont_9to1c4b_149_25_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.GcnPay.lean ====
/-
  The four kinds of value the graph-convolution body stores, each as one function of what it loads, and each read at
  an entry over the extended reals:
    - a group's packed features times the block-diagonal first weight (82 x 80 by 80 x 120);
    - one graph's adjacency against its group's panel, the graph's own block of 15 lanes kept, the bias added and the
      result clamped below at zero (the first layer, stored as a lane block of the group's panel);
    - a group's first-layer panel times the block-diagonal second weight (82 x 120 by 120 x 120);
    - the same adjacency contraction for the second layer, stored transposed (15 features by 82 nodes).
  A change of float format is the identity on the extended reals and a matrix product into zero is the plain sum.
-/
import proofs.«116279_g79757542687100_cont_9to1c4b_149_25_alg».proof.Proof.KernelIdealFrameP
import Idealize.ShloMosaic.Lib.ValueIdx
import Idealize.ShloMosaic.Lib.Pipeline.Value
import Idealize.ShloMosaic.Lib.ValueLayout
import Idealize.ShloMosaic.PureOps.Ideal.Laws
import proofs.«116279_g79757542687100_cont_9to1c4b_149_25_alg».proof.Proof.LibDotApply
set_option maxRecDepth 1000000

noncomputable section

open Idealize.ShloMosaic Idealize.ShloMosaic.TcCoe Idealize.SL.Sem
open Cert.KernelIdeal Cert.KernelIdeal.Gen Cert.KernelIdeal.GenP

namespace Cert.KernelIdeal.GcnBody

variable {F : FTy → Type} [FloatOps F]

/-- One group's packed panel times the block-diagonal first weight: `[1,82,80] · [80,120]`. -/
def payT1 (w : FVec F S80x120 .bf16) (xg : Vec F S1x82x80 .f32) : FVec F S1x82x120 .bf16 :=
  shapeCast S1x82x120 (truncf .bf16 (matmul dot_S82x80_S80x120_S82x120_1_0_0_1_n_n none
    (truncf .bf16 (shapeCast S82x80 xg shapeCasts_S1x82x80_S82x80) bitsLt_bf16_f32) w (constant S82x120 .f32 0x00000000#32)) bitsLt_bf16_f32) shapeCasts_S82x120_S1x82x120

/-- One graph's adjacency (an 82 x 82 matrix) times its group's panel (82 x 120), the 15 lanes from lane `o` kept, bias added, clamped at zero. -/
def payH (o : ℕ) (hs : S82x120.Slices ![0, o] S82x15) (hb : S1x120.Slices ![0, o] S1x15) (bias : FVec F S1x120 .f32) (a : FVec F S82x82 .f32) (t : FVec F S82x120 .bf16) : FVec F S82x15 .bf16 :=
  truncf .bf16 (maximumf (addf
    (extractStridedSlice S82x15 ![0, o] (matmul dot_S82x82_S82x120_S82x120_1_0_0_1_n_n none
      a t (constant S82x120 .f32 0x00000000#32)) hs)
    (broadcastTo S82x15 (extractStridedSlice S1x15 ![0, o] bias hb) broadcasts_S1x15_S82x15))
    (broadcast S82x15 (Scalar.ofBits .f32 0x00000000#32))) bitsLt_bf16_f32

def payH1 (o : ℕ) (hs : S82x120.Slices ![0, o] S82x15) (hb : S1x120.Slices ![0, o] S1x15) (bias : FVec F S1x120 .f32) (a : FVec F S82x82 .f32) (t : FVec F S82x120 .bf16) : FVec F S1x82x15 .bf16 :=
  shapeCast S1x82x15 (payH o hs hb bias a t) shapeCasts_S82x15_S1x82x15

/-- The first layer's panel of a group times the block-diagonal second weight. -/
def payT2 (w : FVec F S120x120 .bf16) (h : FVec F S82x120 .bf16) : FVec F S1x82x120 .bf16 :=
  shapeCast S1x82x120 (truncf .bf16 (matmul dot_S82x120_S120x120_S82x120_1_0_0_1_n_n none
    h w (constant S82x120 .f32 0x00000000#32)) bitsLt_bf16_f32) shapeCasts_S82x120_S1x82x120

/-- The second layer of one graph, stored transposed (features by nodes). -/
def payO (o : ℕ) (hs : S82x120.Slices ![0, o] S82x15) (hb : S1x120.Slices ![0, o] S1x15) (bias : FVec F S1x120 .f32) (a : FVec F S82x82 .f32) (t : FVec F S82x120 .bf16) : FVec F S1x15x82 .bf16 :=
  shapeCast S1x15x82 (transpose S15x82 [1, 0] (payH o hs hb bias a t) transposes_S82x15_p1_0_S15x82) shapeCasts_S15x82_S1x15x82

open Idealize.ShloMosaic.ValueIdx Cert.LibPlainDot Cert.LibDotApply

theorem plain_T1 : IsPlain dot_S82x80_S80x120_S82x120_1_0_0_1_n_n := ⟨rfl, rfl, rfl, rfl, rfl, rfl⟩
theorem plain_H : IsPlain dot_S82x82_S82x120_S82x120_1_0_0_1_n_n := ⟨rfl, rfl, rfl, rfl, rfl, rfl⟩
theorem plain_T2 : IsPlain dot_S82x120_S120x120_S82x120_1_0_0_1_n_n := ⟨rfl, rfl, rfl, rfl, rfl, rfl⟩

/-- Entry (n, c) of a group's first panel: the packed row times a column of the block-diagonal weight. -/
theorem payT1_apply (w : FVec Ideal S80x120 .bf16) (xg : Vec Ideal S1x82x80 .f32) (u : Fin 1) (n : Fin 82) (c : Fin 120) :
    payT1 w xg (ix3 u n c) = ∑ k : Fin 80, xg (ix3 (0 : Fin 1) n k) * w (ix2 k c) := by
  unfold payT1
  rw [shapeCast_ab_1ab_apply, truncf_apply]
  refine (matmul_zero_apply _ plain_T1 none _ _ n c).trans ?_
  refine Finset.sum_congr rfl fun k _ => ?_
  rw [truncf_apply, shapeCast_1ab_ab_apply]

/-- Entry (n, e) of the lane block starting at lane o, after an adjacency contraction: row n of the adjacency against column o+e of
    the panel, plus the bias of that column, clamped below at zero. -/
theorem payH_apply (o : ℕ) (hs : S82x120.Slices ![0, o] S82x15) (hb : S1x120.Slices ![0, o] S1x15) (bias : FVec Ideal S1x120 .f32) (a : FVec Ideal S82x82 .f32) (t : FVec Ideal S82x120 .bf16)
    (n : Fin 82) (e : Fin 15) (k : Fin 120) (hk : k.val = o + e.val) :
    payH o hs hb bias a t (ix2 n e) = max ((∑ m : Fin 82, a (ix2 n m) * t (ix2 m k)) + bias (ix2 (0 : Fin 1) k)) 0 := by
  unfold payH
  rw [truncf_apply, maximumf_apply, addf_apply, broadcast_apply, slice2_axis1_apply o _ hs n e k hk,
    broadcastTo_1b_ab_apply, slice2_axis1_apply o _ hb (0 : Fin 1) e k hk]
  exact congrArg₂ max (congrArg (· + bias (ix2 (0 : Fin 1) k))
    (matmul_zero_apply _ plain_H none _ _ n k)) Ideal.ofBits_zero_f32

theorem payH1_apply (o : ℕ) (hs : S82x120.Slices ![0, o] S82x15) (hb : S1x120.Slices ![0, o] S1x15) (bias : FVec Ideal S1x120 .f32) (a : FVec Ideal S82x82 .f32) (t : FVec Ideal S82x120 .bf16)
    (u : Fin 1) (n : Fin 82) (e : Fin 15) : payH1 o hs hb bias a t (ix3 u n e) = payH o hs hb bias a t (ix2 n e) := by
  unfold payH1; rw [shapeCast_ab_1ab_apply]

theorem payT2_apply (w : FVec Ideal S120x120 .bf16) (h : FVec Ideal S82x120 .bf16) (u : Fin 1) (n : Fin 82) (c : Fin 120) :
    payT2 w h (ix3 u n c) = ∑ k : Fin 120, h (ix2 n k) * w (ix2 k c) := by
  unfold payT2
  rw [shapeCast_ab_1ab_apply, truncf_apply]
  exact matmul_zero_apply _ plain_T2 none _ _ n c

theorem payO_apply (o : ℕ) (hs : S82x120.Slices ![0, o] S82x15) (hb : S1x120.Slices ![0, o] S1x15) (bias : FVec Ideal S1x120 .f32) (a : FVec Ideal S82x82 .f32) (t : FVec Ideal S82x120 .bf16)
    (u : Fin 1) (e : Fin 15) (n : Fin 82) : payO o hs hb bias a t (ix3 u e n) = payH o hs hb bias a t (ix2 n e) := by
  unfold payO; rw [shapeCast_ab_1ab_apply, transpose_ix2_apply]

end Cert.KernelIdeal.GcnBody

end
-- ==== Proof.GcnBody.lean ====
/-
  What one grid point of the graph-convolution kernel leaves in its output block, as ONE function of its six input
  blocks. The body fills three scratch panels in turn and reads each back whole:
    T1 (g, n, c) = Σ_k x0(g, n, k) · w1(k, c)                                        (16 groups of 8 graphs, 120 = 8·15 lanes)
    H1 (g, n, c) = max (Σ_m adj(8g + c/15, n, m) · T1 (g, m, c) + b1(c)) 0            (lane block c/15 belongs to graph 8g + c/15)
    T2 (g, n, c) = Σ_k H1 (g, n, k) · w2(k, c)
    O  (b, e, n) = max (Σ_m adj(b, n, m) · T2 (b/8, m, 15·(b%8) + e) + b2(15·(b%8) + e)) 0
  Each store's payload is the restriction of one of these functions to the store's rectangle; a load of a panel after
  all its stores reads the function itself.
-/
import proofs.«116279_g79757542687100_cont_9to1c4b_149_25_alg».proof.Proof.KernelIdealFrameP
import Idealize.ShloMosaic.Lib.ValueIdx
import Idealize.ShloMosaic.Lib.Pipeline.Value
import Idealize.ShloMosaic.Lib.ValueLayout
import Idealize.ShloMosaic.PureOps.Ideal.Laws
import proofs.«116279_g79757542687100_cont_9to1c4b_149_25_alg».proof.Proof.GcnPay
import proofs.«116279_g79757542687100_cont_9to1c4b_149_25_alg».proof.Proof.GcnFun
set_option maxRecDepth 1000000

noncomputable section

open Idealize.ShloMosaic Idealize.ShloMosaic.TcCoe Idealize.SL.Sem
open Cert.KernelIdeal Cert.KernelIdeal.Gen Cert.KernelIdeal.GenP

namespace Cert.KernelIdeal.GcnBody

open Idealize.ShloMosaic.ValueIdx Idealize.ShloMosaic.Tactic

/-! ## Rectangles and loads -/

/-- A unit-stride box of a rank-3 shape sends local coordinates to offset + coordinate. -/
theorem idx_unit3 {n0 n1 n2 : ℕ} (off size : Fin 3 → ℕ) (inb : ∀ a, off a + size a ≤ (⟨3, ![n0, n1, n2]⟩ : Shape).size a)
    (j : (Rect.unit (s := ⟨3, ![n0, n1, n2]⟩) off size inb).shape.Idx) (a' : Fin n0) (b' : Fin n1) (c' : Fin n2)
    (ha : a'.val = off 0 + (j 0).val) (hb : b'.val = off 1 + (j 1).val) (hc : c'.val = off 2 + (j 2).val) :
    (Rect.unit (s := ⟨3, ![n0, n1, n2]⟩) off size inb).toLoadRect.idx j = ix3 a' b' c' := by
  funext ax
  refine Fin.ext ?_
  match ax with
  | ⟨0, _⟩ => show off 0 + 1 * (j 0).val = a'.val; omega
  | ⟨1, _⟩ => show off 1 + 1 * (j 1).val = b'.val; omega
  | ⟨2, _⟩ => show off 2 + 1 * (j 2).val = c'.val; omega

/-- A load through a box of a whole memref holding `X` reads `X` at the box's indices. -/
theorem load_whole {sig : RefSig} {κ : Kind} {sp : Space} {s : Shape} {e : EltTy} (arg : Memref sig κ sp s e) (harg : arg.IsWhole)
    (X : s.Idx → Elt Ideal e) (B : LoadRect s) (j : B.shape.Idx) :
    View.readAt (Elt Ideal) arg.view B (harg.unread X) j = X (B.idx j) := by
  show arg.view.read (Elt Ideal) (harg.unread X) (B.idx j) = _
  rw [harg.read_unread]

/-- A piece restricts `G`: its payload at a local index is `G` at the index's place in the whole shape. -/
def Agree {s : Shape} {e : EltTy} (G : s.Idx → Elt Ideal e) (p : View.Piece (Elt Ideal) s e) : Prop :=
  ∀ x : p.1.shape.Idx, p.2 x = G (p.1.emb x)

/-- A load, through a box, of a panel whose stores all restrict `G` and cover the panel reads `G` at the box's indices. -/
theorem readCov_of_agree {sig : RefSig} {κ : Kind} {sp : Space} {s : Shape} {e : EltTy} (v : View sig κ sp s e)
    (G : s.Idx → Elt Ideal e) (L : List (View.Piece (Elt Ideal) s e)) (hL : ∀ p ∈ L, Agree G p)
    (hcov : ∀ y : s.Idx, ∃ p ∈ L, y ∈ p.1.set) (B : LoadRect s) (j : B.shape.Idx) :
    v.readCov L B j = G (B.idx j) := by
  rw [View.readCov_eq_canon']
  exact View.canon_apply_of_pieces G L hL (B.idx j) (hcov _)

/-! ## The four functions -/

section Spec

variable (x0 : S16x82x80.Idx → EReal) (x1 : S128x82x82.Idx → EReal) (x2 : S80x120.Idx → EReal)
  (x3 : S1x120.Idx → EReal) (x4 : S120x120.Idx → EReal) (x5 : S1x120.Idx → EReal)

/-! ## Each store restricts its function -/

theorem agreeT1 (g : ℕ) (hg : g < 16) (inb : ∀ a, ![g, 0, 0] a + S1x82x120.size a ≤ S16x82x120.size a)
    (W : FVec Ideal S80x120 .bf16) (X : Vec Ideal S1x82x80 .f32)
    (hW : ∀ k c, W (ix2 k c) = x2 (ix2 k c)) (hX : ∀ n k, X (ix3 (0 : Fin 1) n k) = x0 (ix3 (⟨g, hg⟩ : Fin 16) n k)) :
    Agree (T1 x0 x2) (⟨Rect.unit (s := S16x82x120) ![g, 0, 0] S1x82x120.size inb, payT1 W X⟩ : View.Piece (Elt Ideal) S16x82x120 .bf16) := by
  intro x
  obtain ⟨u, n, c, rfl⟩ : ∃ (u : Fin 1) (n : Fin 82) (c : Fin 120), x = ix3 u n c := ⟨x 0, x 1, x 2, eq_ix3 x⟩
  have he : (Rect.unit (s := S16x82x120) ![g, 0, 0] S1x82x120.size inb).toLoadRect.idx (ix3 u n c) = ix3 (⟨g, hg⟩ : Fin 16) n c :=
    idx_unit3 _ _ inb _ _ _ _ (by show g = g + u.val; omega) (by show n.val = 0 + n.val; omega) (by show c.val = 0 + c.val; omega)
  show payT1 W X (ix3 u n c) = T1 x0 x2 ((Rect.unit (s := S16x82x120) ![g, 0, 0] S1x82x120.size inb).toLoadRect.idx (ix3 u n c))
  rw [he, payT1_apply]
  exact Finset.sum_congr rfl fun k _ => by rw [hX, hW]

theorem agreeH1 (g o b : ℕ) (hg : g < 16) (hb : b < 128) (hbg : b = 8 * g + o / 15) (ho : o % 15 = 0) (ho' : o + 15 ≤ 120)
    (inb : ∀ a, ![g, 0, o] a + S1x82x15.size a ≤ S16x82x120.size a)
    (hs : S82x120.Slices ![0, o] S82x15) (hbs : S1x120.Slices ![0, o] S1x15)
    (B : FVec Ideal S1x120 .f32) (A : FVec Ideal S82x82 .f32) (T : FVec Ideal S82x120 .bf16)
    (hB : ∀ k, B (ix2 (0 : Fin 1) k) = x3 (ix2 (0 : Fin 1) k))
    (hA : ∀ n m, A (ix2 n m) = x1 (ix3 (⟨b, hb⟩ : Fin 128) n m))
    (hT : ∀ m k, T (ix2 m k) = T1 x0 x2 (ix3 (⟨g, hg⟩ : Fin 16) m k)) :
    Agree (H1 x0 x1 x2 x3) (⟨Rect.unit (s := S16x82x120) ![g, 0, o] S1x82x15.size inb, payH1 o hs hbs B A T⟩ : View.Piece (Elt Ideal) S16x82x120 .bf16) := by
  intro x
  obtain ⟨u, n, e, rfl⟩ : ∃ (u : Fin 1) (n : Fin 82) (e : Fin 15), x = ix3 u n e := ⟨x 0, x 1, x 2, eq_ix3 x⟩
  have he : (Rect.unit (s := S16x82x120) ![g, 0, o] S1x82x15.size inb).toLoadRect.idx (ix3 u n e)
      = ix3 (⟨g, hg⟩ : Fin 16) n (⟨o + e.val, by omega⟩ : Fin 120) :=
    idx_unit3 _ _ inb _ _ _ _ (by show g = g + u.val; omega) (by show n.val = 0 + n.val; omega) (by show o + e.val = o + e.val; rfl)
  show payH1 o hs hbs B A T (ix3 u n e) = H1 x0 x1 x2 x3 ((Rect.unit (s := S16x82x120) ![g, 0, o] S1x82x15.size inb).toLoadRect.idx (ix3 u n e))
  rw [he, payH1_apply, payH_apply o hs hbs B A T n e (⟨o + e.val, by omega⟩ : Fin 120) rfl]
  have hgr : graphOf (⟨g, hg⟩ : Fin 16) (⟨o + e.val, by omega⟩ : Fin 120) = (⟨b, hb⟩ : Fin 128) :=
    Fin.ext (by show 8 * g + (o + e.val) / 15 = b; omega)
  show _ = max ((∑ m : Fin 82, x1 (ix3 (graphOf (⟨g, hg⟩ : Fin 16) (⟨o + e.val, by omega⟩ : Fin 120)) n m)
    * T1 x0 x2 (ix3 (⟨g, hg⟩ : Fin 16) m (⟨o + e.val, by omega⟩ : Fin 120))) + x3 (ix2 (0 : Fin 1) (⟨o + e.val, by omega⟩ : Fin 120))) 0
  rw [hgr, hB]
  exact congrArg (fun z => max (z + _) 0) (Finset.sum_congr rfl fun m _ => by rw [hA, hT])

theorem agreeT2 (g : ℕ) (hg : g < 16) (inb : ∀ a, ![g, 0, 0] a + S1x82x120.size a ≤ S16x82x120.size a)
    (W : FVec Ideal S120x120 .bf16) (H : FVec Ideal S82x120 .bf16)
    (hW : ∀ k c, W (ix2 k c) = x4 (ix2 k c)) (hH : ∀ n k, H (ix2 n k) = H1 x0 x1 x2 x3 (ix3 (⟨g, hg⟩ : Fin 16) n k)) :
    Agree (T2 x0 x1 x2 x3 x4) (⟨Rect.unit (s := S16x82x120) ![g, 0, 0] S1x82x120.size inb, payT2 W H⟩ : View.Piece (Elt Ideal) S16x82x120 .bf16) := by
  intro x
  obtain ⟨u, n, c, rfl⟩ : ∃ (u : Fin 1) (n : Fin 82) (c : Fin 120), x = ix3 u n c := ⟨x 0, x 1, x 2, eq_ix3 x⟩
  have he : (Rect.unit (s := S16x82x120) ![g, 0, 0] S1x82x120.size inb).toLoadRect.idx (ix3 u n c) = ix3 (⟨g, hg⟩ : Fin 16) n c :=
    idx_unit3 _ _ inb _ _ _ _ (by show g = g + u.val; omega) (by show n.val = 0 + n.val; omega) (by show c.val = 0 + c.val; omega)
  show payT2 W H (ix3 u n c) = T2 x0 x1 x2 x3 x4 ((Rect.unit (s := S16x82x120) ![g, 0, 0] S1x82x120.size inb).toLoadRect.idx (ix3 u n c))
  rw [he, payT2_apply]
  exact Finset.sum_congr rfl fun k _ => by rw [hH, hW]

theorem agreeO (b g o : ℕ) (hb : b < 128) (hg : g < 16) (hgb : g = b / 8) (hob : o = 15 * (b % 8))
    (inb : ∀ a, ![b, 0, 0] a + S1x15x82.size a ≤ S128x15x82.size a)
    (hs : S82x120.Slices ![0, o] S82x15) (hbs : S1x120.Slices ![0, o] S1x15)
    (B : FVec Ideal S1x120 .f32) (A : FVec Ideal S82x82 .f32) (T : FVec Ideal S82x120 .bf16)
    (hB : ∀ k, B (ix2 (0 : Fin 1) k) = x5 (ix2 (0 : Fin 1) k))
    (hA : ∀ n m, A (ix2 n m) = x1 (ix3 (⟨b, hb⟩ : Fin 128) n m))
    (hT : ∀ m k, T (ix2 m k) = T2 x0 x1 x2 x3 x4 (ix3 (⟨g, hg⟩ : Fin 16) m k)) :
    Agree (O x0 x1 x2 x3 x4 x5) (⟨Rect.unit (s := S128x15x82) ![b, 0, 0] S1x15x82.size inb, payO o hs hbs B A T⟩ : View.Piece (Elt Ideal) S128x15x82 .bf16) := by
  intro x
  obtain ⟨u, e, n, rfl⟩ : ∃ (u : Fin 1) (e : Fin 15) (n : Fin 82), x = ix3 u e n := ⟨x 0, x 1, x 2, eq_ix3 x⟩
  have he : (Rect.unit (s := S128x15x82) ![b, 0, 0] S1x15x82.size inb).toLoadRect.idx (ix3 u e n) = ix3 (⟨b, hb⟩ : Fin 128) e n :=
    idx_unit3 _ _ inb _ _ _ _ (by show b = b + u.val; omega) (by show e.val = 0 + e.val; omega) (by show n.val = 0 + n.val; omega)
  show payO o hs hbs B A T (ix3 u e n) = O x0 x1 x2 x3 x4 x5 ((Rect.unit (s := S128x15x82) ![b, 0, 0] S1x15x82.size inb).toLoadRect.idx (ix3 u e n))
  have hk : (laneOf (⟨b, hb⟩ : Fin 128) e).val = o + e.val := by show 15 * (b % 8) + e.val = o + e.val; omega
  rw [he, payO_apply, payH_apply o hs hbs B A T n e (laneOf (⟨b, hb⟩ : Fin 128) e) hk]
  have hgr : groupOf (⟨b, hb⟩ : Fin 128) = (⟨g, hg⟩ : Fin 16) := Fin.ext (by show b / 8 = g; omega)
  show _ = max ((∑ m : Fin 82, x1 (ix3 (⟨b, hb⟩ : Fin 128) n m)
    * T2 x0 x1 x2 x3 x4 (ix3 (groupOf (⟨b, hb⟩ : Fin 128)) m (laneOf (⟨b, hb⟩ : Fin 128) e))) + x5 (ix2 (0 : Fin 1) (laneOf (⟨b, hb⟩ : Fin 128) e))) 0
  rw [hgr, hB]
  exact congrArg (fun z => max (z + _) 0) (Finset.sum_congr rfl fun m _ => by rw [hA, hT])

end Spec

/-! ## The panels as the run leaves them -/

section Run

variable (c : Dev nD) (arg1 : Memref sig .tc .vmem S16x82x80 .f32) (harg1 : arg1.IsWhole) (arg2 : Memref sig .tc .vmem S128x82x82 .f32) (harg2 : arg2.IsWhole)
  (arg3 : Memref sig .tc .vmem S80x120 .bf16) (harg3 : arg3.IsWhole) (arg4 : Memref sig .tc .vmem S1x120 .f32) (harg4 : arg4.IsWhole)
  (arg5 : Memref sig .tc .vmem S120x120 .bf16) (harg5 : arg5.IsWhole) (arg6 : Memref sig .tc .vmem S1x120 .f32) (harg6 : arg6.IsWhole)
  (arg7 : Memref sig .tc .vmem S128x15x82 .bf16) (harg7 : arg7.IsWhole) (arg8 : Memref sig .tc .vmem S16x82x120 .bf16) (harg8 : arg8.IsWhole)
  (arg9 : Memref sig .tc .vmem S16x82x120 .bf16) (harg9 : arg9.IsWhole) (arg10 : Memref sig .tc .vmem S16x82x120 .bf16) (harg10 : arg10.IsWhole)
  (x0 : Vec Ideal S16x82x80 .f32) (x1 : Vec Ideal S128x82x82 .f32) (x2 : Vec Ideal S80x120 .bf16) (x3 : Vec Ideal S1x120 .f32)
  (x4 : Vec Ideal S120x120 .bf16) (x5 : Vec Ideal S1x120 .f32)

/-- The first weight as the body holds it (a whole load, an identity cast). -/
theorem w1_read (k : Fin 80) (j : Fin 120) :
    k0_pay1 (View.readAt (Elt Ideal) arg3.view (Rect.unit (s := S80x120) ![0, 0] S80x120.size inb_S80x120_S80x120_0_0).toLoadRect (harg3.unread x2)) (ix2 k j) = x2 (ix2 k j) := by
  unfold k0_pay1
  rw [shapeCast_self, load_whole]
  exact congrArg x2 (funext fun a => Fin.ext (by match a with | ⟨0, _⟩ => (show 0 + 1 * k.val = k.val; omega) | ⟨1, _⟩ => (show 0 + 1 * j.val = j.val; omega)))

/-- A group's packed features as the body loads them. -/
theorem x_read (g : ℕ) (hg : g < 16) (inb : ∀ a, ![g, 0, 0] a + S1x82x80.size a ≤ S16x82x80.size a) (n : Fin 82) (k : Fin 80) :
    View.readAt (Elt Ideal) arg1.view (Rect.unit (s := S16x82x80) ![g, 0, 0] S1x82x80.size inb).toLoadRect (harg1.unread x0) (ix3 (0 : Fin 1) n k)
      = x0 (ix3 (⟨g, hg⟩ : Fin 16) n k) := by
  rw [load_whole]
  exact congrArg x0 (idx_unit3 _ _ inb _ _ _ _ (by show g = g + 0; omega) (by show n.val = 0 + n.val; omega) (by show k.val = 0 + k.val; omega))

theorem agree_HS0 : ∀ p ∈ kernelRun0_A.sl.HS0_16 (F := Ideal) c arg1 harg1 arg3 harg3 x0 x2, Agree (T1 x0 x2) p := by
  unfold kernelRun0_A.sl.HS0_16
  iterate 16 (refine List.forall_mem_cons.2 ⟨?_, ?_⟩; swap)
  · exact fun _ h => absurd h List.not_mem_nil
  all_goals
    refine agreeT1 x0 x2 _ (by decide) _ _ _ ?_ ?_
    · exact w1_read arg3 harg3 x2
    · exact x_read arg1 harg1 x0 _ _ _

/-- The biases and the second weight as the body holds them (whole loads, identity casts). -/
theorem b1_read (k : Fin 120) :
    k0_pay2 (View.readAt (Elt Ideal) arg4.view (Rect.unit (s := S1x120) ![0, 0] S1x120.size inb_S1x120_S1x120_0_0).toLoadRect (harg4.unread x3)) (ix2 (0 : Fin 1) k) = x3 (ix2 (0 : Fin 1) k) := by
  unfold k0_pay2
  rw [shapeCast_self, load_whole]
  exact congrArg x3 (funext fun a => Fin.ext (by match a with | ⟨0, _⟩ => (show 0 + 1 * 0 = 0; rfl) | ⟨1, _⟩ => (show 0 + 1 * k.val = k.val; omega)))

theorem b2_read (k : Fin 120) :
    k0_pay4 (View.readAt (Elt Ideal) arg6.view (Rect.unit (s := S1x120) ![0, 0] S1x120.size inb_S1x120_S1x120_0_0).toLoadRect (harg6.unread x5)) (ix2 (0 : Fin 1) k) = x5 (ix2 (0 : Fin 1) k) := by
  unfold k0_pay4
  rw [shapeCast_self, load_whole]
  exact congrArg x5 (funext fun a => Fin.ext (by match a with | ⟨0, _⟩ => (show 0 + 1 * 0 = 0; rfl) | ⟨1, _⟩ => (show 0 + 1 * k.val = k.val; omega)))

theorem w2_read (k : Fin 120) (j : Fin 120) :
    k0_pay3 (View.readAt (Elt Ideal) arg5.view (Rect.unit (s := S120x120) ![0, 0] S120x120.size inb_S120x120_S120x120_0_0).toLoadRect (harg5.unread x4)) (ix2 k j) = x4 (ix2 k j) := by
  unfold k0_pay3
  rw [shapeCast_self, load_whole]
  exact congrArg x4 (funext fun a => Fin.ext (by match a with | ⟨0, _⟩ => (show 0 + 1 * k.val = k.val; omega) | ⟨1, _⟩ => (show 0 + 1 * j.val = j.val; omega)))

/-- One graph's adjacency as the body loads it. -/
theorem adj_read (b : ℕ) (hb : b < 128) (inb : ∀ a, ![b, 0, 0] a + S1x82x82.size a ≤ S128x82x82.size a) (n m : Fin 82) :
    View.readAt (Elt Ideal) arg2.view (Rect.unit (s := S128x82x82) ![b, 0, 0] S1x82x82.size inb).toLoadRect (harg2.unread x1) (ix3 (0 : Fin 1) n m)
      = x1 (ix3 (⟨b, hb⟩ : Fin 128) n m) := by
  rw [load_whole]
  exact congrArg x1 (idx_unit3 _ _ inb _ _ _ _ (by show b = b + 0; omega) (by show n.val = 0 + n.val; omega) (by show m.val = 0 + m.val; omega))

/-- The same adjacency read as an 82 x 82 matrix. -/
theorem adj_read2 (b : ℕ) (hb : b < 128) (inb : ∀ a, ![b, 0, 0] a + S1x82x82.size a ≤ S128x82x82.size a) (n m : Fin 82) :
    shapeCast S82x82 (View.readAt (Elt Ideal) arg2.view (Rect.unit (s := S128x82x82) ![b, 0, 0] S1x82x82.size inb).toLoadRect (harg2.unread x1))
        shapeCasts_S1x82x82_S82x82 (ix2 n m)
      = x1 (ix3 (⟨b, hb⟩ : Fin 128) n m) :=
  (shapeCast_1ab_ab_apply _ _ n m).trans (adj_read arg2 harg2 x1 b hb inb n m)

/-- The first panel's 16 stores cover it, so a load of a group's rows after them reads `T1`. -/
theorem cover_HS0 (y : S16x82x120.Idx) : ∃ p ∈ kernelRun0_A.sl.HS0_16 (F := Ideal) c arg1 harg1 arg3 harg3 x0 x2, y ∈ p.1.set :=
  View.cover_of_tiledL (kernelRun0_A.sl.HS0_16 (F := Ideal) c arg1 harg1 arg3 harg3 x0 x2) S1x82x120.size (by sl_kernel_rfl) y

theorem t1_read (g : ℕ) (hg : g < 16) (inb : ∀ a, ![g, 0, 0] a + S1x82x120.size a ≤ S16x82x120.size a) (m : Fin 82) (k : Fin 120) :
    arg8.view.readCov (kernelRun0_A.sl.HS0_16 (F := Ideal) c arg1 harg1 arg3 harg3 x0 x2)
      (Rect.unit (s := S16x82x120) ![g, 0, 0] S1x82x120.size inb).toLoadRect (ix3 (0 : Fin 1) m k) = T1 x0 x2 (ix3 (⟨g, hg⟩ : Fin 16) m k) := by
  rw [readCov_of_agree _ (T1 x0 x2) _ (agree_HS0 c arg1 harg1 arg3 harg3 x0 x2) (cover_HS0 c arg1 harg1 arg3 harg3 x0 x2)]
  exact congrArg (T1 x0 x2) (idx_unit3 _ _ inb _ _ _ _ (by show g = g + 0; omega) (by show m.val = 0 + m.val; omega) (by show k.val = 0 + k.val; omega))

/-- The same rows read as an 82 x 120 matrix. -/
theorem t1_read2 (g : ℕ) (hg : g < 16) (inb : ∀ a, ![g, 0, 0] a + S1x82x120.size a ≤ S16x82x120.size a) (m : Fin 82) (k : Fin 120) :
    shapeCast S82x120 (arg8.view.readCov (kernelRun0_A.sl.HS0_16 (F := Ideal) c arg1 harg1 arg3 harg3 x0 x2)
      (Rect.unit (s := S16x82x120) ![g, 0, 0] S1x82x120.size inb).toLoadRect) shapeCasts_S1x82x120_S82x120 (ix2 m k) = T1 x0 x2 (ix3 (⟨g, hg⟩ : Fin 16) m k) :=
  (shapeCast_1ab_ab_apply _ _ m k).trans (t1_read c arg1 harg1 arg3 harg3 arg8 x0 x2 g hg inb m k)

set_option maxHeartbeats 8000000 in
theorem agree_HS1 : ∀ p ∈ kernelRun0_A.sl.HS1_128 (F := Ideal) c arg1 harg1 arg2 harg2 arg3 harg3 arg4 harg4 arg8 x0 x1 x2 x3, Agree (H1 x0 x1 x2 x3) p := by
  unfold kernelRun0_A.sl.HS1_128
  iterate 128 (refine List.forall_mem_cons.2 ⟨?_, ?_⟩; swap)
  · exact fun _ h => absurd h List.not_mem_nil
  all_goals
    refine agreeH1 x0 x1 x2 x3 _ _ _ ?_ ?_ ?_ ?_ ?_ _ ?_ ?_ (kernelRun0_A.sl.r_1 c arg4 harg4 x3) _ _ (b1_read arg4 harg4 x3) (adj_read2 arg2 harg2 x1 _ _ _)
      (t1_read2 c arg1 harg1 arg3 harg3 arg8 x0 x2 _ _ _)
    all_goals decide

/-- The first layer's 128 stores (16 groups by 8 lane blocks) cover its panel. -/
theorem cover_HS1 (y : S16x82x120.Idx) :
    ∃ p ∈ kernelRun0_A.sl.HS1_128 (F := Ideal) c arg1 harg1 arg2 harg2 arg3 harg3 arg4 harg4 arg8 x0 x1 x2 x3, y ∈ p.1.set :=
  View.cover_of_tiledL (kernelRun0_A.sl.HS1_128 (F := Ideal) c arg1 harg1 arg2 harg2 arg3 harg3 arg4 harg4 arg8 x0 x1 x2 x3) S1x82x15.size (by sl_kernel_rfl) y

theorem h1_read (g : ℕ) (hg : g < 16) (inb : ∀ a, ![g, 0, 0] a + S1x82x120.size a ≤ S16x82x120.size a) (n : Fin 82) (k : Fin 120) :
    arg9.view.readCov (kernelRun0_A.sl.HS1_128 (F := Ideal) c arg1 harg1 arg2 harg2 arg3 harg3 arg4 harg4 arg8 x0 x1 x2 x3)
      (Rect.unit (s := S16x82x120) ![g, 0, 0] S1x82x120.size inb).toLoadRect (ix3 (0 : Fin 1) n k) = H1 x0 x1 x2 x3 (ix3 (⟨g, hg⟩ : Fin 16) n k) := by
  rw [readCov_of_agree _ (H1 x0 x1 x2 x3) _ (agree_HS1 c arg1 harg1 arg2 harg2 arg3 harg3 arg4 harg4 arg8 x0 x1 x2 x3)
    (cover_HS1 c arg1 harg1 arg2 harg2 arg3 harg3 arg4 harg4 arg8 x0 x1 x2 x3)]
  exact congrArg (H1 x0 x1 x2 x3) (idx_unit3 _ _ inb _ _ _ _ (by show g = g + 0; omega) (by show n.val = 0 + n.val; omega) (by show k.val = 0 + k.val; omega))

/-- The same rows read as an 82 x 120 matrix. -/
theorem h1_read2 (g : ℕ) (hg : g < 16) (inb : ∀ a, ![g, 0, 0] a + S1x82x120.size a ≤ S16x82x120.size a) (n : Fin 82) (k : Fin 120) :
    shapeCast S82x120 (arg9.view.readCov (kernelRun0_A.sl.HS1_128 (F := Ideal) c arg1 harg1 arg2 harg2 arg3 harg3 arg4 harg4 arg8 x0 x1 x2 x3)
      (Rect.unit (s := S16x82x120) ![g, 0, 0] S1x82x120.size inb).toLoadRect) shapeCasts_S1x82x120_S82x120 (ix2 n k) = H1 x0 x1 x2 x3 (ix3 (⟨g, hg⟩ : Fin 16) n k) :=
  (shapeCast_1ab_ab_apply _ _ n k).trans (h1_read c arg1 harg1 arg2 harg2 arg3 harg3 arg4 harg4 arg8 arg9 x0 x1 x2 x3 g hg inb n k)

theorem agree_HS2 : ∀ p ∈ kernelRun0_A.sl.HS2_16 (F := Ideal) c arg1 harg1 arg2 harg2 arg3 harg3 arg4 harg4 arg5 harg5 arg8 arg9 x0 x1 x2 x3 x4,
    Agree (T2 x0 x1 x2 x3 x4) p := by
  unfold kernelRun0_A.sl.HS2_16
  iterate 16 (refine List.forall_mem_cons.2 ⟨?_, ?_⟩; swap)
  · exact fun _ h => absurd h List.not_mem_nil
  all_goals
    refine agreeT2 x0 x1 x2 x3 x4 _ (by decide) _ _ _ ?_ ?_
    · exact w2_read arg5 harg5 x4
    · exact h1_read2 c arg1 harg1 arg2 harg2 arg3 harg3 arg4 harg4 arg8 arg9 x0 x1 x2 x3 _ _ _

theorem cover_HS2 (y : S16x82x120.Idx) :
    ∃ p ∈ kernelRun0_A.sl.HS2_16 (F := Ideal) c arg1 harg1 arg2 harg2 arg3 harg3 arg4 harg4 arg5 harg5 arg8 arg9 x0 x1 x2 x3 x4, y ∈ p.1.set :=
  View.cover_of_tiledL (kernelRun0_A.sl.HS2_16 (F := Ideal) c arg1 harg1 arg2 harg2 arg3 harg3 arg4 harg4 arg5 harg5 arg8 arg9 x0 x1 x2 x3 x4) S1x82x120.size (by sl_kernel_rfl) y

theorem t2_read (g : ℕ) (hg : g < 16) (inb : ∀ a, ![g, 0, 0] a + S1x82x120.size a ≤ S16x82x120.size a) (m : Fin 82) (k : Fin 120) :
    arg10.view.readCov (kernelRun0_A.sl.HS2_16 (F := Ideal) c arg1 harg1 arg2 harg2 arg3 harg3 arg4 harg4 arg5 harg5 arg8 arg9 x0 x1 x2 x3 x4)
      (Rect.unit (s := S16x82x120) ![g, 0, 0] S1x82x120.size inb).toLoadRect (ix3 (0 : Fin 1) m k) = T2 x0 x1 x2 x3 x4 (ix3 (⟨g, hg⟩ : Fin 16) m k) := by
  rw [readCov_of_agree _ (T2 x0 x1 x2 x3 x4) _ (agree_HS2 c arg1 harg1 arg2 harg2 arg3 harg3 arg4 harg4 arg5 harg5 arg8 arg9 x0 x1 x2 x3 x4)
    (cover_HS2 c arg1 harg1 arg2 harg2 arg3 harg3 arg4 harg4 arg5 harg5 arg8 arg9 x0 x1 x2 x3 x4)]
  exact congrArg (T2 x0 x1 x2 x3 x4) (idx_unit3 _ _ inb _ _ _ _ (by show g = g + 0; omega) (by show m.val = 0 + m.val; omega) (by show k.val = 0 + k.val; omega))

/-- The same rows read as an 82 x 120 matrix. -/
theorem t2_read2 (g : ℕ) (hg : g < 16) (inb : ∀ a, ![g, 0, 0] a + S1x82x120.size a ≤ S16x82x120.size a) (m : Fin 82) (k : Fin 120) :
    shapeCast S82x120 (arg10.view.readCov (kernelRun0_A.sl.HS2_16 (F := Ideal) c arg1 harg1 arg2 harg2 arg3 harg3 arg4 harg4 arg5 harg5 arg8 arg9 x0 x1 x2 x3 x4)
      (Rect.unit (s := S16x82x120) ![g, 0, 0] S1x82x120.size inb).toLoadRect) shapeCasts_S1x82x120_S82x120 (ix2 m k) = T2 x0 x1 x2 x3 x4 (ix3 (⟨g, hg⟩ : Fin 16) m k) :=
  (shapeCast_1ab_ab_apply _ _ m k).trans (t2_read c arg1 harg1 arg2 harg2 arg3 harg3 arg4 harg4 arg5 harg5 arg8 arg9 arg10 x0 x1 x2 x3 x4 g hg inb m k)

set_option maxHeartbeats 8000000 in
/-- Every store into the output block restricts `O`. -/
theorem agree_out (i : grid0.Coords) : ∀ p ∈ (kernelRun0_A (F := Ideal) c i arg1 harg1 arg2 harg2 arg3 harg3 arg4 harg4 arg5 harg5 arg6 harg6 arg7 harg7 arg8 harg8 arg9 harg9 arg10 harg10 x0 x1 x2 x3 x4 x5).1,
    Agree (O x0 x1 x2 x3 x4 x5) p := by
  unfold kernelRun0_A
  dsimp only
  iterate 128 (refine List.forall_mem_cons.2 ⟨?_, ?_⟩; swap)
  · exact fun _ h => absurd h List.not_mem_nil
  all_goals
    refine agreeO x0 x1 x2 x3 x4 x5 _ _ _ ?_ ?_ ?_ ?_ _ ?_ ?_ (kernelRun0_A.sl.r_3 c arg6 harg6 x5) _ _ (b2_read arg6 harg6 x5) (adj_read2 arg2 harg2 x1 _ _ _)
      (t2_read2 c arg1 harg1 arg2 harg2 arg3 harg3 arg4 harg4 arg5 harg5 arg8 arg9 arg10 x0 x1 x2 x3 x4 _ _ _)
    all_goals decide

/-- What the body leaves in the output's staging buffer is `O` of the six input blocks. -/
theorem out0_eq (i : grid0.Coords) :
    out0_A_6 (F := Ideal) c i arg1 harg1 arg2 harg2 arg3 harg3 arg4 harg4 arg5 harg5 arg6 harg6 arg7 harg7 arg8 harg8 arg9 harg9 arg10 harg10 x0 x1 x2 x3 x4 x5
      = O x0 x1 x2 x3 x4 x5 := by
  unfold out0_A_6
  funext y
  exact View.read_writes_apply_of_pieces _ _ (O x0 x1 x2 x3 x4 x5) _
    (agree_out c arg1 harg1 arg2 harg2 arg3 harg3 arg4 harg4 arg5 harg5 arg6 harg6 arg7 harg7 arg8 harg8 arg9 harg9 arg10 harg10 x0 x1 x2 x3 x4 x5 i) y
    (cover0_A_6 c i arg1 harg1 arg2 harg2 arg3 harg3 arg4 harg4 arg5 harg5 arg6 harg6 arg7 harg7 arg8 harg8 arg9 harg9 arg10 harg10 x0 x1 x2 x3 x4 x5 y)

end Run

end Cert.KernelIdeal.GcnBody

end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.GcnAlgebra.lean ====
/-
  The algebra that joins the graph-convolution kernel's packed panels to the layer-by-layer specification,
  over the extended reals.

  A group's 80 packed columns are 8 graphs x 10 features and the first weight is block-diagonal: a contraction over
  the 80 columns against column 15 i + e of the weight is a sum over the 8 blocks of the sums inside a block, and the
  diagonal structure leaves block i alone (a product with zero is zero for every extended real, the infinities
  included).  The same holds for the second weight with 120 = 8 x 15.  No distributivity and no cancellation is
  used, so nothing has to be finite.

  For the dense head, the kernel flattens a graph's 15 x 82 features feature-major (82 e + n) and the specification
  node-major (15 n + e); both 1230-term sums are the same double sum.
-/
import proofs.«116279_g79757542687100_cont_9to1c4b_149_25_alg».proof.Proof.GcnFun
import proofs.«116279_g79757542687100_cont_9to1c4b_149_25_alg».proof.Proof.Spec
import proofs.«116279_g79757542687100_cont_9to1c4b_149_25_alg».proof.Proof.LibBlockSumN

noncomputable section

open Idealize.ShloMosaic Idealize.ShloMosaic.ValueIdx Cert.KernelIdeal Cert.KernelIdeal.GcnBody Cert.GcnSpec
open scoped BigOperators

namespace Cert.KernelIdeal.GcnAlgebra

/-! ## A contraction against a block-diagonal weight -/

/-- If the weight's column vanishes outside block `i`, the contraction over `b · n` indices is the contraction
    over block `i` alone. -/
theorem sum_blockdiag {K : Nat} (b n : Nat) (hK : K = b * n) (f w : Fin K → EReal)
    (F : Fin b → Fin n → EReal) (V : Fin n → EReal) (i : Fin b)
    (hf : ∀ (j : Fin b) (s : Fin n), f ⟨j.val * n + s.val, hK ▸ Cert.BlockSumN.blk_lt j s⟩ = F j s)
    (hw : ∀ (j : Fin b) (s : Fin n),
      w ⟨j.val * n + s.val, hK ▸ Cert.BlockSumN.blk_lt j s⟩ = if j = i then V s else 0) :
    ∑ k : Fin K, f k * w k = ∑ s : Fin n, F i s * V s := by
  rw [Cert.BlockSumN.sum_blocks_of_eq b n hK]
  rw [Finset.sum_eq_single i]
  · refine Finset.sum_congr rfl fun s _ => ?_
    rw [hf, hw, if_pos rfl]
  · intro j _ hj
    refine Finset.sum_eq_zero fun s _ => ?_
    rw [hw, if_neg hj, mul_zero]
  · intro h
    exact absurd (Finset.mem_univ i) h

/-! ## Lanes and graphs by their coordinates -/

/-- Every lane below 120 is `15 i + e`. -/
theorem lane_decomp (c : Fin 120) : ∃ (i : Fin 8) (e : Fin 15), c = (⟨15 * i.val + e.val, by omega⟩ : Fin 120) :=
  ⟨⟨c.val / 15, by omega⟩, ⟨c.val % 15, by omega⟩, Fin.ext (by show c.val = 15 * (c.val / 15) + c.val % 15; omega)⟩

/-- Every graph below 128 is `8 g + i`. -/
theorem graph_decomp (b : Fin 128) : ∃ (g : Fin 16) (i : Fin 8), b = (⟨8 * g.val + i.val, by omega⟩ : Fin 128) :=
  ⟨⟨b.val / 8, by omega⟩, ⟨b.val % 8, by omega⟩, Fin.ext (by show b.val = 8 * (b.val / 8) + b.val % 8; omega)⟩

/-- Lane `15 i + e` of group `g` belongs to graph `8 g + i`. -/
theorem graphOf_lane (g : Fin 16) (i : Fin 8) (e : Fin 15) :
    graphOf g (⟨15 * i.val + e.val, by omega⟩ : Fin 120) = (⟨8 * g.val + i.val, by omega⟩ : Fin 128) :=
  Fin.ext (by show 8 * g.val + (15 * i.val + e.val) / 15 = 8 * g.val + i.val; omega)

/-- Graph `8 g + i` is in group `g`. -/
theorem groupOf_mk (g : Fin 16) (i : Fin 8) : groupOf (⟨8 * g.val + i.val, by omega⟩ : Fin 128) = g :=
  Fin.ext (by show (8 * g.val + i.val) / 8 = g.val; omega)

/-- Feature `e` of graph `8 g + i` sits in lane `15 i + e`. -/
theorem laneOf_mk (g : Fin 16) (i : Fin 8) (e : Fin 15) :
    laneOf (⟨8 * g.val + i.val, by omega⟩ : Fin 128) e = (⟨15 * i.val + e.val, by omega⟩ : Fin 120) :=
  Fin.ext (by show 15 * ((8 * g.val + i.val) % 8) + e.val = 15 * i.val + e.val; omega)

/-! ## The two layers, lane by lane -/

section Layers

variable (x : A3 4096 82 10) (adj : A3 4096 82 82) (W1 : A2 10 15) (b1 : A1 15) (W2 : A2 15 15) (b2 : A1 15) (t : Fin 32)
  (x0 : S16x82x80.Idx → EReal) (x1 : S128x82x82.Idx → EReal) (x2 : S80x120.Idx → EReal)
  (x3 : S1x120.Idx → EReal) (x4 : S120x120.Idx → EReal) (x5 : S1x120.Idx → EReal)

/-- The first panel at lane `15 i + e` of group `g` is graph `8 (16 t + g) + i`'s features times the first
    weight: the other seven blocks of the packed row meet zeros. -/
theorem T1_lane
    (hx0 : ∀ (g : Fin 16) (n : Fin 82) (j : Fin 8) (s : Fin 10),
      x0 (ix3 g n (⟨10 * j.val + s.val, by omega⟩ : Fin 80)) = x (ix3 (⟨8 * (16 * t.val + g.val) + j.val, by omega⟩ : Fin 4096) n s))
    (hx2 : ∀ (j i : Fin 8) (s : Fin 10) (e : Fin 15),
      x2 (ix2 (⟨10 * j.val + s.val, by omega⟩ : Fin 80) (⟨15 * i.val + e.val, by omega⟩ : Fin 120)) = if j = i then W1 (ix2 s e) else 0)
    (g : Fin 16) (n : Fin 82) (i : Fin 8) (e : Fin 15) :
    T1 x0 x2 (ix3 g n (⟨15 * i.val + e.val, by omega⟩ : Fin 120))
      = xw x W1 (⟨8 * (16 * t.val + g.val) + i.val, by omega⟩ : Fin 4096) n e := by
  refine sum_blockdiag 8 10 (by norm_num) (fun k : Fin 80 => x0 (ix3 g n k))
    (fun k : Fin 80 => x2 (ix2 k (⟨15 * i.val + e.val, by omega⟩ : Fin 120)))
    (fun (j : Fin 8) (s : Fin 10) => x (ix3 (⟨8 * (16 * t.val + g.val) + j.val, by omega⟩ : Fin 4096) n s))
    (fun s : Fin 10 => W1 (ix2 s e)) i ?_ ?_
  · intro j s
    have hk : (⟨j.val * 10 + s.val, (by omega : j.val * 10 + s.val < 80)⟩ : Fin 80) = ⟨10 * j.val + s.val, by omega⟩ :=
      Fin.ext (by show j.val * 10 + s.val = 10 * j.val + s.val; omega)
    exact (congrArg (fun k : Fin 80 => x0 (ix3 g n k)) hk).trans (hx0 g n j s)
  · intro j s
    have hk : (⟨j.val * 10 + s.val, (by omega : j.val * 10 + s.val < 80)⟩ : Fin 80) = ⟨10 * j.val + s.val, by omega⟩ :=
      Fin.ext (by show j.val * 10 + s.val = 10 * j.val + s.val; omega)
    exact (congrArg (fun k : Fin 80 => x2 (ix2 k (⟨15 * i.val + e.val, by omega⟩ : Fin 120))) hk).trans (hx2 j i s e)

/-- The first layer at lane `15 i + e` of group `g` is the specification's first layer of graph
    `8 (16 t + g) + i`. -/
theorem H1_lane
    (hx0 : ∀ (g : Fin 16) (n : Fin 82) (j : Fin 8) (s : Fin 10),
      x0 (ix3 g n (⟨10 * j.val + s.val, by omega⟩ : Fin 80)) = x (ix3 (⟨8 * (16 * t.val + g.val) + j.val, by omega⟩ : Fin 4096) n s))
    (hx1 : ∀ (b : Fin 128) (n m : Fin 82), x1 (ix3 b n m) = adj (ix3 (⟨128 * t.val + b.val, by omega⟩ : Fin 4096) n m))
    (hx2 : ∀ (j i : Fin 8) (s : Fin 10) (e : Fin 15),
      x2 (ix2 (⟨10 * j.val + s.val, by omega⟩ : Fin 80) (⟨15 * i.val + e.val, by omega⟩ : Fin 120)) = if j = i then W1 (ix2 s e) else 0)
    (hx3 : ∀ (i : Fin 8) (e : Fin 15), x3 (ix2 (0 : Fin 1) (⟨15 * i.val + e.val, by omega⟩ : Fin 120)) = b1 (ix1 e))
    (g : Fin 16) (n : Fin 82) (i : Fin 8) (e : Fin 15) :
    H1 x0 x1 x2 x3 (ix3 g n (⟨15 * i.val + e.val, by omega⟩ : Fin 120))
      = h1 x adj W1 b1 (⟨8 * (16 * t.val + g.val) + i.val, by omega⟩ : Fin 4096) n e := by
  have hadj : ∀ m : Fin 82, x1 (ix3 (graphOf g (⟨15 * i.val + e.val, by omega⟩ : Fin 120)) n m)
      = adj (ix3 (⟨8 * (16 * t.val + g.val) + i.val, by omega⟩ : Fin 4096) n m) := by
    intro m
    rw [graphOf_lane g i e, hx1]
    exact congrArg (fun k : Fin 4096 => adj (ix3 k n m))
      (Fin.ext (by show 128 * t.val + (8 * g.val + i.val) = 8 * (16 * t.val + g.val) + i.val; omega))
  show max ((∑ m : Fin 82, x1 (ix3 (graphOf g (⟨15 * i.val + e.val, by omega⟩ : Fin 120)) n m)
        * T1 x0 x2 (ix3 g m (⟨15 * i.val + e.val, by omega⟩ : Fin 120)))
      + x3 (ix2 (0 : Fin 1) (⟨15 * i.val + e.val, by omega⟩ : Fin 120))) 0
    = max ((∑ m : Fin 82, adj (ix3 (⟨8 * (16 * t.val + g.val) + i.val, by omega⟩ : Fin 4096) n m)
        * xw x W1 (⟨8 * (16 * t.val + g.val) + i.val, by omega⟩ : Fin 4096) m e) + b1 (ix1 e)) 0
  rw [hx3 i e]
  congr 2
  refine Finset.sum_congr rfl fun m _ => ?_
  rw [hadj m, T1_lane x W1 t x0 x2 hx0 hx2 g m i e]

/-- The second panel at lane `15 i + f` of group `g` is graph `8 (16 t + g) + i`'s first layer times the second
    weight. -/
theorem T2_lane
    (hx0 : ∀ (g : Fin 16) (n : Fin 82) (j : Fin 8) (s : Fin 10),
      x0 (ix3 g n (⟨10 * j.val + s.val, by omega⟩ : Fin 80)) = x (ix3 (⟨8 * (16 * t.val + g.val) + j.val, by omega⟩ : Fin 4096) n s))
    (hx1 : ∀ (b : Fin 128) (n m : Fin 82), x1 (ix3 b n m) = adj (ix3 (⟨128 * t.val + b.val, by omega⟩ : Fin 4096) n m))
    (hx2 : ∀ (j i : Fin 8) (s : Fin 10) (e : Fin 15),
      x2 (ix2 (⟨10 * j.val + s.val, by omega⟩ : Fin 80) (⟨15 * i.val + e.val, by omega⟩ : Fin 120)) = if j = i then W1 (ix2 s e) else 0)
    (hx3 : ∀ (i : Fin 8) (e : Fin 15), x3 (ix2 (0 : Fin 1) (⟨15 * i.val + e.val, by omega⟩ : Fin 120)) = b1 (ix1 e))
    (hx4 : ∀ (j i : Fin 8) (e f : Fin 15),
      x4 (ix2 (⟨15 * j.val + e.val, by omega⟩ : Fin 120) (⟨15 * i.val + f.val, by omega⟩ : Fin 120)) = if j = i then W2 (ix2 e f) else 0)
    (g : Fin 16) (n : Fin 82) (i : Fin 8) (f : Fin 15) :
    T2 x0 x1 x2 x3 x4 (ix3 g n (⟨15 * i.val + f.val, by omega⟩ : Fin 120))
      = hw x adj W1 b1 W2 (⟨8 * (16 * t.val + g.val) + i.val, by omega⟩ : Fin 4096) n f := by
  refine sum_blockdiag 8 15 (by norm_num) (fun k : Fin 120 => H1 x0 x1 x2 x3 (ix3 g n k))
    (fun k : Fin 120 => x4 (ix2 k (⟨15 * i.val + f.val, by omega⟩ : Fin 120)))
    (fun (j : Fin 8) (e : Fin 15) => h1 x adj W1 b1 (⟨8 * (16 * t.val + g.val) + j.val, by omega⟩ : Fin 4096) n e)
    (fun e : Fin 15 => W2 (ix2 e f)) i ?_ ?_
  · intro j e
    have hk : (⟨j.val * 15 + e.val, (by omega : j.val * 15 + e.val < 120)⟩ : Fin 120) = ⟨15 * j.val + e.val, by omega⟩ :=
      Fin.ext (by show j.val * 15 + e.val = 15 * j.val + e.val; omega)
    exact (congrArg (fun k : Fin 120 => H1 x0 x1 x2 x3 (ix3 g n k)) hk).trans
      (H1_lane x adj W1 b1 t x0 x1 x2 x3 hx0 hx1 hx2 hx3 g n j e)
  · intro j e
    have hk : (⟨j.val * 15 + e.val, (by omega : j.val * 15 + e.val < 120)⟩ : Fin 120) = ⟨15 * j.val + e.val, by omega⟩ :=
      Fin.ext (by show j.val * 15 + e.val = 15 * j.val + e.val; omega)
    exact (congrArg (fun k : Fin 120 => x4 (ix2 k (⟨15 * i.val + f.val, by omega⟩ : Fin 120))) hk).trans (hx4 j i e f)

end Layers

/-- The block's result at graph `b`, feature `e`, node `n` is the specification's second layer of graph
    `128 t + b`. -/
theorem O_eq_h2 (x : A3 4096 82 10) (adj : A3 4096 82 82) (W1 : A2 10 15) (b1 : A1 15) (W2 : A2 15 15) (b2 : A1 15) (t : Fin 32)
    (x0 : S16x82x80.Idx → EReal) (x1 : S128x82x82.Idx → EReal) (x2 : S80x120.Idx → EReal)
    (x3 : S1x120.Idx → EReal) (x4 : S120x120.Idx → EReal) (x5 : S1x120.Idx → EReal)
    (hx0 : ∀ (g : Fin 16) (n : Fin 82) (j : Fin 8) (s : Fin 10),
      x0 (ix3 g n (⟨10 * j.val + s.val, by omega⟩ : Fin 80)) = x (ix3 (⟨8 * (16 * t.val + g.val) + j.val, by omega⟩ : Fin 4096) n s))
    (hx1 : ∀ (b : Fin 128) (n m : Fin 82), x1 (ix3 b n m) = adj (ix3 (⟨128 * t.val + b.val, by omega⟩ : Fin 4096) n m))
    (hx2 : ∀ (j i : Fin 8) (s : Fin 10) (e : Fin 15),
      x2 (ix2 (⟨10 * j.val + s.val, by omega⟩ : Fin 80) (⟨15 * i.val + e.val, by omega⟩ : Fin 120)) = if j = i then W1 (ix2 s e) else 0)
    (hx3 : ∀ (i : Fin 8) (e : Fin 15), x3 (ix2 (0 : Fin 1) (⟨15 * i.val + e.val, by omega⟩ : Fin 120)) = b1 (ix1 e))
    (hx4 : ∀ (j i : Fin 8) (e f : Fin 15),
      x4 (ix2 (⟨15 * j.val + e.val, by omega⟩ : Fin 120) (⟨15 * i.val + f.val, by omega⟩ : Fin 120)) = if j = i then W2 (ix2 e f) else 0)
    (hx5 : ∀ (i : Fin 8) (e : Fin 15), x5 (ix2 (0 : Fin 1) (⟨15 * i.val + e.val, by omega⟩ : Fin 120)) = b2 (ix1 e))
    (b : Fin 128) (e : Fin 15) (n : Fin 82) :
    O x0 x1 x2 x3 x4 x5 (ix3 b e n) = h2 x adj W1 b1 W2 b2 (⟨128 * t.val + b.val, by omega⟩ : Fin 4096) n e := by
  obtain ⟨g, i, rfl⟩ := graph_decomp b
  have hB : (⟨128 * t.val + (8 * g.val + i.val), by omega⟩ : Fin 4096)
      = (⟨8 * (16 * t.val + g.val) + i.val, by omega⟩ : Fin 4096) :=
    Fin.ext (by show 128 * t.val + (8 * g.val + i.val) = 8 * (16 * t.val + g.val) + i.val; omega)
  show max ((∑ m : Fin 82, x1 (ix3 (⟨8 * g.val + i.val, by omega⟩ : Fin 128) n m)
        * T2 x0 x1 x2 x3 x4 (ix3 (groupOf (⟨8 * g.val + i.val, by omega⟩ : Fin 128)) m
            (laneOf (⟨8 * g.val + i.val, by omega⟩ : Fin 128) e)))
      + x5 (ix2 (0 : Fin 1) (laneOf (⟨8 * g.val + i.val, by omega⟩ : Fin 128) e))) 0
    = max ((∑ m : Fin 82, adj (ix3 (⟨128 * t.val + (8 * g.val + i.val), by omega⟩ : Fin 4096) n m)
        * hw x adj W1 b1 W2 (⟨128 * t.val + (8 * g.val + i.val), by omega⟩ : Fin 4096) m e) + b2 (ix1 e)) 0
  rw [groupOf_mk g i, laneOf_mk g i e, hx5 i e, hB]
  congr 2
  refine Finset.sum_congr rfl fun m _ => ?_
  rw [hx1, T2_lane x adj W1 b1 W2 t x0 x1 x2 x3 x4 hx0 hx1 hx2 hx3 hx4 g m i e]
  exact congrArg (fun k : Fin 4096 => adj (ix3 k n m) * hw x adj W1 b1 W2 (⟨8 * (16 * t.val + g.val) + i.val, by omega⟩ : Fin 4096) m e) hB

/-! ## The dense head: two flattenings of a graph's features -/

/-- Flattened feature `15 n + e` (written with the block first) has node `n` … -/
theorem nodeOf_blk (n : Fin 82) (e : Fin 15) (h : n.val * 15 + e.val < 1230) : nodeOf ⟨n.val * 15 + e.val, h⟩ = n :=
  Fin.ext (by show (n.val * 15 + e.val) / 15 = n.val; omega)

/-- … and feature `e`. -/
theorem featOf_blk (n : Fin 82) (e : Fin 15) (h : n.val * 15 + e.val < 1230) : featOf ⟨n.val * 15 + e.val, h⟩ = e :=
  Fin.ext (by show (n.val * 15 + e.val) % 15 = e.val; omega)

/-- The kernel's feature-major contraction over a graph's 1230 features is the specification's node-major one: both
    are the double sum over nodes and features. -/
theorem flat_sum (x : A3 4096 82 10) (adj : A3 4096 82 82) (W1 : A2 10 15) (b1 : A1 15) (W2 : A2 15 15) (b2 : A1 15)
    (fW : A2 1230 300)
    (X : S4096x1230.Idx → EReal) (W : S1230x300.Idx → EReal)
    (hX : ∀ (b : Fin 4096) (e : Fin 15) (n : Fin 82), X (ix2 b (⟨82 * e.val + n.val, by omega⟩ : Fin 1230)) = h2 x adj W1 b1 W2 b2 b n e)
    (hW : ∀ (e : Fin 15) (n : Fin 82) (h : Fin 300), W (ix2 (⟨82 * e.val + n.val, by omega⟩ : Fin 1230) h) = fW (ix2 (⟨15 * n.val + e.val, by omega⟩ : Fin 1230) h))
    (r : Fin 4096) (h : Fin 300) :
    ∑ k : Fin 1230, X (ix2 r k) * W (ix2 k h)
      = ∑ k : Fin 1230, h2 x adj W1 b1 W2 b2 r (nodeOf k) (featOf k) * fW (ix2 k h) := by
  rw [Cert.BlockSumN.sum_blocks_of_eq 15 82 (by norm_num) (fun k : Fin 1230 => X (ix2 r k) * W (ix2 k h)),
    Cert.BlockSumN.sum_blocks_of_eq 82 15 (by norm_num)
      (fun k : Fin 1230 => h2 x adj W1 b1 W2 b2 r (nodeOf k) (featOf k) * fW (ix2 k h)),
    Finset.sum_comm]
  refine Finset.sum_congr rfl fun n _ => Finset.sum_congr rfl fun e _ => ?_
  have hk : (⟨e.val * 82 + n.val, (by omega : e.val * 82 + n.val < 1230)⟩ : Fin 1230) = ⟨82 * e.val + n.val, by omega⟩ :=
    Fin.ext (by show e.val * 82 + n.val = 82 * e.val + n.val; omega)
  have hk' : (⟨n.val * 15 + e.val, (by omega : n.val * 15 + e.val < 1230)⟩ : Fin 1230) = ⟨15 * n.val + e.val, by omega⟩ :=
    Fin.ext (by show n.val * 15 + e.val = 15 * n.val + e.val; omega)
  show X (ix2 r (⟨e.val * 82 + n.val, (by omega : e.val * 82 + n.val < 1230)⟩ : Fin 1230))
      * W (ix2 (⟨e.val * 82 + n.val, (by omega : e.val * 82 + n.val < 1230)⟩ : Fin 1230) h)
    = h2 x adj W1 b1 W2 b2 r (nodeOf ⟨n.val * 15 + e.val, (by omega : n.val * 15 + e.val < 1230)⟩)
        (featOf ⟨n.val * 15 + e.val, (by omega : n.val * 15 + e.val < 1230)⟩)
      * fW (ix2 (⟨n.val * 15 + e.val, (by omega : n.val * 15 + e.val < 1230)⟩ : Fin 1230) h)
  rw [nodeOf_blk, featOf_blk, hk, hk', hX r e n, hW e n h]

/-- The dense head on the kernel's flattening is the specification's result. -/
theorem head_eq (x : A3 4096 82 10) (adj : A3 4096 82 82) (W1 : A2 10 15) (b1 : A1 15) (W2 : A2 15 15) (b2 : A1 15)
    (fW : A2 1230 300) (fb : A1 300) (oW : A2 300 29) (ob : A1 29)
    (X : S4096x1230.Idx → EReal) (W : S1230x300.Idx → EReal) (bb : S1x300.Idx → EReal) (OW : S300x29.Idx → EReal) (obb : S1x29.Idx → EReal)
    (hX : ∀ (b : Fin 4096) (e : Fin 15) (n : Fin 82), X (ix2 b (⟨82 * e.val + n.val, by omega⟩ : Fin 1230)) = h2 x adj W1 b1 W2 b2 b n e)
    (hW : ∀ (e : Fin 15) (n : Fin 82) (h : Fin 300), W (ix2 (⟨82 * e.val + n.val, by omega⟩ : Fin 1230) h) = fW (ix2 (⟨15 * n.val + e.val, by omega⟩ : Fin 1230) h))
    (hb : ∀ h : Fin 300, bb (ix2 (0 : Fin 1) h) = fb (ix1 h))
    (hO : ∀ (h : Fin 300) (q : Fin 29), OW (ix2 h q) = oW (ix2 h q))
    (hob : ∀ q : Fin 29, obb (ix2 (0 : Fin 1) q) = ob (ix1 q))
    (r : Fin 4096) (q : Fin 29) :
    (∑ h : Fin 300, max ((∑ k : Fin 1230, X (ix2 r k) * W (ix2 k h)) + bb (ix2 (0 : Fin 1) h)) 0 * OW (ix2 h q)) + obb (ix2 (0 : Fin 1) q)
      = out x adj W1 b1 W2 b2 fW fb oW ob r q := by
  show _ = (∑ h : Fin 300, max ((∑ k : Fin 1230, h2 x adj W1 b1 W2 b2 r (nodeOf k) (featOf k) * fW (ix2 k h)) + fb (ix1 h)) 0
      * oW (ix2 h q)) + ob (ix1 q)
  rw [hob q]
  congr 1
  refine Finset.sum_congr rfl fun h _ => ?_
  rw [flat_sum x adj W1 b1 W2 b2 fW X W hX hW r h, hb h, hO h q]

end Cert.KernelIdeal.GcnAlgebra

end
-- ==== Proof.Gcn0Array.lean ====
/-
  The first region of the kernel: the two graph-convolution layers. Each of the 32 grid points takes 128 graphs: their
  adjacency matrices [128,82,82], and their node features packed 8 graphs side by side, [16,82,80]; the two weights are
  held whole as block-diagonal matrices (8 copies of W1 [10,15], of W2 [15,15], on the diagonal), the two biases whole as
  rows tiled 8 times along the 120 lanes. The block a point writes back, [128,15,82], is one function of its six input
  blocks, and on blocks that are these readings of the six arguments that function is the second layer
      h2 b n e = max (Σ_m adj[b,n,m] · (Σ_f h1 b m f · W2[f,e]) + b2[e]) 0
  at graph b = 128 t + (graph in the block), stored feature-major (entry (b, e, n)). The 32 blocks of 128 graphs tile the
  4096 graphs, hence the whole output array is h2 of the six arguments.
-/
import proofs.«116279_g79757542687100_cont_9to1c4b_149_25_alg».proof.Proof.KernelIdealFrameP
import proofs.«116279_g79757542687100_cont_9to1c4b_149_25_alg».proof.Proof.Glue
import proofs.«116279_g79757542687100_cont_9to1c4b_149_25_alg».proof.Proof.Spec
import proofs.«116279_g79757542687100_cont_9to1c4b_149_25_alg».proof.Proof.GcnFun
import proofs.«116279_g79757542687100_cont_9to1c4b_149_25_alg».proof.Proof.GcnBody
import proofs.«116279_g79757542687100_cont_9to1c4b_149_25_alg».proof.Proof.GcnAlgebra
import Idealize.ShloMosaic.Lib.Pipeline.Value
import Idealize.ShloMosaic.Lib.ValueIdx
import Idealize.ShloMosaic.Lib.ValueLayout

noncomputable section

namespace Cert.KernelIdeal.Gcn0Array

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.GcnSpec (A1 A2 A3 h2)

/-! ## The printed index maps -/

/-- The index maps of the three moving windows, decided over the 32 points: the packed features, the adjacency and the
    output all move down their first axis, point `t` at block `t`, and stay at the origin on the other two. -/
theorem idx_moving : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The index maps of the four whole-array windows (the two weights and the two bias rows): the origin at every point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The grid has 32 points. -/
theorem lt32 (t : Fin cfg0.N) : t.val < 32 := by
  have h : t.val < grid0.N := t.isLt
  rw [N_0] at h
  exact h

variable (m : (ℓ : Loc nD τ sig) → Buf (Elt Ideal) ℓ) (ρ : Dev nD → PrngReg)

/-- The second graph-convolution layer of the six arguments, stored feature-major: entry (b, e, n) is h2 b n e. -/
def layer2 (c : Dev nD) : S4096x15x82.Idx → EReal :=
  fun y => h2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 2) (y 1)

/-! ## The six input blocks of a point, read off the arguments -/

/-- The adjacency block of point `t` is graphs `128 t … 128 t + 127` of the adjacency argument. -/
theorem adj_block (c : Dev nD) (t : Fin cfg0.N) (b : Fin 128) (n k : Fin 82) :
    (iblk0 (F := Ideal) (V5 m ρ) c 1 t : S128x82x82.Idx → EReal) (ix3 b n k)
      = (m ((c : Thread nD τ).loc main_arg1) : S4096x82x82.Idx → EReal)
          (ix3 (⟨128 * t.val + b.val, by have := lt32 t; omega⟩ : Fin 4096) n k) := by
  obtain ⟨-, -, -, e0, e1, e2, -⟩ := idx_moving t
  show (V5 m ρ c main_arg1 : S4096x82x82.Idx → EReal) (((cfg0.win 1).blk t).view.emb (ix3 b n k)) = _
  rw [GlueValue.adj5]
  refine congrArg (m ((c : Thread nD τ).loc main_arg1) : S4096x82x82.Idx → EReal) (funext fun a => Fin.ext ?_)
  match a with
  | ⟨0, _⟩ => show win0_1.index t (0 : Fin 3) * 128 + 1 * b.val = 128 * t.val + b.val; omega
  | ⟨1, _⟩ => show win0_1.index t (1 : Fin 3) * 82 + 1 * n.val = n.val; omega
  | ⟨2, _⟩ => show win0_1.index t (2 : Fin 3) * 82 + 1 * k.val = k.val; omega

/-- The packed-feature block of point `t` is groups `16 t … 16 t + 15` of the packed features, and lane `10 j + s` of
    node `n` of group `g'` of those holds feature `s` of node `n` of graph `8 g' + j` of the feature argument. -/
theorem feat_block (c : Dev nD) (t : Fin cfg0.N) (g : Fin 16) (n : Fin 82) (j : Fin 8) (s : Fin 10) :
    (iblk0 (F := Ideal) (V5 m ρ) c 0 t : S16x82x80.Idx → EReal) (ix3 g n (⟨10 * j.val + s.val, by omega⟩ : Fin 80))
      = (m ((c : Thread nD τ).loc main_arg0) : S4096x82x10.Idx → EReal)
          (ix3 (⟨8 * (16 * t.val + g.val) + j.val, by have := lt32 t; omega⟩ : Fin 4096) n s) := by
  obtain ⟨e0, e1, e2, -⟩ := idx_moving t
  have ht := lt32 t
  refine Eq.trans ?_ (GlueValue.xpk m ρ c (⟨16 * t.val + g.val, by omega⟩ : Fin 512) n j s)
  show (V5 m ρ c main_v22 : S512x82x80.Idx → EReal) (((cfg0.win 0).blk t).view.emb (ix3 g n (⟨10 * j.val + s.val, by omega⟩ : Fin 80)))
    = (V5 m ρ c main_v22 : S512x82x80.Idx → EReal) (ix3 (⟨16 * t.val + g.val, by omega⟩ : Fin 512) n (⟨10 * j.val + s.val, by omega⟩ : Fin 80))
  refine congrArg (V5 m ρ c main_v22 : S512x82x80.Idx → EReal) (funext fun a => Fin.ext ?_)
  match a with
  | ⟨0, _⟩ => show win0_0.index t (0 : Fin 3) * 16 + 1 * g.val = 16 * t.val + g.val; omega
  | ⟨1, _⟩ => show win0_0.index t (1 : Fin 3) * 82 + 1 * n.val = n.val; omega
  | ⟨2, _⟩ => show win0_0.index t (2 : Fin 3) * 80 + 1 * (10 * j.val + s.val) = 10 * j.val + s.val; omega

/-- The first weight's window holds the whole block-diagonal array at every point. -/
theorem w1_block (c : Dev nD) (t : Fin cfg0.N) :
    (iblk0 (F := Ideal) (V5 m ρ) c 2 t : S80x120.Idx → EReal) = V5 m ρ c main_v7 := by
  obtain ⟨e0, e1, -⟩ := idx_whole t
  funext y
  show (V5 m ρ c main_v7 : S80x120.Idx → EReal) (((cfg0.win 2).blk t).view.emb y) = (V5 m ρ c main_v7 : S80x120.Idx → EReal) y
  refine congrArg (V5 m ρ c main_v7 : S80x120.Idx → EReal) (funext fun a => Fin.ext ?_)
  match a with
  | ⟨0, _⟩ => show win0_2.index t (0 : Fin 2) * 80 + 1 * (y 0).val = (y 0).val; omega
  | ⟨1, _⟩ => show win0_2.index t (1 : Fin 2) * 120 + 1 * (y 1).val = (y 1).val; omega

/-- The first bias row's window holds the whole tiled row at every point. -/
theorem b1_block (c : Dev nD) (t : Fin cfg0.N) :
    (iblk0 (F := Ideal) (V5 m ρ) c 3 t : S1x120.Idx → EReal) = V5 m ρ c main_v13 := by
  obtain ⟨-, -, e0, e1, -⟩ := idx_whole t
  funext y
  show (V5 m ρ c main_v13 : S1x120.Idx → EReal) (((cfg0.win 3).blk t).view.emb y) = (V5 m ρ c main_v13 : S1x120.Idx → EReal) y
  refine congrArg (V5 m ρ c main_v13 : S1x120.Idx → EReal) (funext fun a => Fin.ext ?_)
  match a with
  | ⟨0, _⟩ => show win0_3.index t (0 : Fin 2) * 1 + 1 * (y 0).val = (y 0).val; omega
  | ⟨1, _⟩ => show win0_3.index t (1 : Fin 2) * 120 + 1 * (y 1).val = (y 1).val; omega

/-- The second weight's window holds the whole block-diagonal array at every point. -/
theorem w2_block (c : Dev nD) (t : Fin cfg0.N) :
    (iblk0 (F := Ideal) (V5 m ρ) c 4 t : S120x120.Idx → EReal) = V5 m ρ c main_v9 := by
  obtain ⟨-, -, -, -, e0, e1, -⟩ := idx_whole t
  funext y
  show (V5 m ρ c main_v9 : S120x120.Idx → EReal) (((cfg0.win 4).blk t).view.emb y) = (V5 m ρ c main_v9 : S120x120.Idx → EReal) y
  refine congrArg (V5 m ρ c main_v9 : S120x120.Idx → EReal) (funext fun a => Fin.ext ?_)
  match a with
  | ⟨0, _⟩ => show win0_4.index t (0 : Fin 2) * 120 + 1 * (y 0).val = (y 0).val; omega
  | ⟨1, _⟩ => show win0_4.index t (1 : Fin 2) * 120 + 1 * (y 1).val = (y 1).val; omega

/-- The second bias row's window holds the whole tiled row at every point. -/
theorem b2_block (c : Dev nD) (t : Fin cfg0.N) :
    (iblk0 (F := Ideal) (V5 m ρ) c 5 t : S1x120.Idx → EReal) = V5 m ρ c main_v17 := by
  obtain ⟨-, -, -, -, -, -, e0, e1⟩ := idx_whole t
  funext y
  show (V5 m ρ c main_v17 : S1x120.Idx → EReal) (((cfg0.win 5).blk t).view.emb y) = (V5 m ρ c main_v17 : S1x120.Idx → EReal) y
  refine congrArg (V5 m ρ c main_v17 : S1x120.Idx → EReal) (funext fun a => Fin.ext ?_)
  match a with
  | ⟨0, _⟩ => show win0_5.index t (0 : Fin 2) * 1 + 1 * (y 0).val = (y 0).val; omega
  | ⟨1, _⟩ => show win0_5.index t (1 : Fin 2) * 120 + 1 * (y 1).val = (y 1).val; omega

/-! ## From the blocks to the whole array -/

/-- What point `t` writes back is block `t` of the second layer of the six arguments: the body leaves the block
    function `O` of its six input blocks, the blocks are the readings above of the arguments, and on such blocks `O` at
    (b, e, n) is h2 at graph 128 t + b. -/
theorem flushed_eq (c : Dev nD) (t : Fin cfg0.N) :
    (dat0 (F := Ideal) (V5 m ρ) c).flushed 6 t = ((cfg0.win 6).blk t).view.read (Elt Ideal) (layer2 m c) := by
  show (cfg0.win 6).cut (grid0.coords t) ((dat0 (F := Ideal) (V5 m ρ) c).after 6 t) = _
  rw [after0_6]
  unfold outsAt0
  rw [GcnBody.out0_eq]
  obtain ⟨-, -, -, -, -, -, e0, e1, e2⟩ := idx_moving t
  funext y
  obtain ⟨b, e, n, rfl⟩ : ∃ (b : Fin 128) (e : Fin 15) (n : Fin 82), y = ix3 b e n := ⟨y 0, y 1, y 2, eq_ix3 y⟩
  show GcnBody.O (iblk0 (F := Ideal) (V5 m ρ) c 0 t) (iblk0 (F := Ideal) (V5 m ρ) c 1 t) (iblk0 (F := Ideal) (V5 m ρ) c 2 t)
      (iblk0 (F := Ideal) (V5 m ρ) c 3 t) (iblk0 (F := Ideal) (V5 m ρ) c 4 t) (iblk0 (F := Ideal) (V5 m ρ) c 5 t) (ix3 b e n)
    = layer2 m c (((cfg0.win 6).blk t).view.emb (ix3 b e n))
  refine (GcnAlgebra.O_eq_h2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (⟨t.val, lt32 t⟩ : Fin 32)
    (iblk0 (F := Ideal) (V5 m ρ) c 0 t) (iblk0 (F := Ideal) (V5 m ρ) c 1 t) (iblk0 (F := Ideal) (V5 m ρ) c 2 t)
    (iblk0 (F := Ideal) (V5 m ρ) c 3 t) (iblk0 (F := Ideal) (V5 m ρ) c 4 t) (iblk0 (F := Ideal) (V5 m ρ) c 5 t)
    (fun g n j s => feat_block m ρ c t g n j s)
    (fun b n k => adj_block m ρ c t b n k)
    (fun j i s e => (congrFun (w1_block m ρ c t) _).trans (GlueValue.w1bd m ρ c j i s e))
    (fun i e => (congrFun (b1_block m ρ c t) _).trans (GlueValue.b1r m ρ c i e))
    (fun j i e f => (congrFun (w2_block m ρ c t) _).trans (GlueValue.w2bd m ρ c j i e f))
    (fun i e => (congrFun (b2_block m ρ c t) _).trans (GlueValue.b2r m ρ c i e))
    b e n).trans ?_
  have ht := lt32 t
  have c0 : (((cfg0.win 6).blk t).view.emb (ix3 b e n)) 0 = (⟨128 * t.val + b.val, by omega⟩ : Fin 4096) :=
    Fin.ext (by show win0_6.index t (0 : Fin 3) * 128 + 1 * b.val = 128 * t.val + b.val; omega)
  have c1 : (((cfg0.win 6).blk t).view.emb (ix3 b e n)) 1 = e :=
    Fin.ext (by show win0_6.index t (1 : Fin 3) * 15 + 1 * e.val = e.val; omega)
  have c2 : (((cfg0.win 6).blk t).view.emb (ix3 b e n)) 2 = n :=
    Fin.ext (by show win0_6.index t (2 : Fin 3) * 82 + 1 * n.val = n.val; omega)
  unfold layer2
  rw [c0, c1, c2]

/-- An index of the output array is in point `t`'s block iff each coordinate is in the block's range on its axis. -/
theorem mem_blk (t : Fin cfg0.N) (i : S4096x15x82.Idx) :
    i ∈ ((cfg0.win 6).blk t).view.set ↔ ∀ a : Fin 3, win0_6.index t a * S128x15x82.size a ≤ (i a).val ∧ (i a).val < win0_6.index t a * S128x15x82.size a + S128x15x82.size a := by
  show i ∈ ((View.whole main_v28).slice (win0_6.rect t)).set ↔ _
  rw [View.set_slice_whole, Rect.mem_set_unit]
  exact Iff.rfl

/-- Graph `b` of the output lies in the block of point `b / 128`: the 32 blocks of 128 graphs tile the 4096 graphs. -/
theorem cover (i : S4096x15x82.Idx) : ∃ t : Fin cfg0.N, (cfg0.win 6).flush t = true ∧ i ∈ ((cfg0.win 6).blk t).view.set := by
  have hi0 : (i 0).val < 4096 := (i 0).isLt
  have hi1 : (i 1).val < 15 := (i 1).isLt
  have hi2 : (i 2).val < 82 := (i 2).isLt
  have hlt : (i 0).val / 128 < cfg0.N := by show _ < grid0.N; rw [N_0]; omega
  refine ⟨⟨(i 0).val / 128, hlt⟩, flush0_6 _, ?_⟩
  rw [mem_blk]
  obtain ⟨-, -, -, -, -, -, e0, e1, e2⟩ := idx_moving ⟨(i 0).val / 128, hlt⟩
  have e0' : win0_6.index ⟨(i 0).val / 128, hlt⟩ (0 : Fin 3) = (i 0).val / 128 := e0
  intro a
  match a with
  | ⟨0, _⟩ => show win0_6.index _ (0 : Fin 3) * 128 ≤ (i 0).val ∧ (i 0).val < win0_6.index _ (0 : Fin 3) * 128 + 128; omega
  | ⟨1, _⟩ => show win0_6.index _ (1 : Fin 3) * 15 ≤ (i 1).val ∧ (i 1).val < win0_6.index _ (1 : Fin 3) * 15 + 15; omega
  | ⟨2, _⟩ => show win0_6.index _ (2 : Fin 3) * 82 ≤ (i 2).val ∧ (i 2).val < win0_6.index _ (2 : Fin 3) * 82 + 82; omega

/-- THE OUTPUT ARRAY after the region: entry (b, e, n) is the second graph-convolution layer h2 b n e of the six
    arguments (node features, adjacency, first weight and bias, second weight and bias). -/
theorem final0 (c : Dev nD) :
    ((dat0 (F := Ideal) (V5 m ρ) c).arrAt 6 cfg0.N : S4096x15x82.Idx → EReal)
      = fun y => h2 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (y 0) (y 2) (y 1) :=
  (dat0 (F := Ideal) (V5 m ρ) c).arrAt_eq_of_cover 6 (layer2 m c) (fun t _ => flushed_eq m ρ c t) cover

end Cert.KernelIdeal.Gcn0Array

end
-- ==== Proof.KernelValue.lean ====
/-
  The kernel's result is the specification: entry (r, q) of the dense-head region's output array is the
  specification's `out r q` of the arguments as launched.

  The dense-head region leaves the head of the five arrays it reads.  The flattened features it reads are the
  first region's output read row-major (column 82 e + n of graph b is entry (b, e, n)), and that output is the
  second graph-convolution layer; the hidden weight is the argument's with its rows regrouped feature-major; the
  two bias rows and the class weight are the arguments'.  The two flattenings of a graph's features give the same
  1230-term sum.
-/
import proofs.«116279_g79757542687100_cont_9to1c4b_149_25_alg».proof.Proof.KernelIdealFrameP
import proofs.«116279_g79757542687100_cont_9to1c4b_149_25_alg».proof.Proof.Mlp
import proofs.«116279_g79757542687100_cont_9to1c4b_149_25_alg».proof.Proof.Glue
import proofs.«116279_g79757542687100_cont_9to1c4b_149_25_alg».proof.Proof.Gcn0Array
import proofs.«116279_g79757542687100_cont_9to1c4b_149_25_alg».proof.Proof.GcnAlgebra
import proofs.«116279_g79757542687100_cont_9to1c4b_149_25_alg».proof.Proof.Spec

noncomputable section

namespace Cert.KernelIdeal.KValue

open Cert.KernelIdeal Cert.KernelIdeal.Gen Cert.KernelIdeal.GenP
open Idealize.ShloMosaic Idealize.ShloMosaic.TcCoe Idealize.SL.Sem Idealize.ShloMosaic.ValueIdx

/-- The flattened features the dense-head region reads: column `82 e + n` of graph `b` is the second layer's
    feature `e` of node `n`. -/
theorem feat_eq_h2 (m : (ℓ : Loc nD τ sig) → Buf (Elt Ideal) ℓ) (ρ : Dev nD → PrngReg) (c : Dev nD)
    (b : Fin 4096) (e : Fin 15) (n : Fin 82) :
    (V7 m ρ c main_v29 : S4096x1230.Idx → EReal) (ix2 b (⟨82 * e.val + n.val, by omega⟩ : Fin 1230))
      = Cert.GcnSpec.h2 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b n e := by
  have h6 : (V6 m ρ c main_v28 : S4096x15x82.Idx → EReal) = (dat0 (F := Ideal) (V5 m ρ) c).arrAt 6 cfg0.N :=
    (hF0 m ρ c 6).symm
  rw [GlueValue.flat7 m ρ c b e n, h6, Gcn0Array.final0 m ρ c]
  rfl

/-- Entry (r, q) of the dense-head region's output array is the specification's result. -/
theorem out_eq_G (m : (ℓ : Loc nD τ sig) → Buf (Elt Ideal) ℓ) (ρ : Dev nD → PrngReg) (c : Dev nD) :
    ((dat1 (F := Ideal) (V7 m ρ) c).arrAt 5 cfg1.N : S4096x29.Idx → EReal)
      = Cert.GcnSpec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) := by
  rw [MlpValue.final1 (V7 m ρ) c]
  funext i
  obtain ⟨r, q, rfl⟩ : ∃ (r : Fin 4096) (q : Fin 29), i = ix2 r q := ⟨i 0, i 1, eq_ix2 i⟩
  rw [MlpValue.headOut_apply]
  exact GcnAlgebra.head_eq
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (V7 m ρ c main_v29 : S4096x1230.Idx → EReal) (V7 m ρ c main_v26 : S1230x300.Idx → EReal)
    (V7 m ρ c main_v18 : S1x300.Idx → EReal) (V7 m ρ c main_v27 : S300x29.Idx → EReal) (V7 m ρ c main_v19 : S1x29.Idx → EReal)
    (fun b e n => feat_eq_h2 m ρ c b e n)
    (fun e n h => by rw [GlueValue.fwb7 m ρ c]; exact GlueValue.fwb m ρ c e n h)
    (fun h => by rw [GlueValue.fbr7 m ρ c]; exact GlueValue.fbr m ρ c h)
    (fun h q => by rw [GlueValue.owb7 m ρ c, GlueValue.owb m ρ c])
    (fun q => by rw [GlueValue.obr7 m ρ c]; exact GlueValue.obr m ρ c q)
    r q

end Cert.KernelIdeal.KValue

end
-- ==== Proof.lean ====
/-
  The kernel is two graph-convolution layers on 4096 dense graphs of 82 nodes followed by a two-layer dense head; the
  reference computes the same thing with plain contractions. Over the extended reals both end with the result array
      out b c = Σ_h max (Σ_k h2 b (k / 15) (k % 15) · fW[k,h] + fb[h]) 0 · oW[h,c] + ob[c],
  h2 the second layer's rectified output (the specification, module Spec). The kernel reaches it by packing 8 graphs
  side by side against block-diagonal weights (the off-diagonal zeros vanish: 0 · x = 0 for every extended real),
  by contracting per graph with its own adjacency, and by flattening the 15 x 82 features of a graph feature-major
  against a weight whose rows were regrouped the same way (a permutation of a 1230-term sum); no distributivity or
  cancellation is used, so finiteness of the inputs is never needed.
  The three frames: the two kernel programs by their launch over eight segments, the reference by its run with the
  result dropped. The idealization's ledger is empty.
-/
import proofs.«116279_g79757542687100_cont_9to1c4b_149_25_alg».proof.Defs
import proofs.«116279_g79757542687100_cont_9to1c4b_149_25_alg».proof.Proof.Gen.Kernel
import proofs.«116279_g79757542687100_cont_9to1c4b_149_25_alg».proof.Proof.Gen.Kernel.Skeleton
import proofs.«116279_g79757542687100_cont_9to1c4b_149_25_alg».proof.Proof.Gen.Kernel.Launch
import proofs.«116279_g79757542687100_cont_9to1c4b_149_25_alg».proof.Proof.Gen.Kernel.Points
import proofs.«116279_g79757542687100_cont_9to1c4b_149_25_alg».proof.Proof.KernelFrameP
import proofs.«116279_g79757542687100_cont_9to1c4b_149_25_alg».proof.Proof.Gen.KernelIdeal
import proofs.«116279_g79757542687100_cont_9to1c4b_149_25_alg».proof.Proof.Gen.KernelIdeal.Skeleton
import proofs.«116279_g79757542687100_cont_9to1c4b_149_25_alg».proof.Proof.Gen.KernelIdeal.Launch
import proofs.«116279_g79757542687100_cont_9to1c4b_149_25_alg».proof.Proof.Gen.KernelIdeal.Points
import proofs.«116279_g79757542687100_cont_9to1c4b_149_25_alg».proof.Proof.KernelIdealFrameP
import proofs.«116279_g79757542687100_cont_9to1c4b_149_25_alg».proof.Proof.Gen.ReferenceIdeal
import proofs.«116279_g79757542687100_cont_9to1c4b_149_25_alg».proof.Proof.Gen.Pre_finite_inputs
import proofs.«116279_g79757542687100_cont_9to1c4b_149_25_alg».proof.Proof.RefSpec
import proofs.«116279_g79757542687100_cont_9to1c4b_149_25_alg».proof.Proof.KernelRun
import proofs.«116279_g79757542687100_cont_9to1c4b_149_25_alg».proof.Proof.KernelValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.RefValue.run_G m ρ),
  trivial,
  fun m ρ m' ρ' _ hagree =>
    ⟨fun c => Cert.GcnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
     (θ_run Cert.KernelIdeal.defs _ _).mono
       (fun _ h c => ⟨(h c).1.trans (Cert.KernelIdeal.KValue.out_eq_G m ρ c), (h c).2⟩)
       (Cert.KernelIdeal.KRun.run_out m ρ),
     (θ_run Cert.ReferenceIdeal.defs _ _).mono
       (fun _ h c => ⟨by
          rw [(h c).1, (hagree c).1, (hagree c).2.1, (hagree c).2.2.1, (hagree c).2.2.2.1, (hagree c).2.2.2.2.1,
            (hagree c).2.2.2.2.2.1, (hagree c).2.2.2.2.2.2.1, (hagree c).2.2.2.2.2.2.2.1, (hagree c).2.2.2.2.2.2.2.2.1,
            (hagree c).2.2.2.2.2.2.2.2.2], (h c).2⟩)
       (Cert.ReferenceIdeal.RefValue.run_G m' ρ')⟩⟩

end Cert.Proof

end
